-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256 .f32) (main_arg6 : FVec F S256x16 .f32) (main_arg7 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg6
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x128 .f32) (main_arg1 : IVec S2x262144 32) (main_arg2 : FVec F S128x256 .f32) (main_arg3 : FVec F S256 .f32) (main_arg4 : FVec F S256x256 .f32) (main_arg5 : FVec F S256 .f32) (main_arg6 : FVec F S256x16 .f32) (main_arg7 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S1x256 : Shape := ⟨2, ![1, 256]⟩
abbrev S16384x256 : Shape := ⟨2, ![16384, 256]⟩
abbrev S4096x128 : Shape := ⟨2, ![4096, 128]⟩
abbrev S4096x256 : Shape := ⟨2, ![4096, 256]⟩
abbrev S262144x256 : Shape := ⟨2, ![262144, 256]⟩
abbrev S1x16 : Shape := ⟨2, ![1, 16]⟩
abbrev S16384x16 : Shape := ⟨2, ![16384, 16]⟩
abbrev S4096x16 : Shape := ⟨2, ![4096, 16]⟩
abbrev S4096 : Shape := ⟨1, ![4096]⟩
abbrev S4096x1 : Shape := ⟨2, ![4096, 1]⟩
abbrev S16x16384 : Shape := ⟨2, ![16, 16384]⟩
abbrev S16x16 : Shape := ⟨2, ![16, 16]⟩

abbrev nBuf : Space → Nat
  | .hbm => 65
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .f32⟩
  | .hbm, ⟨22, _⟩ => ⟨S16384x128, .f32⟩
  | .hbm, ⟨23, _⟩ => ⟨S262144x1, .i32⟩
  | .hbm, ⟨24, _⟩ => ⟨S16384x128, .f32⟩
  | .hbm, ⟨25, _⟩ => ⟨S1x256, .f32⟩
  | .hbm, ⟨26, _⟩ => ⟨S16384x256, .f32⟩
  | .hbm, ⟨27, _⟩ => ⟨S16384x256, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x256, .f32⟩
  | .hbm, ⟨37, _⟩ => ⟨S_, .f32⟩
  | .hbm, ⟨38, _⟩ => ⟨S16384x256, .f32⟩
  | .hbm, ⟨39, _⟩ => ⟨S262144x1, .i32⟩
  | .hbm, ⟨40, _⟩ => ⟨S16384x256, .f32⟩
  | .hbm, ⟨41, _⟩ => ⟨S1x256, .f32⟩
  | .hbm, ⟨42, _⟩ => ⟨S1x16, .f32⟩
  | .hbm, ⟨43, _⟩ => ⟨S16384x16, .f32⟩
  | .hbm, ⟨44, _⟩ => ⟨S16x16384, .f32⟩
  | .hbm, ⟨45, _⟩ => ⟨S16x16, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S16x16, .f32⟩
  | .hbm, ⟨50, _⟩ => ⟨S16x16, .i32⟩
  | .hbm, ⟨51, _⟩ => ⟨S16x16, .i32⟩
  | .hbm, ⟨52, _⟩ => ⟨S_, .i32⟩
  | .hbm, ⟨53, _⟩ => ⟨S16x16, .i32⟩
  | .hbm, ⟨54, _⟩ => ⟨S16x16, .i32⟩
  | .hbm, ⟨55, _⟩ => ⟨S16x16, .i1⟩
  | .hbm, ⟨56, _⟩ => ⟨S_, .f32⟩
  | .hbm, ⟨57, _⟩ => ⟨S16x16, .f32⟩
  | .hbm, ⟨58, _⟩ => ⟨S16x16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S256x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S1x256, .f32⟩
  | .local _ .vmem, ⟨14, _⟩ => ⟨S256x16, .f32⟩
  | .local _ .vmem, ⟨15, _⟩ => ⟨S1x16, .f32⟩
  | .local _ .vmem, ⟨16, _⟩ => ⟨S4096x16, .f32⟩
  | .local _ .vmem, ⟨17, _⟩ => ⟨S4096x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_c : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_cst : Ref sig .tc := ⟨.hbm, 56, rfl⟩
abbrev main_call0_v5 : Ref sig .tc := ⟨.hbm, 57, rfl⟩
abbrev main_call0_v6 : Ref sig .tc := ⟨.hbm, 58, rfl⟩
abbrev main_call0_cst_0 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S16384x128 : S_.BroadcastsInDim S16384x128 (![] : Fin 0 → Fin S16384x128.rank)
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  bcast_S_S16384x256 : S_.BroadcastsInDim S16384x256 (![] : Fin 0 → Fin S16384x256.rank)
  shapeCasts_S16_S1x16 : S16.ShapeCasts S1x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  reduces_S4096x16_S4096 : S4096x16.Reduces [1] S4096
  shapeCasts_S4096_S4096x1 : S4096.ShapeCasts S4096x1
  broadcasts_S4096x1_S4096x16 : S4096x1.Broadcasts S4096x16
  inb_S4096x16_S4096x16_0_0 : ∀ a, (![0, 0] : Fin 2 → Nat) a + S4096x16.size a ≤ S4096x16.size a
  h_S4096x16 : 0 < S4096x16.numel
  transposes_S16384x16_S16x16384_1_0 : S16384x16.Transposes [1, 0] S16x16384
  bcast_S_S16x16 : S_.BroadcastsInDim S16x16 (![] : Fin 0 → Fin S16x16.rank)
  reducesTo_S16x16_S_d0_1 : S16x16.ReducesTo [0, 1] S_
  h_S_ : 0 < S_.numel
  gather_S16384x128_S262144x1_S262144x128_1_0_n_n_0_1_1128_wf : GatherDims.WF S16384x128 S262144x1 S262144x128 [1] [0] [] [0] [] 1 ![1, 128]
  scatter_S16384x128_S262144x1_S262144x128_1_0_0_1_wf : ScatterDims.WF S16384x128 S262144x1 S262144x128 [1] [0] [0] 1
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S4096x256_S256x16_S4096x16_1_0_0_1_n_n_wf : DotDims.WF S4096x256 S256x16 S4096x16 [1] [0] [0] [1] [] []
  dot_S16x16384_S16384x16_S16x16_1_0_0_1_n_n_wf : DotDims.WF S16x16384 S16384x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S16384x256.size a
  hwx0_3 : ∀ i : grid0.Coords, EltTy.bits .f32 = 32 ∨ (Rect.block (s := S16384x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S16384x256.size a
  hwx1_2 : ∀ i : grid1.Coords, EltTy.bits .f32 = 32 ∨ (Rect.block (s := S16384x256) S4096x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S16384x256.size a
  hwx2_0 : ∀ i : grid2.Coords, EltTy.bits .f32 = 32 ∨ (Rect.block (s := S16384x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x16.size a ≤ S256x16.size a
  hwx2_2 : ∀ i : grid2.Coords, EltTy.bits .f32 = 32 ∨ (Rect.block (s := S256x16) S256x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x16.size a ≤ S16384x16.size a
  hwx2_4 : ∀ i : grid2.Coords, EltTy.bits .f32 = 32 ∨ (Rect.block (s := S16384x16) S4096x16.size (cc2_transform_4 i) (hinb2_4 i)).WholeWords (EltTy.packing .f32)

variable [Facts₀]

def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S16x16384_S16384x16_S16x16_1_0_0_1_n_n : DotDims S16x16384 S16384x16 S16x16 where
  lhsContracting := [1]
  rhsContracting := [0]
  lhsNonContracting := [0]
  rhsNonContracting := [1]
  lhsBatch := []
  rhsBatch := []
  wf := dot_S16x16384_S16384x16_S16x16_1_0_0_1_n_n_wf

abbrev win0_0 : Pipeline.Window sig grid0 :=
  Pipeline.Window.ofSpec (Memref.whole main_v13) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S4096x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x262144 : Shape := ⟨2, ![1, 262144]⟩
abbrev S262144 : Shape := ⟨1, ![262144]⟩
abbrev S16384x256 : Shape := ⟨2, ![16384, 256]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S16384x16 : Shape := ⟨2, ![16384, 16]⟩
abbrev S1x16 : Shape := ⟨2, ![1, 16]⟩
abbrev S16384x16384 : Shape := ⟨2, ![16384, 16384]⟩
abbrev S262144x2 : Shape := ⟨2, ![262144, 2]⟩
abbrev S16384 : Shape := ⟨1, ![16384]⟩
abbrev S16384x1 : Shape := ⟨2, ![16384, 1]⟩
abbrev S16x16384 : Shape := ⟨2, ![16, 16384]⟩
abbrev S16x256 : Shape := ⟨2, ![16, 256]⟩
abbrev S16x16 : Shape := ⟨2, ![16, 16]⟩
abbrev S16x1 : Shape := ⟨2, ![16, 1]⟩

abbrev nBuf : Space → Nat
  | .hbm => 141
  | .vmem => 0
  | .smem => 0
  | _ => 0

abbrev hbmTy0_0 (i : Nat) : BufTy := match i % 128 with
  | 0 => ⟨S16384x128, .f32⟩
  | 1 => ⟨S2x262144, .i32⟩
  | 2 => ⟨S128x256, .f32⟩
  | 3 => ⟨S256, .f32⟩
  | 4 => ⟨S256x256, .f32⟩
  | 5 => ⟨S256, .f32⟩
  | 6 => ⟨S256x16, .f32⟩
  | 7 => ⟨S16, .f32⟩
  | 8 => ⟨S1x262144, .i32⟩
  | 9 => ⟨S262144, .i32⟩
  | 10 => ⟨S1x262144, .i32⟩
  | 11 => ⟨S262144, .i32⟩
  | 12 => ⟨S16384x256, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x256, .f32⟩
  | 22 => ⟨S_, .f32⟩
  | 23 => ⟨S16384x256, .f32⟩
  | 24 => ⟨S262144x1, .i32⟩
  | 25 => ⟨S16384x256, .f32⟩
  | 26 => ⟨S1x256, .f32⟩
  | 27 => ⟨S16384x256, .f32⟩
  | 28 => ⟨S16384x256, .f32⟩
  | 29 => ⟨S_, .f32⟩
  | 30 => ⟨S16384x256, .f32⟩
  | 31 => ⟨S16384x256, .f32⟩
  | 32 => ⟨S16384x256, .f32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S262144x256, .f32⟩
  | 42 => ⟨S_, .f32⟩
  | 43 => ⟨S16384x256, .f32⟩
  | 44 => ⟨S262144x1, .i32⟩
  | 45 => ⟨S16384x256, .f32⟩
  | 46 => ⟨S1x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x16, .f32⟩
  | 53 => ⟨S1x16, .f32⟩
  | 54 => ⟨S16384x16, .f32⟩
  | 55 => ⟨S16384x16, .f32⟩
  | 56 => ⟨S_, .f32⟩
  | 57 => ⟨S16384x16384, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x1, .i32⟩
  | 74 => ⟨S262144x2, .i32⟩
  | 75 => ⟨S_, .f32⟩
  | 76 => ⟨S262144, .f32⟩
  | 77 => ⟨S16384x16384, .f32⟩
  | 78 => ⟨S_, .f32⟩
  | 79 => ⟨S16384, .f32⟩
  | 80 => ⟨S_, .f32⟩
  | 81 => ⟨S16384, .f32⟩
  | 82 => ⟨S16384, .f32⟩
  | 83 => ⟨S16384x1, .f32⟩
  | 84 => ⟨S16384x16, .f32⟩
  | 85 => ⟨S16384x16, .f32⟩
  | 86 => ⟨S16384x16, .f32⟩
  | 87 => ⟨S_, .f32⟩
  | 88 => ⟨S16384, .f32⟩
  | 89 => ⟨S16384x1, .f32⟩
  | 90 => ⟨S16384x16, .f32⟩
  | 91 => ⟨S16384x16, .f32⟩
  | 92 => ⟨S16x16384, .f32⟩
  | 93 => ⟨S16x256, .f32⟩
  | 94 => ⟨S16x16384, .f32⟩
  | 95 => ⟨S16x16384, .f32⟩
  | 96 => ⟨S16x16, .f32⟩
  | 97 => ⟨S16x16384, .f32⟩
  | 98 => ⟨S16x16, .f32⟩
  | 99 => ⟨S_, .f32⟩
  | 100 => ⟨S16x16, .f32⟩
  | 101 => ⟨S16x16, .f32⟩
  | 102 => ⟨S16x16, .f32⟩
  | 103 => ⟨S16x16, .i32⟩
  | 104 => ⟨S16x16, .i32⟩
  | 105 => ⟨S_, .i32⟩
  | 106 => ⟨S16x16, .i32⟩
  | 107 => ⟨S16x16, .i32⟩
  | 108 => ⟨S16x16, .i1⟩
  | 109 => ⟨S_, .f32⟩
  | 110 => ⟨S16x16, .f32⟩
  | 111 => ⟨S16x16, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S16x16, .i32⟩
  | 119 => ⟨S16x16, .i32⟩
  | 120 => ⟨S_, .i32⟩
  | 121 => ⟨S16x16, .i32⟩
  | 122 => ⟨S16x16, .i32⟩
  | 123 => ⟨S16x16, .i1⟩
  | 124 => ⟨S16x16, .f32⟩
  | 125 => ⟨S_, .f32⟩
  | 126 => ⟨S16x16, .f32⟩
  | 127 => ⟨S16x16, .f32⟩
  | _ => ⟨S16384x128, .f32⟩

abbrev hbmTy0_1 (i : Nat) : BufTy := match i % 128 with
  | 0 => ⟨S16x16, .f32⟩
  | 1 => ⟨S_, .f32⟩
  | 2 => ⟨S16, .f32⟩
  | 3 => ⟨S16, .f32⟩
  | 4 => ⟨S1x16, .f32⟩
  | 5 => ⟨S_, .f32⟩
  | 6 => ⟨S1x16, .f32⟩
  | 7 => ⟨S1x16, .f32⟩
  | 8 => ⟨S16x16, .f32⟩
  | 9 => ⟨S16x16, .f32⟩
  | 10 => ⟨S16x1, .f32⟩
  | 11 => ⟨S16x16, .f32⟩
  | 12 => ⟨S16x16, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_v0 : Ref sig .tc := ⟨.hbm, 103, rfl⟩
abbrev main_call2_v1 : Ref sig .tc := ⟨.hbm, 104, rfl⟩
abbrev main_call2_c : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_cst : Ref sig .tc := ⟨.hbm, 109, rfl⟩
abbrev main_call2_v5 : Ref sig .tc := ⟨.hbm, 110, rfl⟩
abbrev main_call2_v6 : Ref sig .tc := ⟨.hbm, 111, rfl⟩
abbrev main_call2_cst_0 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16384 : S_.BroadcastsInDim S16384x16384 (![] : Fin 0 → Fin S16384x16384.rank)
  concatenates_S262144x1_S262144x1_S262144x2_d1 : Shape.Concatenates [S262144x1, S262144x1] S262144x2 1
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  transposes_S16384x16_S16x16384_1_0 : S16384x16.Transposes [1, 0] S16x16384
  bcast_S_S16x16 : S_.BroadcastsInDim S16x16 (![] : Fin 0 → Fin S16x16.rank)
  reducesTo_S16x16_S_d0_1 : S16x16.ReducesTo [0, 1] S_
  reducesTo_S16x16_S16_d1 : S16x16.ReducesTo [1] S16
  bcast_S_S1x16 : S_.BroadcastsInDim S1x16 (![] : Fin 0 → Fin S1x16.rank)
  bcast_S1x16_S16x16_0_1 : S1x16.BroadcastsInDim S16x16 (![0, 1] : Fin 2 → Fin S16x16.rank)
  transposes_S1x16_S16x1_1_0 : S1x16.Transposes [1, 0] S16x1
  bcast_S16x1_S16x16_0_1 : S16x1.BroadcastsInDim S16x16 (![0, 1] : Fin 2 → Fin S16x16.rank)
  dot_S16384x128_S128x256_S16384x256_1_0_0_1_n_n_wf : DotDims.WF S16384x128 S128x256 S16384x256 [1] [0] [0] [1] [] []
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S16384x256_S256x256_S16384x256_1_0_0_1_n_n_wf : DotDims.WF S16384x256 S256x256 S16384x256 [1] [0] [0] [1] [] []
  dot_S16384x256_S256x16_S16384x16_1_0_0_1_n_n_wf : DotDims.WF S16384x256 S256x16 S16384x16 [1] [0] [0] [1] [] []
  scatter_S16384x16384_S262144x2_S262144_n_01_01_1_wf : ScatterDims.WF S16384x16384 S262144x2 S262144 [] [0, 1] [0, 1] 1
  dot_S16x16384_S16384x256_S16x256_1_0_0_1_n_n_wf : DotDims.WF S16x16384 S16384x256 S16x256 [1] [0] [0] [1] [] []
  dot_S16x16384_S16384x16384_S16x16384_1_0_0_1_n_n_wf : DotDims.WF S16x16384 S16384x16384 S16x16384 [1] [0] [0] [1] [] []
  dot_S16x16384_S16384x16_S16x16_1_0_0_1_n_n_wf : DotDims.WF S16x16384 S16384x16 S16x16 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S16x16384_S16384x256_S16x256_1_0_0_1_n_n : DotDims S16x16384 S16384x256 S16x256 where
  lhsContracting := [1]
  rhsContracting := [0]
  lhsNonContracting := [0]
  rhsNonContracting := [1]
  lhsBatch := []
  rhsBatch := []
  wf := dot_S16x16384_S16384x256_S16x256_1_0_0_1_n_n_wf
def dot_S16x16384_S16384x16384_S16x16384_1_0_0_1_n_n : DotDims S16x16384 S16384x16384 S16x16384 where
  lhsContracting := [1]
  rhsContracting := [0]
  lhsNonContracting := [0]
  rhsNonContracting := [1]
  lhsBatch := []
  rhsBatch := []
  wf := dot_S16x16384_S16384x16384_S16x16384_1_0_0_1_n_n_wf
def dot_S16x16384_S16384x16_S16x16_1_0_0_1_n_n : DotDims S16x16384 S16384x16 S16x16 where
  lhsContracting := [1]
  rhsContracting := [0]
  lhsNonContracting := [0]
  rhsNonContracting := [1]
  lhsBatch := []
  rhsBatch := []
  wf := dot_S16x16384_S16384x16_S16x16_1_0_0_1_n_n_wf

class Facts : Prop extends Facts₀ where

variable [Facts]
-- ==== Proof.Stages.lean ====
/-
  The three dense stages of the graph network as whole-array functions over the extended reals.

  Every float is an extended real here and every operation the exact one, so a tiled matrix product is the plain sum
  over the contracted axis, a bias is added lane by lane, a rectifier is a maximum with zero, and a row softmax is
  exp (logit − row maximum) divided by the row's sum of those exponentials, the row maximum taken as a fold of max
  from −∞ (and once more against −∞, as the program does).  The two float words that occur (zero and −∞) are kept
  as their bit patterns: both programs spell the same words, so they are never evaluated.
-/
import Idealize.ShloMosaic.PureOps.Ideal
import Idealize.ShloMosaic.Lib.ValueIdx

noncomputable section

open scoped BigOperators

namespace Cert.Stages

open Idealize.ShloMosaic Idealize.ShloMosaic.ValueIdx

/-- An `n × m` array of extended reals. -/
abbrev Arr2 (n m : Nat) : Type := (⟨2, ![n, m]⟩ : Shape).Idx → EReal

/-- The float word zero, as both programs write it. -/
abbrev zero : EReal := Ideal.ofBits .f32 0x00000000#32
/-- The float word −∞, as both programs write it. -/
abbrev ninf : EReal := Ideal.ofBits .f32 0xFF800000#32

/-! ## Layer 0: rectified affine map of the aggregated features -/

/-- Row `r`, lane `j` of `relu (A · W + b)`: the sum over the 128 input lanes, plus the bias lane, cut at zero. -/
def denseReluAt (A : Arr2 16384 128) (W : Arr2 128 256) (b : Arr2 1 256) (r : Fin 16384) (j : Fin 256) : EReal :=
  max ((∑ k : Fin 128, A (ix2 r k) * W (ix2 k j)) + b (ix2 0 j)) zero

/-- `relu (A · W + b)` as one array. -/
def denseRelu (A : Arr2 16384 128) (W : Arr2 128 256) (b : Arr2 1 256) : Arr2 16384 256 :=
  fun i => denseReluAt A W b (i 0) (i 1)

/-! ## Layer 1: the plain matrix product -/

/-- Row `r`, lane `j` of `H · W`. -/
def denseAt (H : Arr2 16384 256) (W : Arr2 256 256) (r : Fin 16384) (j : Fin 256) : EReal :=
  ∑ k : Fin 256, H (ix2 r k) * W (ix2 k j)

/-- `H · W` as one array. -/
def dense (H : Arr2 16384 256) (W : Arr2 256 256) : Arr2 16384 256 :=
  fun i => denseAt H W (i 0) (i 1)

/-! ## The cluster head: rectified bias, product with the cluster weights, bias, row softmax -/

/-- Row `r`, cluster `j` of the logits `relu (A + b) · Wc + bc`. -/
def logitAt (A : Arr2 16384 256) (b : Arr2 1 256) (Wc : Arr2 256 16) (bc : Arr2 1 16) (r : Fin 16384) (j : Fin 16) : EReal :=
  (∑ k : Fin 256, max (A (ix2 r k) + b (ix2 0 k)) zero * Wc (ix2 k j)) + bc (ix2 0 j)

/-- Row `r`'s maximum logit: the fold of `max` from −∞ over the 16 clusters, taken once more against −∞. -/
def rowMax (A : Arr2 16384 256) (b : Arr2 1 256) (Wc : Arr2 256 16) (bc : Arr2 1 16) (r : Fin 16384) : EReal :=
  max ninf ((Finset.univ : Finset (Fin 16)).fold max ninf (fun j => logitAt A b Wc bc r j))

/-- `exp (logit − row maximum)`. -/
def expAt (A : Arr2 16384 256) (b : Arr2 1 256) (Wc : Arr2 256 16) (bc : Arr2 1 16) (r : Fin 16384) (j : Fin 16) : EReal :=
  Ideal.exp (logitAt A b Wc bc r j - rowMax A b Wc bc r)

/-- The softmax weight of cluster `j` in row `r`. -/
def poolAt (A : Arr2 16384 256) (b : Arr2 1 256) (Wc : Arr2 256 16) (bc : Arr2 1 16) (r : Fin 16384) (j : Fin 16) : EReal :=
  Ideal.div (expAt A b Wc bc r j) (∑ j' : Fin 16, expAt A b Wc bc r j')

/-- The cluster assignment `softmax (relu (A + b) · Wc + bc)` as one array. -/
def pool (A : Arr2 16384 256) (b : Arr2 1 256) (Wc : Arr2 256 16) (bc : Arr2 1 16) : Arr2 16384 16 :=
  fun i => poolAt A b Wc bc (i 0) (i 1)

end Cert.Stages

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.Reg0Pay.lean ====
/-
  The first dense layer's body, read at one entry of its block.

  The body takes a block of 4096 rows of the aggregated features (128 lanes), the whole 128 × 256 weight matrix and the
  1 × 256 bias row, and stores relu (block · W + bias).  At the extended reals the narrowing to bf16 before the product
  is the identity, the product into a zero accumulator is the plain 128-term sum of products, the bias row spread over
  the rows adds its lane, and the rectifier is a maximum with the zero word.  So the stored value at row p, lane q is
    max ((∑ k, block (p, k) · W (k, q)) + bias (0, q)) zero.
-/
import proofs.«109023_j22943715295834_2_alg».proof.Proof.Gen.KernelIdeal.Skeleton
import proofs.«109023_j22943715295834_2_alg».proof.Proof.Stages
import proofs.«109023_j22943715295834_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Reg

open Idealize.ShloMosaic Idealize.ShloMosaic.ValueIdx Cert.KernelIdeal Cert.KernelIdeal.Gen

/-- The first layer's dimension numbers are those of a plain [4096, 128] × [128, 256] product: the left operand is read
    at (row, k), the right at (k, lane). -/
theorem isPlain0 : PlainDot.IsPlain (M := 4096) (K := 128) (N := 256) dot_S4096x128_S128x256_S4096x256_1_0_0_1_n_n where
  rank := rfl
  size := rfl
  lhs0 i q := by simp [DotDims.lhsIdx, dot_S4096x128_S128x256_S4096x256_1_0_0_1_n_n]; rfl
  lhs1 i q := by simp [DotDims.lhsIdx, dot_S4096x128_S128x256_S4096x256_1_0_0_1_n_n]; rfl
  rhs0 i q := by simp [DotDims.rhsIdx, dot_S4096x128_S128x256_S4096x256_1_0_0_1_n_n]; rfl
  rhs1 i q := by simp [DotDims.rhsIdx, dot_S4096x128_S128x256_S4096x256_1_0_0_1_n_n]; rfl

/-- The bias row spread over the 4096 rows of a block, read at row p and lane q, is the bias at lane q. -/
theorem biasRow0_apply (b : FVec Ideal S1x256 .f32) (p : Fin 4096) (q : Fin 256) :
    broadcastTo S4096x256 (shapeCast S1x256 b shapeCasts_S1x256_S1x256) broadcasts_S1x256_S4096x256 (ix2 p q) = b (ix2 0 q) := by
  rw [shapeCast_self]
  refine broadcastTo_apply b broadcasts_S1x256_S4096x256 (ix2 p q) (ix2 0 q) fun a => ?_
  match a with
  | ⟨0, _⟩ => rfl
  | ⟨1, _⟩ => rfl

/-- What the first layer's body stores, read at row p and lane q of its block: the 128-term sum of products, plus the
    bias lane, cut at zero. -/
theorem pay0_apply (x0 : Vec Ideal S4096x128 .f32) (x1 : Vec Ideal S128x256 .f32) (x2 : Vec Ideal S1x256 .f32)
    (p : Fin 4096) (q : Fin 256) :
    k0_pay1 (F := Ideal) x0 x1 x2 (ix2 p q)
      = max ((∑ k : Fin 128, x0 (ix2 p k) * x1 (ix2 k q)) + x2 (ix2 0 q)) Cert.Stages.zero := by
  unfold k0_pay1
  refine (maximumf_apply _ _ _).trans ?_
  refine congrArg₂ max ?_ rfl
  refine (addf_apply _ _ _).trans ?_
  refine congrArg₂ (· + ·) ?_ (biasRow0_apply x2 p q)
  refine (PlainDot.matmul_zero_apply _ isPlain0 none _ _ p q).trans ?_
  refine Finset.sum_congr rfl fun k _ => ?_
  rw [shapeCast_self]
  rfl

end Cert.KernelIdeal.Reg

end
-- ==== Proof.Reg0.lean ====
/-
  The first dense layer as one function of the arrays it finds.

  The layer runs over four grid points.  At point t the row windows (the aggregated features, the output) hold rows
  4096 t … 4096 t + 4095 of their arrays, and the weight matrix and the bias row are whole at every point.  So what
  point t writes back, at row p and lane q of its block, is the layer's value at row 4096 t + p and lane q of the whole
  array; and row r of the output lies in the block of point r / 4096, so the four blocks tile the output.  Hence after
  the last point the output array holds relu (A · W + b) of the arrays the layer was entered with, whatever they are.
-/
import proofs.«109023_j22943715295834_2_alg».proof.Proof.Gen.KernelIdeal.Frame
import proofs.«109023_j22943715295834_2_alg».proof.Proof.Stages
import proofs.«109023_j22943715295834_2_alg».proof.Proof.Reg0Pay
import Idealize.ShloMosaic.Lib.Pipeline.Value
import Idealize.ShloMosaic.Lib.ValueIdx

noncomputable section

open scoped BigOperators

namespace Cert.KernelIdeal.Reg

open Idealize.ShloMosaic Idealize.ShloMosaic.TcCoe Idealize.SL.Sem Idealize.ShloMosaic.ValueIdx
open Idealize.ShloMosaic.Pipeline (Dat)
open Cert.KernelIdeal Cert.KernelIdeal.Gen Cert.Stages

variable (V : (c : Dev nD) → (b : Ref sig .tc) → Buf (Elt Ideal) ((c : Thread nD τ).loc b))

/-- The body's loads and its store start at offset zero on both axes. -/
theorem offs0_zero : (![0, 0] : Fin 2 → Nat) = fun _ => 0 := funext fun a => by fin_cases a <;> rfl

/-- The block indices of the four windows at each of the four points: the two row windows move with the point, the
    weight matrix and the bias row stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are four points. -/
theorem point0_lt (t : Fin cfg0.N) : t.val < 4 := lt_of_lt_of_eq t.isLt N_0

/-- Row p of the block at point t is row 4096 t + p of the array. -/
def row0 (t : Fin cfg0.N) (p : Fin 4096) : Fin 16384 :=
  ⟨4096 * t.val + p.val, by have := point0_lt t; have := p.isLt; omega⟩

/-- The feature window's block at point t, read at (p, k): the array at (4096 t + p, k). -/
theorem blk0_0_apply (c : Dev nD) (t : Fin cfg0.N) (p : Fin 4096) (k : Fin 128) :
    (iblk0 V c 0 t : Vec Ideal S4096x128 .f32) (ix2 p k)
      = (V c (Pipeline.arrRef spec0 0) : S16384x128.Idx → EReal) (ix2 (row0 t p) k) := by
  obtain ⟨e0, e1, -⟩ := idx0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4096 + 1 * p.val = 4096 * t.val + p.val; rw [e0]; omega
  | ⟨1, _⟩ => show win0_0.index t (1 : Fin 2) * 128 + 1 * k.val = k.val; rw [e1]; omega

/-- The weight window's block is the whole weight matrix at every point. -/
theorem blk0_1_apply (c : Dev nD) (t : Fin cfg0.N) (k : Fin 128) (q : Fin 256) :
    (iblk0 V c 1 t : Vec Ideal S128x256 .f32) (ix2 k q)
      = (V c (Pipeline.arrRef spec0 1) : S128x256.Idx → EReal) (ix2 k q) := by
  obtain ⟨-, -, e2, e3, -⟩ := idx0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- The bias window's block is the whole bias row at every point. -/
theorem blk0_2_apply (c : Dev nD) (t : Fin cfg0.N) (q : Fin 256) :
    (iblk0 V c 2 t : Vec Ideal S1x256 .f32) (ix2 0 q)
      = (V c (Pipeline.arrRef spec0 2) : S1x256.Idx → EReal) (ix2 0 q) := by
  obtain ⟨-, -, -, -, e4, e5, -⟩ := idx0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e4]
  | ⟨1, _⟩ => show win0_2.index t (1 : Fin 2) * 256 + 1 * q.val = q.val; rw [e5]; omega

/-- What the body stores at point t, read at (p, q), is the layer's value at row 4096 t + p, lane q. -/
theorem stored0_apply (c : Dev nD) (t : Fin cfg0.N) (p : Fin 4096) (q : Fin 256) :
    k0_pay1 (F := Ideal) (iblk0 V c 0 t) (iblk0 V c 1 t) (iblk0 V c 2 t) (ix2 p q)
      = denseReluAt (V c (Pipeline.arrRef spec0 0)) (V c (Pipeline.arrRef spec0 1)) (V c (Pipeline.arrRef spec0 2))
          (row0 t p) q := by
  refine (pay0_apply (iblk0 V c 0 t) (iblk0 V c 1 t) (iblk0 V c 2 t) p q).trans ?_
  unfold denseReluAt
  refine congrArg₂ max (congrArg₂ (· + ·) (Finset.sum_congr rfl fun k _ => congrArg₂ (· * ·) ?_ ?_) ?_) rfl
  · exact blk0_0_apply V c t p k
  · exact blk0_1_apply V c t k q
  · exact blk0_2_apply V c t q

/-- What point t writes back is block t of the layer's whole output. -/
theorem flushed0_eq (c : Dev nD) (t : Fin cfg0.N) :
    (dat0 (F := Ideal) V c).flushed 3 t
      = ((cfg0.win 3).blk t).view.read (Elt Ideal)
          (denseRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero offs0_zero]
  simp only [View.ld_unit_zero (S := S4096x128) offs0_zero, View.ld_unit_zero (S := S128x256) offs0_zero,
    View.ld_unit_zero (S := S1x256) offs0_zero]
  obtain ⟨-, -, -, -, -, -, e6, e7⟩ := idx0 t
  refine funext fun (j : S4096x256.Idx) => ?_
  obtain ⟨p, q, rfl⟩ : ∃ (p : Fin 4096) (q : Fin 256), j = ix2 p q := ⟨j 0, j 1, eq_ix2 j⟩
  show k0_pay1 (F := Ideal) (iblk0 V c 0 t) (iblk0 V c 1 t) (iblk0 V c 2 t) (ix2 p q)
    = denseRelu (V c (Pipeline.arrRef spec0 0)) (V c (Pipeline.arrRef spec0 1)) (V c (Pipeline.arrRef spec0 2))
        (((cfg0.win 3).blk t).view.emb (ix2 p q))
  have hemb : ((cfg0.win 3).blk t).view.emb (ix2 p q) = (ix2 (row0 t p) q : S16384x256.Idx) := by
    funext a
    apply Fin.ext
    match a with
    | ⟨0, _⟩ => show win0_3.index t (0 : Fin 2) * 4096 + 1 * p.val = 4096 * t.val + p.val; rw [e6]; omega
    | ⟨1, _⟩ => show win0_3.index t (1 : Fin 2) * 256 + 1 * q.val = q.val; rw [e7]; omega
  rw [hemb]
  exact stored0_apply V c t p q

/-- An index of the output array lies in point t's block iff each coordinate lies in the block's range on its axis. -/
theorem mem_blk0 (t : Fin cfg0.N) (i : S16384x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v15).slice (win0_3.rect t)).set ↔ _
  rw [View.set_slice_whole, Rect.mem_set_unit]
  exact Iff.rfl

/-- Row r of the output lies in the block of the point r / 4096: the four row blocks tile the array. -/
theorem cover0 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = (i 0).val / 4096 :=
    ⟨⟨(i 0).val / 4096, by rw [show cfg0.N = 4 from N_0]; omega⟩, rfl⟩
  obtain ⟨-, -, -, -, -, -, e6, e7⟩ := idx0 t
  refine ⟨t, flush0_3 t, ?_⟩
  rw [mem_blk0]
  intro a
  match a with
  | ⟨0, _⟩ =>
    show win0_3.index t (0 : Fin 2) * 4096 ≤ (i 0).val ∧ (i 0).val < win0_3.index t (0 : Fin 2) * 4096 + 4096
    rw [e6, ht]; omega
  | ⟨1, _⟩ =>
    show win0_3.index t (1 : Fin 2) * 256 ≤ (i 1).val ∧ (i 1).val < win0_3.index t (1 : Fin 2) * 256 + 256
    rw [e7]; omega

/-- After the four points the first layer's output array holds relu (A · W + b) of the arrays the layer was entered
    with: the features, the weight matrix and the bias row. -/
theorem final0 (c : Dev nD) :
    (dat0 (F := Ideal) V c).arrAt 3 cfg0.N
      = denseRelu (V c (Pipeline.arrRef spec0 0)) (V c (Pipeline.arrRef spec0 1)) (V c (Pipeline.arrRef spec0 2)) :=
  (dat0 (F := Ideal) V c).arrAt_eq_of_cover 3
    (denseRelu (V c (Pipeline.arrRef spec0 0)) (V c (Pipeline.arrRef spec0 1)) (V c (Pipeline.arrRef spec0 2)))
    (fun t _ => flushed0_eq V c t) cover0

end Cert.KernelIdeal.Reg

end
-- ==== Proof.Reg1Pay.lean ====
/-
  The second dense layer's body, read at one entry of its block.

  The body takes a block of 4096 rows of the first layer's output (256 lanes) and the whole 256 × 256 weight matrix and
  stores block · W.  At the extended reals the narrowing to bf16 is the identity and the product into a zero accumulator
  is the plain 256-term sum of products: the stored value at row p, lane q is ∑ k, block (p, k) · W (k, q).
-/
import proofs.«109023_j22943715295834_2_alg».proof.Proof.Gen.KernelIdeal.Skeleton
import proofs.«109023_j22943715295834_2_alg».proof.Proof.Stages
import proofs.«109023_j22943715295834_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Reg

open Idealize.ShloMosaic Idealize.ShloMosaic.ValueIdx Cert.KernelIdeal Cert.KernelIdeal.Gen

/-- The second layer's dimension numbers are those of a plain [4096, 256] × [256, 256] product: the left operand is read
    at (row, k), the right at (k, lane). -/
theorem isPlain1 : PlainDot.IsPlain (M := 4096) (K := 256) (N := 256) dot_S4096x256_S256x256_S4096x256_1_0_0_1_n_n where
  rank := rfl
  size := rfl
  lhs0 i q := by simp [DotDims.lhsIdx, dot_S4096x256_S256x256_S4096x256_1_0_0_1_n_n]; rfl
  lhs1 i q := by simp [DotDims.lhsIdx, dot_S4096x256_S256x256_S4096x256_1_0_0_1_n_n]; rfl
  rhs0 i q := by simp [DotDims.rhsIdx, dot_S4096x256_S256x256_S4096x256_1_0_0_1_n_n]; rfl
  rhs1 i q := by simp [DotDims.rhsIdx, dot_S4096x256_S256x256_S4096x256_1_0_0_1_n_n]; rfl

/-- What the second layer's body stores, read at row p and lane q of its block: the 256-term sum of products. -/
theorem pay1_apply (x0 : Vec Ideal S4096x256 .f32) (x1 : Vec Ideal S256x256 .f32) (p : Fin 4096) (q : Fin 256) :
    k1_pay1 (F := Ideal) x0 x1 (ix2 p q) = ∑ k : Fin 256, x0 (ix2 p k) * x1 (ix2 k q) := by
  unfold k1_pay1
  refine (PlainDot.matmul_zero_apply _ isPlain1 none _ _ p q).trans ?_
  refine Finset.sum_congr rfl fun k _ => ?_
  rw [shapeCast_self]
  rfl

end Cert.KernelIdeal.Reg

end
-- ==== Proof.Reg1.lean ====
/-
  The second dense layer as one function of the arrays it finds.

  The layer runs over four grid points.  At point t the row windows (the first layer's output, this layer's output)
  hold rows 4096 t … 4096 t + 4095 of their arrays, and the weight matrix is whole at every point.  So what point t
  writes back, at row p and lane q of its block, is the product's value at row 4096 t + p and lane q of the whole array;
  and row r of the output lies in the block of point r / 4096, so the four blocks tile the output.  Hence after the last
  point the output array holds H · W of the arrays the layer was entered with, whatever they are.
-/
import proofs.«109023_j22943715295834_2_alg».proof.Proof.Gen.KernelIdeal.Frame
import proofs.«109023_j22943715295834_2_alg».proof.Proof.Stages
import proofs.«109023_j22943715295834_2_alg».proof.Proof.Reg1Pay
import Idealize.ShloMosaic.Lib.Pipeline.Value
import Idealize.ShloMosaic.Lib.ValueIdx

noncomputable section

open scoped BigOperators

namespace Cert.KernelIdeal.Reg

open Idealize.ShloMosaic Idealize.ShloMosaic.TcCoe Idealize.SL.Sem Idealize.ShloMosaic.ValueIdx
open Idealize.ShloMosaic.Pipeline (Dat)
open Cert.KernelIdeal Cert.KernelIdeal.Gen Cert.Stages

variable (V : (c : Dev nD) → (b : Ref sig .tc) → Buf (Elt Ideal) ((c : Thread nD τ).loc b))

/-- The body's loads and its store start at offset zero on both axes. -/
theorem offs1_zero : (![0, 0] : Fin 2 → Nat) = fun _ => 0 := funext fun a => by fin_cases a <;> rfl

/-- The block indices of the three windows at each of the four points: the two row windows move with the point, the
    weight matrix stays. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are four points. -/
theorem point1_lt (t : Fin cfg1.N) : t.val < 4 := lt_of_lt_of_eq t.isLt N_1

/-- Row p of the block at point t is row 4096 t + p of the array. -/
def row1 (t : Fin cfg1.N) (p : Fin 4096) : Fin 16384 :=
  ⟨4096 * t.val + p.val, by have := point1_lt t; have := p.isLt; omega⟩

/-- The input window's block at point t, read at (p, k): the array at (4096 t + p, k). -/
theorem blk1_0_apply (c : Dev nD) (t : Fin cfg1.N) (p : Fin 4096) (k : Fin 256) :
    (iblk1 V c 0 t : Vec Ideal S4096x256 .f32) (ix2 p k)
      = (V c (Pipeline.arrRef spec1 0) : S16384x256.Idx → EReal) (ix2 (row1 t p) k) := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 4096 + 1 * p.val = 4096 * t.val + p.val; rw [e0]; omega
  | ⟨1, _⟩ => show win1_0.index t (1 : Fin 2) * 256 + 1 * k.val = k.val; rw [e1]; omega

/-- The weight window's block is the whole weight matrix at every point. -/
theorem blk1_1_apply (c : Dev nD) (t : Fin cfg1.N) (k : Fin 256) (q : Fin 256) :
    (iblk1 V c 1 t : Vec Ideal S256x256 .f32) (ix2 k q)
      = (V c (Pipeline.arrRef spec1 1) : S256x256.Idx → EReal) (ix2 k q) := by
  obtain ⟨-, -, e2, e3, -⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 256 + 1 * k.val = k.val; rw [e2]; omega
  | ⟨1, _⟩ => show win1_1.index t (1 : Fin 2) * 256 + 1 * q.val = q.val; rw [e3]; omega

/-- What the body stores at point t, read at (p, q), is the product's value at row 4096 t + p, lane q. -/
theorem stored1_apply (c : Dev nD) (t : Fin cfg1.N) (p : Fin 4096) (q : Fin 256) :
    k1_pay1 (F := Ideal) (iblk1 V c 0 t) (iblk1 V c 1 t) (ix2 p q)
      = denseAt (V c (Pipeline.arrRef spec1 0)) (V c (Pipeline.arrRef spec1 1)) (row1 t p) q := by
  refine (pay1_apply (iblk1 V c 0 t) (iblk1 V c 1 t) p q).trans ?_
  unfold denseAt
  refine Finset.sum_congr rfl fun k _ => congrArg₂ (· * ·) ?_ ?_
  · exact blk1_0_apply V c t p k
  · exact blk1_1_apply V c t k q

/-- What point t writes back is block t of the layer's whole output. -/
theorem flushed1_eq (c : Dev nD) (t : Fin cfg1.N) :
    (dat1 (F := Ideal) V c).flushed 2 t
      = ((cfg1.win 2).blk t).view.read (Elt Ideal)
          (dense (V c (Pipeline.arrRef spec1 0)) (V c (Pipeline.arrRef spec1 1))) := by
  show (cfg1.win 2).cut (grid1.coords t) ((dat1 V c).after 2 t) = _
  rw [after1_2]
  unfold out1_2
  rw [View.canon_unit_zero offs1_zero]
  simp only [View.ld_unit_zero (S := S4096x256) offs1_zero, View.ld_unit_zero (S := S256x256) offs1_zero]
  obtain ⟨-, -, -, -, e4, e5⟩ := idx1 t
  refine funext fun (j : S4096x256.Idx) => ?_
  obtain ⟨p, q, rfl⟩ : ∃ (p : Fin 4096) (q : Fin 256), j = ix2 p q := ⟨j 0, j 1, eq_ix2 j⟩
  show k1_pay1 (F := Ideal) (iblk1 V c 0 t) (iblk1 V c 1 t) (ix2 p q)
    = dense (V c (Pipeline.arrRef spec1 0)) (V c (Pipeline.arrRef spec1 1)) (((cfg1.win 2).blk t).view.emb (ix2 p q))
  have hemb : ((cfg1.win 2).blk t).view.emb (ix2 p q) = (ix2 (row1 t p) q : S16384x256.Idx) := by
    funext a
    apply Fin.ext
    match a with
    | ⟨0, _⟩ => show win1_2.index t (0 : Fin 2) * 4096 + 1 * p.val = 4096 * t.val + p.val; rw [e4]; omega
    | ⟨1, _⟩ => show win1_2.index t (1 : Fin 2) * 256 + 1 * q.val = q.val; rw [e5]; omega
  rw [hemb]
  exact stored1_apply V c t p q

/-- An index of the output array lies in point t's block iff each coordinate lies in the block's range on its axis. -/
theorem mem_blk1 (t : Fin cfg1.N) (i : S16384x256.Idx) :
    i ∈ ((cfg1.win 2).blk t).view.set ↔ ∀ a : Fin 2, win1_2.index t a * S4096x256.size a ≤ (i a).val
      ∧ (i a).val < win1_2.index t a * S4096x256.size a + S4096x256.size a := by
  show i ∈ ((View.whole main_v16).slice (win1_2.rect t)).set ↔ _
  rw [View.set_slice_whole, Rect.mem_set_unit]
  exact Iff.rfl

/-- Row r of the output lies in the block of the point r / 4096: the four row blocks tile the array. -/
theorem cover1 (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  obtain ⟨t, ht⟩ : ∃ t : Fin cfg1.N, t.val = (i 0).val / 4096 :=
    ⟨⟨(i 0).val / 4096, by rw [show cfg1.N = 4 from N_1]; omega⟩, rfl⟩
  obtain ⟨-, -, -, -, e4, e5⟩ := idx1 t
  refine ⟨t, flush1_2 t, ?_⟩
  rw [mem_blk1]
  intro a
  match a with
  | ⟨0, _⟩ =>
    show win1_2.index t (0 : Fin 2) * 4096 ≤ (i 0).val ∧ (i 0).val < win1_2.index t (0 : Fin 2) * 4096 + 4096
    rw [e4, ht]; omega
  | ⟨1, _⟩ =>
    show win1_2.index t (1 : Fin 2) * 256 ≤ (i 1).val ∧ (i 1).val < win1_2.index t (1 : Fin 2) * 256 + 256
    rw [e5]; omega

/-- After the four points the second layer's output array holds H · W of the arrays the layer was entered with: the
    first layer's output and the weight matrix. -/
theorem final1 (c : Dev nD) :
    (dat1 (F := Ideal) V c).arrAt 2 cfg1.N
      = dense (V c (Pipeline.arrRef spec1 0)) (V c (Pipeline.arrRef spec1 1)) :=
  (dat1 (F := Ideal) V c).arrAt_eq_of_cover 2
    (dense (V c (Pipeline.arrRef spec1 0)) (V c (Pipeline.arrRef spec1 1)))
    (fun t _ => flushed1_eq V c t) cover1

end Cert.KernelIdeal.Reg

end
-- ==== Proof.Reg01.lean ====
/-
  The two dense layers of the network, each as one function of the arrays it is entered with: after its four grid
  points the first layer's output array holds relu (A · W + b) and the second's holds H · W.
-/
import proofs.«109023_j22943715295834_2_alg».proof.Proof.Reg0
import proofs.«109023_j22943715295834_2_alg».proof.Proof.Reg1
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.Reg2Pay.lean ====
/-
  The cluster head's block computation, read at one entry.

  A block is 4096 consecutive rows of the aggregated features, each of 256 lanes. The body adds the bias row, cuts at
  zero, multiplies by the 256 × 16 cluster weights, adds the cluster bias, and normalises every row by a softmax: the
  row's maximum logit (a fold of max from −∞ over the 16 clusters, taken once more against −∞) is subtracted, the
  exponentials are taken, and each is divided by their sum over the row. Every float is an extended real, so the matrix
  product is the plain sum over the 256 lanes and a change of float format is the identity.

  The computation is cut in two: the logits of the block, and the row softmax of a vector of logits. Each is read at an
  entry `(p, q)`; entry `(p, q)` of the result depends on the block's row `p` alone, so when that row is row `r` of a
  larger array the entry is the whole-array stage's entry `(r, q)`.
-/
import proofs.«109023_j22943715295834_2_alg».proof.Proof.Gen.KernelIdeal.Skeleton
import proofs.«109023_j22943715295834_2_alg».proof.Proof.Stages
import proofs.«109023_j22943715295834_2_alg».proof.Proof.LibKeepdims
import proofs.«109023_j22943715295834_2_alg».proof.Proof.LibPlainDot
import Idealize.ShloMosaic.Lib.ValueLayout
import Idealize.ShloMosaic.PureOps.Ideal.Laws

noncomputable section

open scoped BigOperators

namespace Cert.KernelIdeal.Reg.Pool

open Idealize.ShloMosaic Idealize.ShloMosaic.ValueIdx
open Cert.KernelIdeal Cert.Stages

/-! ## The body's value in two parts -/

/-- The row softmax of a 4096 × 16 vector of logits, in the body's own operations: lane maximum from −∞, once more
    against −∞, spread back over the lanes and subtracted; exponential; lane sum, spread back; quotient. -/
def softmaxV (v15 : FVec Ideal S4096x16 .f32) : FVec Ideal S4096x16 .f32 :=
  have v16 : FVec Ideal S4096 .f32 := multiReduction .maximumf [1] S4096 v15 0xFF800000#32 Gen.reduces_S4096x16_S4096 (.inl rfl) rfl
  have cst_9 : Ideal .f32 := Scalar.ofBits .f32 0xFF800000#32
  have v17 : FVec Ideal S4096 .f32 := broadcast S4096 cst_9
  have v18 : FVec Ideal S4096 .f32 := maximumf v17 v16
  have v19 : FVec Ideal S4096x1 .f32 := shapeCast S4096x1 v18 Gen.shapeCasts_S4096_S4096x1
  have v20 : FVec Ideal S4096x16 .f32 := broadcastTo S4096x16 v19 Gen.broadcasts_S4096x1_S4096x16
  have v21 : FVec Ideal S4096x16 .f32 := subf v15 v20
  have v22 : FVec Ideal S4096x16 .f32 := exp v21
  have v23 : FVec Ideal S4096 .f32 := multiReduction .add [1] S4096 v22 0x00000000#32 Gen.reduces_S4096x16_S4096 (.inl rfl) rfl
  have v24 : FVec Ideal S4096x1 .f32 := shapeCast S4096x1 v23 Gen.shapeCasts_S4096_S4096x1
  have v25 : FVec Ideal S4096x16 .f32 := broadcastTo S4096x16 v24 Gen.broadcasts_S4096x1_S4096x16
  have v26 : FVec Ideal S4096x16 .f32 := divf v22 v25
  v26

/-- The logits of a block of rows, in the body's own operations: bias row spread down the rows and added, maximum
    with zero, product with the cluster weights into a zero accumulator, cluster bias spread down the rows and added. -/
def logitsV (v0 : Vec Ideal S4096x256 .f32) (v2 : Vec Ideal S1x256 .f32) (v9 : Vec Ideal S256x16 .f32) (v12 : Vec Ideal S1x16 .f32) :
    FVec Ideal S4096x16 .f32 :=
  have v1 : FVec Ideal S4096x256 .f32 := shapeCast S4096x256 v0 Gen.shapeCasts_S4096x256_S4096x256
  have v3 : FVec Ideal S1x256 .f32 := shapeCast S1x256 v2 Gen.shapeCasts_S1x256_S1x256
  have v4 : FVec Ideal S4096x256 .f32 := broadcastTo S4096x256 v3 Gen.broadcasts_S1x256_S4096x256
  have v5 : FVec Ideal S4096x256 .f32 := addf v1 v4
  have cst : Ideal .f32 := Scalar.ofBits .f32 0x00000000#32
  have v6 : FVec Ideal S4096x256 .f32 := broadcast S4096x256 cst
  have v7 : FVec Ideal S4096x256 .f32 := maximumf v5 v6
  have v8 : FVec Ideal S4096x256 .bf16 := truncf .bf16 v7 Gen.bitsLt_bf16_f32
  have v10 : FVec Ideal S256x16 .bf16 := truncf .bf16 v9 Gen.bitsLt_bf16_f32
  have cst_5 : FVec Ideal S4096x16 .f32 := constant S4096x16 .f32 0x00000000#32
  have v11 : FVec Ideal S4096x16 .f32 := matmul dot_S4096x256_S256x16_S4096x16_1_0_0_1_n_n none v8 v10 cst_5
  have v13 : FVec Ideal S1x16 .f32 := shapeCast S1x16 v12 Gen.shapeCasts_S1x16_S1x16
  have v14 : FVec Ideal S4096x16 .f32 := broadcastTo S4096x16 v13 Gen.broadcasts_S1x16_S4096x16
  have v15 : FVec Ideal S4096x16 .f32 := addf v11 v14
  v15

/-- The stored value is the row softmax of the block's logits. -/
theorem pay_split (v0 : Vec Ideal S4096x256 .f32) (v2 : Vec Ideal S1x256 .f32) (v9 : Vec Ideal S256x16 .f32) (v12 : Vec Ideal S1x16 .f32) :
    Gen.k2_pay1 (F := Ideal) v0 v2 v9 v12 = softmaxV (logitsV v0 v2 v9 v12) := rfl

/-! ## The row softmax at an entry -/

/-- Putting lane `j` into the row index `p` gives the entry index `(p, j)`. -/
theorem lift_lane (p : Fin 4096) (j : Fin 16) : Gen.reduces_S4096x16_S4096.lift (ix1 p) j = ix2 p j := by
  funext a; apply Fin.ext
  match a with
  | ⟨0, _⟩ => rfl
  | ⟨1, _⟩ => rfl

/-- The lane maximum of row `p`: the fold of max from −∞ over the row's 16 entries. -/
theorem rowMaxV (v : FVec Ideal S4096x16 .f32) (p : Fin 4096) :
    multiReduction .maximumf [1] S4096 v 0xFF800000#32 Gen.reduces_S4096x16_S4096 (.inl rfl) rfl (ix1 p)
      = (Finset.univ : Finset (Fin 16)).fold max ninf (fun j => v (ix2 p j)) := by
  refine (Ideal.multiReduction_maximumf_single v 0xFF800000#32 Gen.reduces_S4096x16_S4096 (.inl rfl) rfl (ix1 p)).trans ?_
  exact congrArg (fun f => (Finset.univ : Finset (Fin 16)).fold max ninf f) (funext fun j => congrArg v (lift_lane p j))

/-- The lane sum of row `p`: the sum of the row's 16 entries. -/
theorem rowSumV (v : FVec Ideal S4096x16 .f32) (p : Fin 4096) :
    multiReduction .add [1] S4096 v 0x00000000#32 Gen.reduces_S4096x16_S4096 (.inl rfl) rfl (ix1 p)
      = ∑ j : Fin 16, v (ix2 p j) := by
  refine (Ideal.multiReduction_add_single v 0x00000000#32 Gen.reduces_S4096x16_S4096 (.inl rfl) rfl (ix1 p)).trans ?_
  exact Finset.sum_congr rfl fun j _ => congrArg v (lift_lane p j)

/-- One value per row, made a column and spread over the 16 lanes, reads at `(p, q)` row `p`'s value. -/
theorem col_apply (w : FVec Ideal S4096 .f32) (p : Fin 4096) (q : Fin 16) :
    broadcastTo S4096x16 (shapeCast S4096x1 w Gen.shapeCasts_S4096_S4096x1) Gen.broadcasts_S4096x1_S4096x16 (ix2 p q) = w (ix1 p) :=
  (Keepdims.broadcastTo_a1_ab_apply _ _ p q).trans (Keepdims.shapeCast_a_a1_apply w _ p 0)

/-- Row `p`'s maximum as the body takes it: the fold of max from −∞ over the row, once more against −∞. -/
def rowMaxOf (v : FVec Ideal S4096x16 .f32) (p : Fin 4096) : EReal :=
  max ninf ((Finset.univ : Finset (Fin 16)).fold max ninf (fun j => v (ix2 p j)))

/-- Entry `(p, q)` of the row softmax: exp (entry − row maximum) over the row's sum of such exponentials. -/
theorem softmaxV_apply (v : FVec Ideal S4096x16 .f32) (p : Fin 4096) (q : Fin 16) :
    softmaxV v (ix2 p q)
      = Ideal.div (Ideal.exp (v (ix2 p q) - rowMaxOf v p)) (∑ j : Fin 16, Ideal.exp (v (ix2 p j) - rowMaxOf v p)) := by
  have hM : ∀ q' : Fin 16,
      (broadcastTo S4096x16 (shapeCast S4096x1 (maximumf (broadcast S4096 (Scalar.ofBits (F := Ideal) .f32 0xFF800000#32))
        (multiReduction .maximumf [1] S4096 v 0xFF800000#32 Gen.reduces_S4096x16_S4096 (.inl rfl) rfl)) Gen.shapeCasts_S4096_S4096x1)
        Gen.broadcasts_S4096x1_S4096x16 : FVec Ideal S4096x16 .f32) (ix2 p q') = rowMaxOf v p :=
    fun q' => (col_apply _ p q').trans (congrArg (max ninf) (rowMaxV v p))
  unfold softmaxV
  show Ideal.div (Ideal.exp (v (ix2 p q) - _)) _ = _
  rw [hM q, col_apply, rowSumV]
  refine congrArg (Ideal.div _) (Finset.sum_congr rfl fun j _ => ?_)
  show Ideal.exp (v (ix2 p j) - _) = _
  rw [hM j]

/-! ## The logits at an entry -/

/-- The cluster head's product is a plain one: the result's row indexes the left operand's rows, its column the right
    operand's columns, and the one contracted axis runs over the left operand's lanes and the right operand's rows. -/
theorem plainWc : PlainDot.IsPlain dot_S4096x256_S256x16_S4096x16_1_0_0_1_n_n where
  rank := rfl
  size := rfl
  lhs0 := fun i q => by
    unfold DotDims.lhsIdx
    rw [dif_neg (show ¬(0 : Fin S4096x256.rank) ∈ dot_S4096x256_S256x16_S4096x16_1_0_0_1_n_n.lhsBatch by decide),
      dif_pos (show (0 : Fin S4096x256.rank) ∈ dot_S4096x256_S256x16_S4096x16_1_0_0_1_n_n.lhsNonContracting by decide)]
    rfl
  lhs1 := fun i q => dot_S4096x256_S256x16_S4096x16_1_0_0_1_n_n.lhsIdx_val_of_single rfl i q
  rhs0 := fun i q => dot_S4096x256_S256x16_S4096x16_1_0_0_1_n_n.rhsIdx_val_of_single rfl i q
  rhs1 := fun i q => by
    unfold DotDims.rhsIdx
    rw [dif_neg (show ¬(1 : Fin S256x16.rank) ∈ dot_S4096x256_S256x16_S4096x16_1_0_0_1_n_n.rhsBatch by decide),
      dif_pos (show (1 : Fin S256x16.rank) ∈ dot_S4096x256_S256x16_S4096x16_1_0_0_1_n_n.rhsNonContracting by decide)]
    rfl

/-- Entry `(p, q)` of a block's logits: the rectified biased row `p` against column `q` of the weights, plus the bias lane. -/
theorem logitsV_apply (x0 : Vec Ideal S4096x256 .f32) (x1 : Vec Ideal S1x256 .f32) (x2 : Vec Ideal S256x16 .f32) (x3 : Vec Ideal S1x16 .f32)
    (p : Fin 4096) (q : Fin 16) :
    logitsV x0 x1 x2 x3 (ix2 p q)
      = (∑ k : Fin 256, max (x0 (ix2 p k) + x1 (ix2 0 k)) zero * x2 (ix2 k q)) + x3 (ix2 0 q) := by
  unfold logitsV
  show FloatOps.matmul dot_S4096x256_S256x16_S4096x16_1_0_0_1_n_n none _ _ (constant (F := Ideal) S4096x16 .f32 0x00000000#32) (ix2 p q)
      + broadcastTo S4096x16 (shapeCast S1x16 x3 Gen.shapeCasts_S1x16_S1x16) Gen.broadcasts_S1x16_S4096x16 (ix2 p q) = _
  refine congrArg₂ (· + ·) ?_ ?_
  · refine (PlainDot.matmul_zero_apply dot_S4096x256_S256x16_S4096x16_1_0_0_1_n_n plainWc none _ _ p q).trans
      (Finset.sum_congr rfl fun k _ => ?_)
    show max (shapeCast S4096x256 x0 Gen.shapeCasts_S4096x256_S4096x256 (ix2 p k)
        + broadcastTo S4096x256 (shapeCast S1x256 x1 Gen.shapeCasts_S1x256_S1x256) Gen.broadcasts_S1x256_S4096x256 (ix2 p k)) zero
        * x2 (ix2 k q) = _
    rw [shapeCast_self, shapeCast_self, broadcastTo_1b_ab_apply]
  · rw [shapeCast_self, broadcastTo_1b_ab_apply]

/-! ## The stored value at an entry -/

/-- Entry `(p, q)` of what the body stores, when the block's row `p` is row `r` of the array `A`: the cluster head's
    softmax weight of cluster `q` in row `r`. -/
theorem pay_apply (A : Arr2 16384 256) (x0 : Vec Ideal S4096x256 .f32) (x1 : Vec Ideal S1x256 .f32) (x2 : Vec Ideal S256x16 .f32)
    (x3 : Vec Ideal S1x16 .f32) (p : Fin 4096) (r : Fin 16384) (hrow : ∀ k : Fin 256, x0 (ix2 p k) = A (ix2 r k)) (q : Fin 16) :
    Gen.k2_pay1 (F := Ideal) x0 x1 x2 x3 (ix2 p q) = poolAt A x1 x2 x3 r q := by
  have hl : ∀ j : Fin 16, logitsV x0 x1 x2 x3 (ix2 p j) = logitAt A x1 x2 x3 r j := fun j => by
    rw [logitsV_apply]; unfold logitAt; simp only [hrow]
  have hm : rowMaxOf (logitsV x0 x1 x2 x3) p = rowMax A x1 x2 x3 r := by
    unfold rowMaxOf rowMax; simp only [hl]
  rw [pay_split, softmaxV_apply]
  unfold poolAt expAt
  simp only [hl, hm]

end Cert.KernelIdeal.Reg.Pool

end
-- ==== Proof.Reg2.lean ====
/-
  The cluster head over the whole array.

  The third kernel region walks four grid points; at point `t` it stages rows `4096 t … 4096 t + 4095` of the aggregated
  features (all 256 lanes), the whole bias row, the whole 256 × 16 weight matrix and the whole cluster bias, runs the
  body, and writes the 4096 × 16 result back as rows `4096 t … 4096 t + 4095` of the output. Entry `(p, q)` of the
  body's result depends on row `p` of the staged block alone, which is row `4096 t + p` of the array, so what point `t`
  writes back is block `t` of one whole-array function: the row softmax of `relu (A + b) · Wc + bc`. The four blocks
  tile the 16384 rows (row `r` lies in block `r / 4096`), so after the region the output array is that function.
-/
import proofs.«109023_j22943715295834_2_alg».proof.Proof.Gen.KernelIdeal.Frame
import proofs.«109023_j22943715295834_2_alg».proof.Proof.Stages
import proofs.«109023_j22943715295834_2_alg».proof.Proof.Reg2Pay
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Pool

theorem hz : (![0, 0] : Fin 2 → Nat) = fun _ => 0 := funext fun a => by fin_cases a <;> rfl

/-- The block index maps over the four grid points: the feature window and the output window are at row block `t`,
    lane block 0; the bias row, the weights and the cluster bias are always at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the feature block at point `t` is row `4096 t + p` of the feature array. -/
theorem blk0_apply (c : Dev nD) (t : Fin cfg2.N) (p : Fin 4096) (k : Fin 256) (r : Fin 16384) (hr : r.val = 4096 * t.val + p.val) :
    (iblk2 (F := Ideal) V c 0 t : Vec Ideal S4096x256 .f32) (ix2 p k) = (V c main_v26 : S16384x256.Idx → EReal) (ix2 r k) := by
  obtain ⟨e0, e1, -⟩ := idx_facts t
  unfold iblk2
  rw [View.read_apply]
  show V c main_v26 _ = V c main_v26 _
  refine congrArg _ (funext fun a => Fin.ext ?_)
  match a with
  | ⟨0, _⟩ => show win2_0.index t (0 : Fin 2) * 4096 + 1 * p.val = r.val; rw [e0, hr]; omega
  | ⟨1, _⟩ => show win2_0.index t (1 : Fin 2) * 256 + 1 * k.val = k.val; rw [e1]; omega

/-- The bias row's block is the whole bias row at every point. -/
theorem blk1_eq (c : Dev nD) (t : Fin cfg2.N) : (iblk2 (F := Ideal) V c 1 t : Vec Ideal S1x256 .f32) = V c main_v27 := by
  obtain ⟨-, -, e0, e1, -⟩ := idx_facts t
  funext j
  unfold iblk2
  rw [View.read_apply]
  show V c main_v27 _ = V c main_v27 _
  refine congrArg _ (funext fun a => Fin.ext ?_)
  match a with
  | ⟨0, _⟩ => show win2_1.index t (0 : Fin 2) * 1 + 1 * (j 0).val = (j 0).val; rw [e0]; omega
  | ⟨1, _⟩ => show win2_1.index t (1 : Fin 2) * 256 + 1 * (j 1).val = (j 1).val; rw [e1]; omega

/-- The weights' block is the whole weight matrix at every point. -/
theorem blk2_eq (c : Dev nD) (t : Fin cfg2.N) : (iblk2 (F := Ideal) V c 2 t : Vec Ideal S256x16 .f32) = V c main_arg6 := by
  obtain ⟨-, -, -, -, e0, e1, -⟩ := idx_facts t
  funext j
  unfold iblk2
  rw [View.read_apply]
  show V c main_arg6 _ = V c main_arg6 _
  refine congrArg _ (funext fun a => Fin.ext ?_)
  match a with
  | ⟨0, _⟩ => show win2_2.index t (0 : Fin 2) * 256 + 1 * (j 0).val = (j 0).val; rw [e0]; omega
  | ⟨1, _⟩ => show win2_2.index t (1 : Fin 2) * 16 + 1 * (j 1).val = (j 1).val; rw [e1]; omega

/-- The cluster bias's block is the whole cluster bias at every point. -/
theorem blk3_eq (c : Dev nD) (t : Fin cfg2.N) : (iblk2 (F := Ideal) V c 3 t : Vec Ideal S1x16 .f32) = V c main_v28 := by
  obtain ⟨-, -, -, -, -, -, e0, e1, -⟩ := idx_facts t
  funext j
  unfold iblk2
  rw [View.read_apply]
  show V c main_v28 _ = V c main_v28 _
  refine congrArg _ (funext fun a => Fin.ext ?_)
  match a with
  | ⟨0, _⟩ => show win2_3.index t (0 : Fin 2) * 1 + 1 * (j 0).val = (j 0).val; rw [e0]; omega
  | ⟨1, _⟩ => show win2_3.index t (1 : Fin 2) * 16 + 1 * (j 1).val = (j 1).val; rw [e1]; omega

/-- What point `t` writes back is block `t` of the cluster head of the arrays as the region finds them. -/
theorem flushed_eq (c : Dev nD) (t : Fin cfg2.N) :
    (dat2 (F := Ideal) V c).flushed 4 t = ((cfg2.win 4).blk t).view.read (Elt Ideal)
      (Cert.Stages.pool (V c main_v26) (V c main_v27) (V c main_arg6) (V c main_v28)) := by
  show (cfg2.win 4).cut (grid2.coords t) ((dat2 V c).after 4 t) = _
  rw [after2_4]
  unfold out2_4
  rw [View.canon_unit_zero hz]
  simp only [View.ld_unit_zero (S := S4096x256) hz, View.ld_unit_zero (S := S1x256) hz, View.ld_unit_zero (S := S256x16) hz,
    View.ld_unit_zero (S := S1x16) hz]
  rw [blk1_eq, blk2_eq, blk3_eq]
  obtain ⟨-, -, -, -, -, -, -, -, e0, e1⟩ := idx_facts t
  have ht : t.val < 4 := by have h := t.isLt; have hN : cfg2.N = 4 := N_2; omega
  funext j
  obtain ⟨p, q, rfl⟩ : ∃ (p : Fin 4096) (q : Fin 16), j = ix2 p q := ⟨j 0, j 1, eq_ix2 j⟩
  have hp : p.val < 4096 := p.isLt
  refine (pay_apply (V c main_v26) (iblk2 V c 0 t) (V c main_v27) (V c main_arg6) (V c main_v28) p
    ⟨4096 * t.val + p.val, by omega⟩ (fun k => blk0_apply V c t p k ⟨4096 * t.val + p.val, by omega⟩ rfl) q).trans ?_
  show _ = Cert.Stages.poolAt _ _ _ _ ((((cfg2.win 4).blk t).view.emb (ix2 p q)) 0) ((((cfg2.win 4).blk t).view.emb (ix2 p q)) 1)
  have h0 : (((cfg2.win 4).blk t).view.emb (ix2 p q)) 0 = (⟨4096 * t.val + p.val, by omega⟩ : Fin 16384) :=
    Fin.ext (by show win2_4.index t (0 : Fin 2) * 4096 + 1 * p.val = 4096 * t.val + p.val; rw [e0]; omega)
  have h1 : (((cfg2.win 4).blk t).view.emb (ix2 p q)) 1 = q :=
    Fin.ext (by show win2_4.index t (1 : Fin 2) * 16 + 1 * q.val = q.val; rw [e1]; omega)
  rw [h0, h1]

/-- An index of the output array is in point `t`'s block iff each coordinate is in the block's range on its axis. -/
theorem mem_blk (t : Fin cfg2.N) (i : S16384x16.Idx) :
    i ∈ ((cfg2.win 4).blk t).view.set ↔ ∀ a : Fin 2, win2_4.index t a * S4096x16.size a ≤ (i a).val
      ∧ (i a).val < win2_4.index t a * S4096x16.size a + S4096x16.size a := by
  show i ∈ ((View.whole main_v29).slice (win2_4.rect t)).set ↔ _
  rw [View.set_slice_whole, Rect.mem_set_unit]
  exact Iff.rfl

/-- Every entry of the output array is written back by some point: row `r` by point `r / 4096`. -/
theorem cover (i : S16384x16.Idx) : ∃ t : Fin cfg2.N, (cfg2.win 4).flush t = true ∧ i ∈ ((cfg2.win 4).blk t).view.set := by
  have hi0 : (i 0).val < 16384 := (i 0).isLt
  have hi1 : (i 1).val < 16 := (i 1).isLt
  have hN : cfg2.N = 4 := N_2
  obtain ⟨-, -, -, -, -, -, -, -, e0, e1⟩ := idx_facts ⟨(i 0).val / 4096, by rw [hN]; omega⟩
  refine ⟨⟨(i 0).val / 4096, by rw [hN]; omega⟩, flush2_4 _, ?_⟩
  rw [mem_blk]
  intro a
  match a with
  | ⟨0, _⟩ =>
    show win2_4.index _ (0 : Fin 2) * 4096 ≤ (i 0).val ∧ (i 0).val < win2_4.index _ (0 : Fin 2) * 4096 + 4096
    rw [e0]; show (i 0).val / 4096 * 4096 ≤ (i 0).val ∧ (i 0).val < (i 0).val / 4096 * 4096 + 4096; omega
  | ⟨1, _⟩ =>
    show win2_4.index _ (1 : Fin 2) * 16 ≤ (i 1).val ∧ (i 1).val < win2_4.index _ (1 : Fin 2) * 16 + 16
    rw [e1]; omega

end Pool

/-- After the third region the output array is the cluster head of the arrays the region found: the row softmax of
    `relu (A + b) · Wc + bc`, over all 16384 rows. -/
theorem final2 (c : Dev nD) :
    (dat2 (F := Ideal) V c).arrAt 4 cfg2.N
      = Cert.Stages.pool (V c (Pipeline.arrRef spec2 0)) (V c (Pipeline.arrRef spec2 1)) (V c (Pipeline.arrRef spec2 2))
          (V c (Pipeline.arrRef spec2 3)) :=
  (dat2 (F := Ideal) V c).arrAt_eq_of_cover 4 _ (fun t _ => Pool.flushed_eq V c t) Pool.cover

end Cert.KernelIdeal.Reg

end
-- ==== Proof.KerRunW8.lean ====
/-
  The program's run with its two results read at the end.

  The run is a chain of eight segments (five stretches of host operations and three tiled regions).  At the end
  of the chain every unscoped buffer holds the last boundary's contents, the fold of the segments over the
  launch memory.  Reading the two result buffers and the eight argument buffers there gives: each result is
  the fold at its buffer, and each argument is what was launched (nothing writes an argument).
-/
import proofs.«109023_j22943715295834_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution from `m` terminates without a fault; at the end the two result buffers hold the
    last boundary's contents and the eight arguments are as launched. -/
theorem run_W8 : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v29 (by decide)),
       h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KerRun

end
-- ==== Proof.KerTerm.lean ====
/-
  The aggregating network's result as staged pure functions of its eight argument arrays, every float an
  extended real.

  The edge list gives a source row and a destination row per edge; a negative source is wrapped once by the
  number of nodes.  An aggregation gathers the source rows of an array and adds each into its destination row
  of a zero array.  The three dense stages are the closed forms of `Cert.Stages`; between them sit the two
  aggregations, and after them the tail: the Gram matrix of the cluster assignment, a small shift, an
  entrywise square root, the trace (the diagonal picked by comparing row and column counters, everything else
  replaced by zero, then summed), a sign change and a division by the square root of the edge count.
-/
import proofs.«109023_j22943715295834_2_alg».proof.KernelIdeal
import proofs.«109023_j22943715295834_2_alg».proof.Proof.Stages

noncomputable section

namespace Cert.KernelIdeal.Term

open Idealize.ShloMosaic Idealize.SL.Sem
open Cert.KernelIdeal Cert.KernelIdeal.Facts₀ Cert.KernelIdeal.Facts

variable [Cert.KernelIdeal.Facts]

/-- A float array of the given shape, every entry an extended real. -/
abbrev FArr (s : Shape) : Type := FVec Ideal s .f32
/-- An array of 32-bit integers of the given shape. -/
abbrev IArr (s : Shape) : Type := IVec s 32
/-- An array of truth values of the given shape. -/
abbrev BArr (s : Shape) : Type := IVec s 1

/-! ## The edge list -/

/-- The source row of every edge: row 0 of the edge list, flattened. -/
def src (ei : IArr S2x262144) : IArr S262144 :=
  shapeCast S262144 (extractStridedSlice S1x262144 ![0, 0] ei slices_S2x262144_S1x262144_0_0) shapeCasts_S1x262144_S262144

/-- The destination row of every edge: row 1 of the edge list, flattened. -/
def dst (ei : IArr S2x262144) : IArr S262144 :=
  shapeCast S262144 (extractStridedSlice S1x262144 ![1, 0] ei slices_S2x262144_S1x262144_1_0) shapeCasts_S1x262144_S262144

/-- The source rows with a negative one wrapped by the number of nodes. -/
def srcN (ei : IArr S2x262144) : IArr S262144 :=
  select (cmpi .slt (src ei) (broadcastInDim S262144 ![] bcast_S_S262144 (constantI S_ 32 0#32) : IArr S262144) : BArr S262144)
    (addi (src ei) (broadcastInDim S262144 ![] bcast_S_S262144 (constantI S_ 32 16384#32) : IArr S262144) : IArr S262144)
    (src ei)

/-- The wrapped source rows as a column of start indices. -/
def idxS (ei : IArr S2x262144) : IArr S262144x1 :=
  broadcastInDim S262144x1 ![0] bcast_S262144_S262144x1_0 (srcN ei)

/-- The destination rows as a column of scatter indices. -/
def idxD (ei : IArr S2x262144) : IArr S262144x1 :=
  broadcastInDim S262144x1 ![0] bcast_S262144_S262144x1_0 (dst ei)

/-! ## The two aggregations -/

/-- Width 128: every edge's source row of `x` added into its destination row of a zero array. -/
def agg128 (ei : IArr S2x262144) (x : FArr S16384x128) : FArr S16384x128 :=
  Host.scatterAdd (F := Ideal) scatter_S16384x128_S262144x1_S262144x128_1_0_0_1
    (broadcastInDim S16384x128 ![] bcast_S_S16384x128 (constant (F := Ideal) S_ .f32 0x00000000#32) : FArr S16384x128)
    (idxD ei)
    (Host.gather gather_S16384x128_S262144x1_S262144x128_1_0_n_n_0_1_1128 x (idxS ei))

/-- Width 256: the same aggregation of `p`. -/
def agg256 (ei : IArr S2x262144) (p : FArr S16384x256) : FArr S16384x256 :=
  Host.scatterAdd (F := Ideal) scatter_S16384x256_S262144x1_S262144x256_1_0_0_1
    (broadcastInDim S16384x256 ![] bcast_S_S16384x256 (constant (F := Ideal) S_ .f32 0x00000000#32) : FArr S16384x256)
    (idxD ei)
    (Host.gather gather_S16384x256_S262144x1_S262144x256_1_0_n_n_0_1_1256 p (idxS ei))

/-! ## The dense stages -/

/-- Layer 0 on the aggregated features: `relu (agg · W0 + b0)`. -/
def h0 (x : FArr S16384x128) (ei : IArr S2x262144) (W0 : FArr S128x256) (b0 : FArr S256) : FArr S16384x256 :=
  Cert.Stages.denseRelu (agg128 ei x) W0 (shapeCast S1x256 b0 shapeCasts_S256_S1x256)

/-- Layer 1 before its aggregation: `h0 · W1`. -/
def l1 (x : FArr S16384x128) (ei : IArr S2x262144) (W0 : FArr S128x256) (b0 : FArr S256)
    (W1 : FArr S256x256) : FArr S16384x256 :=
  Cert.Stages.dense (h0 x ei W0 b0) W1

/-- The cluster assignment: `softmax (relu (agg (h0 · W1) + b1) · Wc + bc)`, row by row. -/
def s (x : FArr S16384x128) (ei : IArr S2x262144) (W0 : FArr S128x256) (b0 : FArr S256)
    (W1 : FArr S256x256) (b1 : FArr S256) (Wc : FArr S256x16) (bc : FArr S16) : FArr S16384x16 :=
  Cert.Stages.pool (agg256 ei (l1 x ei W0 b0 W1)) (shapeCast S1x256 b1 shapeCasts_S256_S1x256) Wc
    (shapeCast S1x16 bc shapeCasts_S16_S1x16)

/-! ## The tail -/

/-- The loss of a cluster assignment `sv`: minus the trace of the entrywise square root of `svᵀ · sv` shifted by
    a small constant, over the square root of the edge count. -/
def tail (sv : FArr S16384x16) : FArr S_ :=
  Host.divf (F := Ideal)
    (Host.negf (F := Ideal)
      (Host.reduceAdd (F := Ideal)
        (select
          (cmpi .eq
            (addi (iotaInDim S16x16 32 0 : IArr S16x16)
              (broadcastInDim S16x16 ![] bcast_S_S16x16 (constantI S_ 32 0#32) : IArr S16x16) : IArr S16x16)
            (iotaInDim S16x16 32 1 : IArr S16x16) : BArr S16x16)
          (Host.sqrt (F := Ideal)
            (addf
              (Host.dotGeneral (F := Ideal) dot_S16x16384_S16384x16_S16x16_1_0_0_1_n_n (some .fp32)
                (transpose S16x16384 [1, 0] sv transposes_S16384x16_S16x16384_1_0 : FArr S16x16384) sv : FArr S16x16)
              (broadcastInDim S16x16 ![] bcast_S_S16x16 (constant (F := Ideal) S_ .f32 0x26901D7D#32) : FArr S16x16)
              : FArr S16x16) : FArr S16x16)
          (broadcastInDim S16x16 ![] bcast_S_S16x16 (constant (F := Ideal) S_ .f32 0x00000000#32) : FArr S16x16)
          : FArr S16x16)
        (constant (F := Ideal) S_ .f32 0x00000000#32) reducesTo_S16x16_S_d0_1 h_S_ : FArr S_) : FArr S_)
    (Host.sqrt (F := Ideal) (constant (F := Ideal) S_ .f32 0x48800000#32 : FArr S_) : FArr S_)

/-! ## The two results -/

/-- The first result: the cluster assignment. -/
def out_s (x : FArr S16384x128) (ei : IArr S2x262144) (W0 : FArr S128x256) (b0 : FArr S256)
    (W1 : FArr S256x256) (b1 : FArr S256) (Wc : FArr S256x16) (bc : FArr S16) : FArr S16384x16 :=
  s x ei W0 b0 W1 b1 Wc bc

/-- The second result: the loss of the cluster assignment. -/
def out_loss (x : FArr S16384x128) (ei : IArr S2x262144) (W0 : FArr S128x256) (b0 : FArr S256)
    (W1 : FArr S256x256) (b1 : FArr S256) (Wc : FArr S256x16) (bc : FArr S16) : FArr S_ :=
  tail (s x ei W0 b0 W1 b1 Wc bc)

end Cert.KernelIdeal.Term

end
-- ==== Proof.KerWalk.lean ====
/-
  The last boundary's contents at the two result buffers, walked back through the chain of segments to the
  launch memory.

  A stretch of host operations leaves a buffer it does not write as it found it, and leaves each operation's
  result at that operation's function of what it found at the operands.  A tiled region leaves its output
  array at the region's closed form of its input arrays as it found them, and every other buffer as it found
  it.  Walking back one boundary at a time, each boundary's contents a variable, gives each result as the
  staged function of the eight argument arrays.
-/
import proofs.«109023_j22943715295834_2_alg».proof.Proof.Gen.KernelIdeal.Frame
import proofs.«109023_j22943715295834_2_alg».proof.Proof.KerTerm

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

/-! ## One stretch of host operations, from any contents `X` -/

section Stretches

variable (X : Valuation τ sig (Elt Ideal))

/-! ### The first stretch: the edge list split, the first aggregation, the first bias reshaped -/

theorem first_src : StableHlo.after (hostOps0 (F := Ideal)) X (Proc.devRef .tc main_v1)
    = Term.src (X (Proc.devRef .tc main_arg1)) := by
  after_results <;> rfl

theorem first_dst : StableHlo.after (hostOps0 (F := Ideal)) X (Proc.devRef .tc main_v3)
    = Term.dst (X (Proc.devRef .tc main_arg1)) := by
  after_results <;> rfl

theorem first_agg : StableHlo.after (hostOps0 (F := Ideal)) X (Proc.devRef .tc main_v13)
    = Term.agg128 (X (Proc.devRef .tc main_arg1)) (X (Proc.devRef .tc main_arg0)) := by
  after_results <;> rfl

theorem first_bias : StableHlo.after (hostOps0 (F := Ideal)) X (Proc.devRef .tc main_v14)
    = (shapeCast S1x256 (X (Proc.devRef .tc main_arg3) : Term.FArr S256) shapeCasts_S256_S1x256 : Term.FArr S1x256) := by
  after_results <;> rfl

theorem first_arg2 : StableHlo.after (hostOps0 (F := Ideal)) X (Proc.devRef .tc main_arg2) = X (Proc.devRef .tc main_arg2) := by
  after_results
theorem first_arg4 : StableHlo.after (hostOps0 (F := Ideal)) X (Proc.devRef .tc main_arg4) = X (Proc.devRef .tc main_arg4) := by
  after_results
theorem first_arg5 : StableHlo.after (hostOps0 (F := Ideal)) X (Proc.devRef .tc main_arg5) = X (Proc.devRef .tc main_arg5) := by
  after_results
theorem first_arg6 : StableHlo.after (hostOps0 (F := Ideal)) X (Proc.devRef .tc main_arg6) = X (Proc.devRef .tc main_arg6) := by
  after_results
theorem first_arg7 : StableHlo.after (hostOps0 (F := Ideal)) X (Proc.devRef .tc main_arg7) = X (Proc.devRef .tc main_arg7) := by
  after_results

/-! ### The stretch between the second and third regions: the second aggregation, two biases reshaped -/

/-- The second aggregation from the source rows, the destination rows and the array aggregated, as the stretch
    finds them. -/
def aggFrom (sr ds : Term.IArr S262144) (p : Term.FArr S16384x256) : Term.FArr S16384x256 :=
  Host.scatterAdd (F := Ideal) scatter_S16384x256_S262144x1_S262144x256_1_0_0_1
    (broadcastInDim S16384x256 ![] bcast_S_S16384x256 (constant (F := Ideal) S_ .f32 0x00000000#32) : Term.FArr S16384x256)
    (broadcastInDim S262144x1 ![0] bcast_S262144_S262144x1_0 ds : Term.IArr S262144x1)
    (Host.gather gather_S16384x256_S262144x1_S262144x256_1_0_n_n_0_1_1256 p
      (broadcastInDim S262144x1 ![0] bcast_S262144_S262144x1_0
        (select (cmpi .slt sr (broadcastInDim S262144 ![] bcast_S_S262144 (constantI S_ 32 0#32) : Term.IArr S262144) : Term.BArr S262144)
          (addi sr (broadcastInDim S262144 ![] bcast_S_S262144 (constantI S_ 32 16384#32) : Term.IArr S262144) : Term.IArr S262144)
          sr : Term.IArr S262144) : Term.IArr S262144x1))

/-- With the rows taken from an edge list it is the staged aggregation. -/
theorem aggFrom_edges (ei : Term.IArr S2x262144) (p : Term.FArr S16384x256) :
    aggFrom (Term.src ei) (Term.dst ei) p = Term.agg256 ei p := rfl

theorem mid_agg : StableHlo.after (hostOps2 (F := Ideal)) X (Proc.devRef .tc main_v26)
    = aggFrom (X (Proc.devRef .tc main_v1)) (X (Proc.devRef .tc main_v3)) (X (Proc.devRef .tc main_v16)) := by
  after_results <;> rfl

theorem mid_bias1 : StableHlo.after (hostOps2 (F := Ideal)) X (Proc.devRef .tc main_v27)
    = (shapeCast S1x256 (X (Proc.devRef .tc main_arg5) : Term.FArr S256) shapeCasts_S256_S1x256 : Term.FArr S1x256) := by
  after_results <;> rfl

theorem mid_biasc : StableHlo.after (hostOps2 (F := Ideal)) X (Proc.devRef .tc main_v28)
    = (shapeCast S1x16 (X (Proc.devRef .tc main_arg7) : Term.FArr S16) shapeCasts_S16_S1x16 : Term.FArr S1x16) := by
  after_results <;> rfl

theorem mid_arg6 : StableHlo.after (hostOps2 (F := Ideal)) X (Proc.devRef .tc main_arg6) = X (Proc.devRef .tc main_arg6) := by
  after_results

/-! ### The three closing stretches: the Gram matrix and its square root, the trace, the scaling -/

theorem last_sqrt : StableHlo.after (hostOps3 (F := Ideal)) X (Proc.devRef .tc main_v34)
    = (Host.sqrt (F := Ideal)
        (addf
          (Host.dotGeneral (F := Ideal) (φ₁ := .f32) (φ₂ := .f32) dot_S16x16384_S16384x16_S16x16_1_0_0_1_n_n (some .fp32)
            (transpose S16x16384 [1, 0] (X (Proc.devRef .tc main_v29) : Term.FArr S16384x16) transposes_S16384x16_S16x16384_1_0 : Term.FArr S16x16384)
            (X (Proc.devRef .tc main_v29) : Term.FArr S16384x16) : Term.FArr S16x16)
          (broadcastInDim S16x16 ![] bcast_S_S16x16 (constant (F := Ideal) S_ .f32 0x26901D7D#32) : Term.FArr S16x16)
          : Term.FArr S16x16) : Term.FArr S16x16) := by
  after_results

theorem last_s : StableHlo.after (hostOps3 (F := Ideal)) X (Proc.devRef .tc main_v29) = X (Proc.devRef .tc main_v29) := by
  after_results

theorem trace_sum : StableHlo.after (hostOps3_1 (F := Ideal)) X (Proc.devRef .tc main_v35)
    = (Host.reduceAdd (F := Ideal)
        (select
          (cmpi .eq
            (addi (iotaInDim S16x16 32 0 : Term.IArr S16x16)
              (broadcastInDim S16x16 ![] bcast_S_S16x16 (constantI S_ 32 0#32) : Term.IArr S16x16) : Term.IArr S16x16)
            (iotaInDim S16x16 32 1 : Term.IArr S16x16) : Term.BArr S16x16)
          (X (Proc.devRef .tc main_v34) : Term.FArr S16x16)
          (broadcastInDim S16x16 ![] bcast_S_S16x16 (constant (F := Ideal) S_ .f32 0x00000000#32) : Term.FArr S16x16)
          : Term.FArr S16x16)
        (constant (F := Ideal) S_ .f32 0x00000000#32) reducesTo_S16x16_S_d0_1 h_S_ : Term.FArr S_) := by
  after_results <;> rfl

theorem trace_s : StableHlo.after (hostOps3_1 (F := Ideal)) X (Proc.devRef .tc main_v29) = X (Proc.devRef .tc main_v29) := by
  after_results

theorem scale_loss : StableHlo.after (hostOps3_2 (F := Ideal)) X (Proc.devRef .tc main_v38)
    = (Host.divf (F := Ideal) (Host.negf (F := Ideal) (X (Proc.devRef .tc main_v35) : Term.FArr S_))
        (Host.sqrt (F := Ideal) (constant (F := Ideal) S_ .f32 0x48800000#32)) : Term.FArr S_) := by
  after_results

theorem scale_s : StableHlo.after (hostOps3_2 (F := Ideal)) X (Proc.devRef .tc main_v29) = X (Proc.devRef .tc main_v29) := by
  after_results

/-- The three closing stretches together: the loss is the staged tail of the cluster assignment they find. -/
theorem closing_loss :
    StableHlo.after (hostOps3_2 (F := Ideal)) (StableHlo.after (hostOps3_1 (F := Ideal)) (StableHlo.after (hostOps3 (F := Ideal)) X))
        (Proc.devRef .tc main_v38)
      = Term.tail (X (Proc.devRef .tc main_v29)) := by
  rw [scale_loss, trace_sum, last_sqrt]; rfl

/-- The three closing stretches leave the cluster assignment alone. -/
theorem closing_s :
    StableHlo.after (hostOps3_2 (F := Ideal)) (StableHlo.after (hostOps3_1 (F := Ideal)) (StableHlo.after (hostOps3 (F := Ideal)) X))
        (Proc.devRef .tc main_v29)
      = X (Proc.devRef .tc main_v29) := by
  rw [scale_s, trace_s, last_s]

end Stretches

/-! ## The boundaries, one at a time, from the launch memory `m` -/

section Boundaries

variable (m : (ℓ : Loc nD τ sig) → Buf (Elt Ideal) ℓ) (ρ : Dev nD → PrngReg) (c : Dev nD)

set_option quotPrecheck false in
/-- What the first region leaves in its output array: the first dense stage of the arrays it found. -/
local notation "Region0Closed" => (∀ (V : (c : Dev nD) → (b : Ref sig .tc) → Buf (Elt Ideal) ((c : Thread nD τ).loc b)) (c : Dev nD),
  (dat0 (F := Ideal) V c).arrAt 3 cfg0.N
    = Cert.Stages.denseRelu (V c (Pipeline.arrRef spec0 0)) (V c (Pipeline.arrRef spec0 1)) (V c (Pipeline.arrRef spec0 2)))
set_option quotPrecheck false in
/-- What the second region leaves in its output array: the plain product of the arrays it found. -/
local notation "Region1Closed" => (∀ (V : (c : Dev nD) → (b : Ref sig .tc) → Buf (Elt Ideal) ((c : Thread nD τ).loc b)) (c : Dev nD),
  (dat1 (F := Ideal) V c).arrAt 2 cfg1.N
    = Cert.Stages.dense (V c (Pipeline.arrRef spec1 0)) (V c (Pipeline.arrRef spec1 1)))
set_option quotPrecheck false in
/-- What the third region leaves in its output array: the row softmax head of the arrays it found. -/
local notation "Region2Closed" => (∀ (V : (c : Dev nD) → (b : Ref sig .tc) → Buf (Elt Ideal) ((c : Thread nD τ).loc b)) (c : Dev nD),
  (dat2 (F := Ideal) V c).arrAt 4 cfg2.N
    = Cert.Stages.pool (V c (Pipeline.arrRef spec2 0)) (V c (Pipeline.arrRef spec2 1)) (V c (Pipeline.arrRef spec2 2))
        (V c (Pipeline.arrRef spec2 3)))

/-! ### After the first stretch -/

theorem W1_src : W1 m ρ c (Proc.devRef .tc main_v1) = Term.src (m ((c.tc : Thread nD τ).loc main_arg1)) :=
  first_src (W0 m ρ c)
theorem W1_dst : W1 m ρ c (Proc.devRef .tc main_v3) = Term.dst (m ((c.tc : Thread nD τ).loc main_arg1)) :=
  first_dst (W0 m ρ c)
theorem W1_agg : W1 m ρ c (Proc.devRef .tc main_v13)
    = Term.agg128 (m ((c.tc : Thread nD τ).loc main_arg1)) (m ((c.tc : Thread nD τ).loc main_arg0)) :=
  first_agg (W0 m ρ c)
theorem W1_bias : W1 m ρ c (Proc.devRef .tc main_v14)
    = (shapeCast S1x256 (m ((c.tc : Thread nD τ).loc main_arg3) : Term.FArr S256) shapeCasts_S256_S1x256 : Term.FArr S1x256) :=
  first_bias (W0 m ρ c)
theorem W1_arg2 : W1 m ρ c (Proc.devRef .tc main_arg2) = m ((c.tc : Thread nD τ).loc main_arg2) := first_arg2 (W0 m ρ c)
theorem W1_arg4 : W1 m ρ c (Proc.devRef .tc main_arg4) = m ((c.tc : Thread nD τ).loc main_arg4) := first_arg4 (W0 m ρ c)
theorem W1_arg5 : W1 m ρ c (Proc.devRef .tc main_arg5) = m ((c.tc : Thread nD τ).loc main_arg5) := first_arg5 (W0 m ρ c)
theorem W1_arg6 : W1 m ρ c (Proc.devRef .tc main_arg6) = m ((c.tc : Thread nD τ).loc main_arg6) := first_arg6 (W0 m ρ c)
theorem W1_arg7 : W1 m ρ c (Proc.devRef .tc main_arg7) = m ((c.tc : Thread nD τ).loc main_arg7) := first_arg7 (W0 m ρ c)

/-! ### After the first region: its output is the first dense stage of what it found; the rest is untouched -/

theorem W2_src : W2 m ρ c (Proc.devRef .tc main_v1) = Term.src (m ((c.tc : Thread nD τ).loc main_arg1)) :=
  (W2_of_ne m ρ c main_v1 (by decide)).trans (W1_src m ρ c)
theorem W2_dst : W2 m ρ c (Proc.devRef .tc main_v3) = Term.dst (m ((c.tc : Thread nD τ).loc main_arg1)) :=
  (W2_of_ne m ρ c main_v3 (by decide)).trans (W1_dst m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)

theorem W2_h0 (h0 : Region0Closed) : W2 m ρ c (Proc.devRef .tc main_v15)
    = Term.h0 (m ((c.tc : Thread nD τ).loc main_arg0)) (m ((c.tc : Thread nD τ).loc main_arg1))
        (m ((c.tc : Thread nD τ).loc main_arg2)) (m ((c.tc : Thread nD τ).loc main_arg3)) :=
  (W2_arr m ρ c 3).trans ((h0 (V1 m ρ) c).trans
    (congr (congr (congrArg Cert.Stages.denseRelu (W1_agg m ρ c)) (W1_arg2 m ρ c)) (W1_bias m ρ c)))

/-! ### After the second region -/

theorem W3_src : W3 m ρ c (Proc.devRef .tc main_v1) = Term.src (m ((c.tc : Thread nD τ).loc main_arg1)) :=
  (W3_of_ne m ρ c main_v1 (by decide)).trans (W2_src m ρ c)
theorem W3_dst : W3 m ρ c (Proc.devRef .tc main_v3) = Term.dst (m ((c.tc : Thread nD τ).loc main_arg1)) :=
  (W3_of_ne m ρ c main_v3 (by decide)).trans (W2_dst m ρ c)
theorem W3_arg5 : W3 m ρ c (Proc.devRef .tc main_arg5) = m ((c.tc : Thread nD τ).loc main_arg5) :=
  (W3_of_ne m ρ c main_arg5 (by decide)).trans (W2_arg5 m ρ c)
theorem W3_arg6 : W3 m ρ c (Proc.devRef .tc main_arg6) = m ((c.tc : Thread nD τ).loc main_arg6) :=
  (W3_of_ne m ρ c main_arg6 (by decide)).trans (W2_arg6 m ρ c)
theorem W3_arg7 : W3 m ρ c (Proc.devRef .tc main_arg7) = m ((c.tc : Thread nD τ).loc main_arg7) :=
  (W3_of_ne m ρ c main_arg7 (by decide)).trans (W2_arg7 m ρ c)

theorem W3_l1 (h0 : Region0Closed) (h1 : Region1Closed) : W3 m ρ c (Proc.devRef .tc main_v16)
    = Term.l1 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) :=
  (W3_arr m ρ c 2).trans ((h1 (V2 m ρ) c).trans
    (congr (congrArg Cert.Stages.dense (W2_h0 m ρ c h0)) (W2_arg4 m ρ c)))

/-! ### After the middle stretch -/

theorem W4_agg (h0 : Region0Closed) (h1 : Region1Closed) : W4 m ρ c (Proc.devRef .tc main_v26)
    = Term.agg256 (m ((c.tc : Thread nD τ).loc main_arg1))
        (Term.l1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))) :=
  (mid_agg (W3 m ρ c)).trans
    ((congr (congr (congrArg aggFrom (W3_src m ρ c)) (W3_dst m ρ c)) (W3_l1 m ρ c h0 h1)).trans (aggFrom_edges _ _))

theorem W4_bias1 : W4 m ρ c (Proc.devRef .tc main_v27)
    = (shapeCast S1x256 (m ((c.tc : Thread nD τ).loc main_arg5) : Term.FArr S256) shapeCasts_S256_S1x256 : Term.FArr S1x256) :=
  (mid_bias1 (W3 m ρ c)).trans
    (congrArg (fun v : Term.FArr S256 => (shapeCast S1x256 v shapeCasts_S256_S1x256 : Term.FArr S1x256)) (W3_arg5 m ρ c))

theorem W4_biasc : W4 m ρ c (Proc.devRef .tc main_v28)
    = (shapeCast S1x16 (m ((c.tc : Thread nD τ).loc main_arg7) : Term.FArr S16) shapeCasts_S16_S1x16 : Term.FArr S1x16) :=
  (mid_biasc (W3 m ρ c)).trans
    (congrArg (fun v : Term.FArr S16 => (shapeCast S1x16 v shapeCasts_S16_S1x16 : Term.FArr S1x16)) (W3_arg7 m ρ c))

theorem W4_arg6 : W4 m ρ c (Proc.devRef .tc main_arg6) = m ((c.tc : Thread nD τ).loc main_arg6) :=
  (mid_arg6 (W3 m ρ c)).trans (W3_arg6 m ρ c)

/-! ### After the third region, and at the end -/

theorem W5_s (h0 : Region0Closed) (h1 : Region1Closed) (h2 : Region2Closed) : W5 m ρ c (Proc.devRef .tc main_v29)
    = Term.s (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (W5_arr m ρ c 4).trans ((h2 (V4 m ρ) c).trans
    (congr (congr (congr (congrArg Cert.Stages.pool (W4_agg m ρ c h0 h1)) (W4_bias1 m ρ c)) (W4_arg6 m ρ c)) (W4_biasc m ρ c)))

/-- The first result at the end of the run: the staged cluster assignment of the arguments. -/
theorem W8_s (h0 : Region0Closed) (h1 : Region1Closed) (h2 : Region2Closed) : W8 m ρ c (Proc.devRef .tc main_v29)
    = Term.out_s (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (closing_s (W5 m ρ c)).trans (W5_s m ρ c h0 h1 h2)

/-- The second result at the end of the run: the staged loss of the arguments. -/
theorem W8_loss (h0 : Region0Closed) (h1 : Region1Closed) (h2 : Region2Closed) : W8 m ρ c (Proc.devRef .tc main_v38)
    = Term.out_loss (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (closing_loss (W5 m ρ c)).trans (congrArg Term.tail (W5_s m ρ c h0 h1 h2))

end Boundaries

end Cert.KernelIdeal.KerRun

end
-- ==== Proof.KerRun.lean ====
/-
  The program's run with its two results as staged functions of the arguments.

  The run ends with each result buffer at the last boundary's contents; walked back through the chain, those
  are the staged cluster assignment and the staged loss of the eight argument arrays, once each tiled region's
  output is known to be its dense stage of the arrays it finds (the three hypotheses).
-/
import proofs.«109023_j22943715295834_2_alg».proof.Proof.KerRunW8
import proofs.«109023_j22943715295834_2_alg».proof.Proof.KerWalk

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- From any memory `m` every weakly fair execution terminates without a fault, with the first result the staged
    cluster assignment of the arguments, the second the staged loss, and the arguments as launched. -/
theorem run (m : (ℓ : Loc nD τ sig) → Buf (Elt Ideal) ℓ) (ρ : Dev nD → PrngReg)
    (h0 : ∀ (V : (c : Dev nD) → (b : Ref sig .tc) → Buf (Elt Ideal) ((c : Thread nD τ).loc b)) (c : Dev nD),
      (dat0 (F := Ideal) V c).arrAt 3 cfg0.N
        = Cert.Stages.denseRelu (V c (Pipeline.arrRef spec0 0)) (V c (Pipeline.arrRef spec0 1)) (V c (Pipeline.arrRef spec0 2)))
    (h1 : ∀ (V : (c : Dev nD) → (b : Ref sig .tc) → Buf (Elt Ideal) ((c : Thread nD τ).loc b)) (c : Dev nD),
      (dat1 (F := Ideal) V c).arrAt 2 cfg1.N
        = Cert.Stages.dense (V c (Pipeline.arrRef spec1 0)) (V c (Pipeline.arrRef spec1 1)))
    (h2 : ∀ (V : (c : Dev nD) → (b : Ref sig .tc) → Buf (Elt Ideal) ((c : Thread nD τ).loc b)) (c : Dev nD),
      (dat2 (F := Ideal) V c).arrAt 4 cfg2.N
        = Cert.Stages.pool (V c (Pipeline.arrRef spec2 0)) (V c (Pipeline.arrRef spec2 1)) (V c (Pipeline.arrRef spec2 2))
            (V c (Pipeline.arrRef spec2 3))) :
    θ_run (Cert.KernelIdeal.defs (F := Ideal)) (onTc (τ := τ) (main (F := Ideal))) ⟨m, fun _ => 0, ρ⟩ (fun r => ∀ c : Dev nD,
      r.2.mem ((c.tc : Thread nD τ).loc main_v29) = Term.out_s (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v38) = Term.out_loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono
    (fun r h c => ⟨(h c).1.trans (W8_s m ρ c h0 h1 h2), (h c).2.1.trans (W8_loss m ρ c h0 h1 h2), (h c).2.2⟩)
    (run_W8 m ρ)

end Cert.KernelIdeal.KerRun

end
-- ==== Proof.RefOps.lean ====
/-
  The reference program as one straight line of array operations.

  The program's main function is two halves run one after the other; three of its lines call a helper function
  (the rectifier twice, the trace once, which itself calls a three-way select), and a call runs the helper's own
  lines on the caller's arrays.  Written out, the whole program is 133 single operations in a row, cut here into ten
  consecutive stretches by what they compute.  Four of the stretches compute arrays that neither result depends
  on (a dense adjacency matrix and what is pooled from it); they are run like the others.

  This module states the list, proves the program equal to it, and records, per stretch, which arrays it writes and
  that every array it touches is one of the device's own.
-/
import proofs.«109023_j22943715295834_2_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Facts₀ Facts

/-! ## The ten stretches -/

/-- The edge list's two rows as vectors: slice and flatten, twice. -/
abbrev w1 : List (HloOp τ sig (Elt Ideal)) :=
  [ unary main_arg1 main_v0 ((extractStridedSlice S1x262144 ![0, 0] · slices_S2x262144_S1x262144_0_0) : (⟨S2x262144, .i32⟩ : BufTy).Contents (Elt Ideal) → (⟨S1x262144, .i32⟩ : BufTy).Contents (Elt Ideal)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt Ideal) → (⟨S1x262144, .i32⟩ : BufTy).Contents (Elt Ideal)),
    reshape main_v2 main_v3 rfl shapeCasts_S1x262144_S262144 ]

/-- Layer 0: the product with the first weights, the sources normalised, the gather and the scatter-add, the bias, the rectifier. -/
abbrev w2 : List (HloOp τ sig (Elt Ideal)) :=
  [ binary main_arg0 main_arg2 main_v4 ((fun l r => Host.dotGeneral (F := Ideal) (φ₁ := .f32) (φ₂ := .f32) dot_S16384x128_S128x256_S16384x256_1_0_0_1_n_n none l r) : (⟨S16384x128, .f32⟩ : BufTy).Contents (Elt Ideal) → (⟨S128x256, .f32⟩ : BufTy).Contents (Elt Ideal) → (⟨S16384x256, .f32⟩ : BufTy).Contents (Elt Ideal)),
    nullary main_c (constantI S_ 32 0#32),
    unary main_c main_v5 (broadcastInDim S262144 ![] bcast_S_S262144 : (⟨S_, .i32⟩ : BufTy).Contents (Elt Ideal) → (⟨S262144, .i32⟩ : BufTy).Contents (Elt Ideal)),
    binary main_v1 main_v5 main_v6 (cmpi .slt : (⟨S262144, .i32⟩ : BufTy).Contents (Elt Ideal) → (⟨S262144, .i32⟩ : BufTy).Contents (Elt Ideal) → (⟨S262144, .i1⟩ : BufTy).Contents (Elt Ideal)),
    nullary main_c_0 (constantI S_ 32 16384#32),
    unary main_c_0 main_v7 (broadcastInDim S262144 ![] bcast_S_S262144 : (⟨S_, .i32⟩ : BufTy).Contents (Elt Ideal) → (⟨S262144, .i32⟩ : BufTy).Contents (Elt Ideal)),
    binary main_v1 main_v7 main_v8 (addi : (⟨S262144, .i32⟩ : BufTy).Contents (Elt Ideal) → (⟨S262144, .i32⟩ : BufTy).Contents (Elt Ideal) → (⟨S262144, .i32⟩ : BufTy).Contents (Elt Ideal)),
    ternary main_v6 main_v8 main_v1 main_v9 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)),
    unary main_v9 main_v10 (broadcastInDim S262144x1 ![0] bcast_S262144_S262144x1_0 : (⟨S262144, .i32⟩ : BufTy).Contents (Elt Ideal) → (⟨S262144x1, .i32⟩ : BufTy).Contents (Elt Ideal)),
    binary main_v4 main_v10 main_v11 ((fun x i => Host.gather gather_S16384x256_S262144x1_S262144x256_1_0_n_n_0_1_1256 x i) : (⟨S16384x256, .f32⟩ : BufTy).Contents (Elt Ideal) → (⟨S262144x1, .i32⟩ : BufTy).Contents (Elt Ideal) → (⟨S262144x256, .f32⟩ : BufTy).Contents (Elt Ideal)),
    nullary main_cst (constant (F := Ideal) S_ .f32 0x00000000#32),
    unary main_cst main_v12 (broadcastInDim S16384x256 ![] bcast_S_S16384x256 : (⟨S_, .f32⟩ : BufTy).Contents (Elt Ideal) → (⟨S16384x256, .f32⟩ : BufTy).Contents (Elt Ideal)),
    unary main_v3 main_v13 (broadcastInDim S262144x1 ![0] bcast_S262144_S262144x1_0 : (⟨S262144, .i32⟩ : BufTy).Contents (Elt Ideal) → (⟨S262144x1, .i32⟩ : BufTy).Contents (Elt Ideal)),
    ternary main_v12 main_v13 main_v11 main_v14 ((fun x i u => Host.scatterAdd (F := Ideal) (φ := .f32) scatter_S16384x256_S262144x1_S262144x256_1_0_0_1 x i u) : (⟨S16384x256, .f32⟩ : BufTy).Contents (Elt Ideal) → (⟨S262144x1, .i32⟩ : BufTy).Contents (Elt Ideal) → (⟨S262144x256, .f32⟩ : BufTy).Contents (Elt Ideal) → (⟨S16384x256, .f32⟩ : BufTy).Contents (Elt Ideal)),
    unary main_arg3 main_v15 (broadcastInDim S1x256 ![1] bcast_S256_S1x256_1 : (⟨S256, .f32⟩ : BufTy).Contents (Elt Ideal) → (⟨S1x256, .f32⟩ : BufTy).Contents (Elt Ideal)),
    unary main_v15 main_v16 (broadcastInDim S16384x256 ![0, 1] bcast_S1x256_S16384x256_0_1 : (⟨S1x256, .f32⟩ : BufTy).Contents (Elt Ideal) → (⟨S16384x256, .f32⟩ : BufTy).Contents (Elt Ideal)),
    binary main_v14 main_v16 main_v17 (addf (F := Ideal) (φ := .f32) : (⟨S16384x256, .f32⟩ : BufTy).Contents (Elt Ideal) → (⟨S16384x256, .f32⟩ : BufTy).Contents (Elt Ideal) → (⟨S16384x256, .f32⟩ : BufTy).Contents (Elt Ideal)),
    TRef.nullary main_call0.cst (constant (F := Ideal) S_ .f32 0x00000000#32),
    TRef.unary main_call0.cst main_call0.v0 (broadcastInDim S16384x256 ![] bcast_S_S16384x256),
    TRef.binary (.of main_v17 : StableHlo.TRef sig ⟨S16384x256, .f32⟩) main_call0.v0 main_call0.v1 (maximumf (F := Ideal) (φ := .f32)) ]

/-- Layer 1: the product with the second weights, the sources normalised again, the gather and the scatter-add, the bias, the rectifier. -/
abbrev w3 : List (HloOp τ sig (Elt Ideal)) :=
  [ binary main_v18 main_arg4 main_v19 ((fun l r => Host.dotGeneral (F := Ideal) (φ₁ := .f32) (φ₂ := .f32) dot_S16384x256_S256x256_S16384x256_1_0_0_1_n_n none l r) : (⟨S16384x256, .f32⟩ : BufTy).Contents (Elt Ideal) → (⟨S256x256, .f32⟩ : BufTy).Contents (Elt Ideal) → (⟨S16384x256, .f32⟩ : BufTy).Contents (Elt Ideal)),
    nullary main_c_1 (constantI S_ 32 0#32),
    unary main_c_1 main_v20 (broadcastInDim S262144 ![] bcast_S_S262144 : (⟨S_, .i32⟩ : BufTy).Contents (Elt Ideal) → (⟨S262144, .i32⟩ : BufTy).Contents (Elt Ideal)),
    binary main_v1 main_v20 main_v21 (cmpi .slt : (⟨S262144, .i32⟩ : BufTy).Contents (Elt Ideal) → (⟨S262144, .i32⟩ : BufTy).Contents (Elt Ideal) → (⟨S262144, .i1⟩ : BufTy).Contents (Elt Ideal)),
    nullary main_c_2 (constantI S_ 32 16384#32),
    unary main_c_2 main_v22 (broadcastInDim S262144 ![] bcast_S_S262144 : (⟨S_, .i32⟩ : BufTy).Contents (Elt Ideal) → (⟨S262144, .i32⟩ : BufTy).Contents (Elt Ideal)),
    binary main_v1 main_v22 main_v23 (addi : (⟨S262144, .i32⟩ : BufTy).Contents (Elt Ideal) → (⟨S262144, .i32⟩ : BufTy).Contents (Elt Ideal) → (⟨S262144, .i32⟩ : BufTy).Contents (Elt Ideal)),
    ternary main_v21 main_v23 main_v1 main_v24 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)),
    unary main_v24 main_v25 (broadcastInDim S262144x1 ![0] bcast_S262144_S262144x1_0 : (⟨S262144, .i32⟩ : BufTy).Contents (Elt Ideal) → (⟨S262144x1, .i32⟩ : BufTy).Contents (Elt Ideal)),
    binary main_v19 main_v25 main_v26 ((fun x i => Host.gather gather_S16384x256_S262144x1_S262144x256_1_0_n_n_0_1_1256 x i) : (⟨S16384x256, .f32⟩ : BufTy).Contents (Elt Ideal) → (⟨S262144x1, .i32⟩ : BufTy).Contents (Elt Ideal) → (⟨S262144x256, .f32⟩ : BufTy).Contents (Elt Ideal)),
    nullary main_cst_3 (constant (F := Ideal) S_ .f32 0x00000000#32),
    unary main_cst_3 main_v27 (broadcastInDim S16384x256 ![] bcast_S_S16384x256 : (⟨S_, .f32⟩ : BufTy).Contents (Elt Ideal) → (⟨S16384x256, .f32⟩ : BufTy).Contents (Elt Ideal)),
    unary main_v3 main_v28 (broadcastInDim S262144x1 ![0] bcast_S262144_S262144x1_0 : (⟨S262144, .i32⟩ : BufTy).Contents (Elt Ideal) → (⟨S262144x1, .i32⟩ : BufTy).Contents (Elt Ideal)),
    ternary main_v27 main_v28 main_v26 main_v29 ((fun x i u => Host.scatterAdd (F := Ideal) (φ := .f32) scatter_S16384x256_S262144x1_S262144x256_1_0_0_1 x i u) : (⟨S16384x256, .f32⟩ : BufTy).Contents (Elt Ideal) → (⟨S262144x1, .i32⟩ : BufTy).Contents (Elt Ideal) → (⟨S262144x256, .f32⟩ : BufTy).Contents (Elt Ideal) → (⟨S16384x256, .f32⟩ : BufTy).Contents (Elt Ideal)),
    unary main_arg5 main_v30 (broadcastInDim S1x256 ![1] bcast_S256_S1x256_1 : (⟨S256, .f32⟩ : BufTy).Contents (Elt Ideal) → (⟨S1x256, .f32⟩ : BufTy).Contents (Elt Ideal)),
    unary main_v30 main_v31 (broadcastInDim S16384x256 ![0, 1] bcast_S1x256_S16384x256_0_1 : (⟨S1x256, .f32⟩ : BufTy).Contents (Elt Ideal) → (⟨S16384x256, .f32⟩ : BufTy).Contents (Elt Ideal)),
    binary main_v29 main_v31 main_v32 (addf (F := Ideal) (φ := .f32) : (⟨S16384x256, .f32⟩ : BufTy).Contents (Elt Ideal) → (⟨S16384x256, .f32⟩ : BufTy).Contents (Elt Ideal) → (⟨S16384x256, .f32⟩ : BufTy).Contents (Elt Ideal)),
    TRef.nullary main_call1.cst (constant (F := Ideal) S_ .f32 0x00000000#32),
    TRef.unary main_call1.cst main_call1.v0 (broadcastInDim S16384x256 ![] bcast_S_S16384x256),
    TRef.binary (.of main_v32 : StableHlo.TRef sig ⟨S16384x256, .f32⟩) main_call1.v0 main_call1.v1 (maximumf (F := Ideal) (φ := .f32)) ]

/-- The cluster logits: the product with the cluster weights and the bias. -/
abbrev w4 : List (HloOp τ sig (Elt Ideal)) :=
  [ binary main_v33 main_arg6 main_v34 ((fun l r => Host.dotGeneral (F := Ideal) (φ₁ := .f32) (φ₂ := .f32) dot_S16384x256_S256x16_S16384x16_1_0_0_1_n_n none l r) : (⟨S16384x256, .f32⟩ : BufTy).Contents (Elt Ideal) → (⟨S256x16, .f32⟩ : BufTy).Contents (Elt Ideal) → (⟨S16384x16, .f32⟩ : BufTy).Contents (Elt Ideal)),
    unary main_arg7 main_v35 (broadcastInDim S1x16 ![1] bcast_S16_S1x16_1 : (⟨S16, .f32⟩ : BufTy).Contents (Elt Ideal) → (⟨S1x16, .f32⟩ : BufTy).Contents (Elt Ideal)),
    unary main_v35 main_v36 (broadcastInDim S16384x16 ![0, 1] bcast_S1x16_S16384x16_0_1 : (⟨S1x16, .f32⟩ : BufTy).Contents (Elt Ideal) → (⟨S16384x16, .f32⟩ : BufTy).Contents (Elt Ideal)),
    binary main_v34 main_v36 main_v37 (addf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)) ]

/-- The index pairs of the dense adjacency (first half): a zero square array, both rows of the edge list normalised. Nothing returned reads them. -/
abbrev w5 : List (HloOp τ sig (Elt Ideal)) :=
  [ nullary main_cst_4 (constant (F := Ideal) S_ .f32 0x00000000#32),
    unary main_cst_4 main_v38 (broadcastInDim S16384x16384 ![] bcast_S_S16384x16384 : (⟨S_, .f32⟩ : BufTy).Contents (Elt Ideal) → (⟨S16384x16384, .f32⟩ : BufTy).Contents (Elt Ideal)),
    nullary main_c_5 (constantI S_ 32 0#32),
    unary main_c_5 main_v39 (broadcastInDim S262144 ![] bcast_S_S262144 : (⟨S_, .i32⟩ : BufTy).Contents (Elt Ideal) → (⟨S262144, .i32⟩ : BufTy).Contents (Elt Ideal)),
    binary main_v1 main_v39 main_v40 (cmpi .slt : (⟨S262144, .i32⟩ : BufTy).Contents (Elt Ideal) → (⟨S262144, .i32⟩ : BufTy).Contents (Elt Ideal) → (⟨S262144, .i1⟩ : BufTy).Contents (Elt Ideal)),
    nullary main_c_6 (constantI S_ 32 16384#32),
    unary main_c_6 main_v41 (broadcastInDim S262144 ![] bcast_S_S262144 : (⟨S_, .i32⟩ : BufTy).Contents (Elt Ideal) → (⟨S262144, .i32⟩ : BufTy).Contents (Elt Ideal)),
    binary main_v1 main_v41 main_v42 (addi : (⟨S262144, .i32⟩ : BufTy).Contents (Elt Ideal) → (⟨S262144, .i32⟩ : BufTy).Contents (Elt Ideal) → (⟨S262144, .i32⟩ : BufTy).Contents (Elt Ideal)),
    ternary main_v40 main_v42 main_v1 main_v43 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)),
    nullary main_c_7 (constantI S_ 32 0#32),
    unary main_c_7 main_v44 (broadcastInDim S262144 ![] bcast_S_S262144 : (⟨S_, .i32⟩ : BufTy).Contents (Elt Ideal) → (⟨S262144, .i32⟩ : BufTy).Contents (Elt Ideal)),
    binary main_v3 main_v44 main_v45 (cmpi .slt : (⟨S262144, .i32⟩ : BufTy).Contents (Elt Ideal) → (⟨S262144, .i32⟩ : BufTy).Contents (Elt Ideal) → (⟨S262144, .i1⟩ : BufTy).Contents (Elt Ideal)),
    nullary main_c_8 (constantI S_ 32 16384#32),
    unary main_c_8 main_v46 (broadcastInDim S262144 ![] bcast_S_S262144 : (⟨S_, .i32⟩ : BufTy).Contents (Elt Ideal) → (⟨S262144, .i32⟩ : BufTy).Contents (Elt Ideal)),
    binary main_v3 main_v46 main_v47 (addi : (⟨S262144, .i32⟩ : BufTy).Contents (Elt Ideal) → (⟨S262144, .i32⟩ : BufTy).Contents (Elt Ideal) → (⟨S262144, .i32⟩ : BufTy).Contents (Elt Ideal)),
    ternary main_v45 main_v47 main_v3 main_v48 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)) ]

/-- The dense adjacency: the index pairs joined and ones scattered at them. Nothing returned reads it. -/
abbrev w6 : List (HloOp τ sig (Elt Ideal)) :=
  [ unary main_v43 main_v49 (broadcastInDim S262144x1 ![0] bcast_S262144_S262144x1_0 : (⟨S262144, .i32⟩ : BufTy).Contents (Elt Ideal) → (⟨S262144x1, .i32⟩ : BufTy).Contents (Elt Ideal)),
    unary main_v48 main_v50 (broadcastInDim S262144x1 ![0] bcast_S262144_S262144x1_0 : (⟨S262144, .i32⟩ : BufTy).Contents (Elt Ideal) → (⟨S262144x1, .i32⟩ : BufTy).Contents (Elt Ideal)),
    binary main_v49 main_v50 main_v51 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)),
    nullary main_cst_9 (constant (F := Ideal) S_ .f32 0x3F800000#32),
    unary main_cst_9 main_v52 (broadcastInDim S262144 ![] bcast_S_S262144 : (⟨S_, .f32⟩ : BufTy).Contents (Elt Ideal) → (⟨S262144, .f32⟩ : BufTy).Contents (Elt Ideal)),
    ternary main_v38 main_v51 main_v52 main_v53 ((fun x i u => Host.scatterAdd (F := Ideal) (φ := .f32) scatter_S16384x16384_S262144x2_S262144_n_01_01_1 x i u) : (⟨S16384x16384, .f32⟩ : BufTy).Contents (Elt Ideal) → (⟨S262144x2, .i32⟩ : BufTy).Contents (Elt Ideal) → (⟨S262144, .f32⟩ : BufTy).Contents (Elt Ideal) → (⟨S16384x16384, .f32⟩ : BufTy).Contents (Elt Ideal)) ]

/-- The row softmax of the logits. -/
abbrev w7 : List (HloOp τ sig (Elt Ideal)) :=
  [ nullary main_cst_10 (constant (F := Ideal) S_ .f32 0xFF800000#32),
    binary main_v37 main_cst_10 main_v54 ((fun x v => Host.reduce (FloatOps.maximumf (F := Ideal) (φ := .f32)) x v reducesTo_S16384x16_S16384_d1 h_S_) : (⟨S16384x16, .f32⟩ : BufTy).Contents (Elt Ideal) → (⟨S_, .f32⟩ : BufTy).Contents (Elt Ideal) → (⟨S16384, .f32⟩ : BufTy).Contents (Elt Ideal)),
    nullary main_cst_11 (constant (F := Ideal) S_ .f32 0xFF800000#32),
    unary main_cst_11 main_v55 (broadcastInDim S16384 ![] bcast_S_S16384 : (⟨S_, .f32⟩ : BufTy).Contents (Elt Ideal) → (⟨S16384, .f32⟩ : BufTy).Contents (Elt Ideal)),
    binary main_v55 main_v54 main_v56 (maximumf (F := Ideal) (φ := .f32) : (⟨S16384, .f32⟩ : BufTy).Contents (Elt Ideal) → (⟨S16384, .f32⟩ : BufTy).Contents (Elt Ideal) → (⟨S16384, .f32⟩ : BufTy).Contents (Elt Ideal)),
    unary main_v56 main_v57 (broadcastInDim S16384x1 ![0] bcast_S16384_S16384x1_0 : (⟨S16384, .f32⟩ : BufTy).Contents (Elt Ideal) → (⟨S16384x1, .f32⟩ : BufTy).Contents (Elt Ideal)),
    unary main_v57 main_v58 (broadcastInDim S16384x16 ![0, 1] bcast_S16384x1_S16384x16_0_1 : (⟨S16384x1, .f32⟩ : BufTy).Contents (Elt Ideal) → (⟨S16384x16, .f32⟩ : BufTy).Contents (Elt Ideal)),
    binary main_v37 main_v58 main_v59 (subf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)),
    unary main_v59 main_v60 (Host.exp (F := Ideal) (φ := .f32) : (⟨S16384x16, .f32⟩ : BufTy).Contents (Elt Ideal) → (⟨S16384x16, .f32⟩ : BufTy).Contents (Elt Ideal)),
    nullary main_cst_12 (constant (F := Ideal) S_ .f32 0x00000000#32),
    binary main_v60 main_cst_12 main_v61 ((fun x v => Host.reduceAdd (F := Ideal) (φ := .f32) x v reducesTo_S16384x16_S16384_d1 h_S_) : (⟨S16384x16, .f32⟩ : BufTy).Contents (Elt Ideal) → (⟨S_, .f32⟩ : BufTy).Contents (Elt Ideal) → (⟨S16384, .f32⟩ : BufTy).Contents (Elt Ideal)),
    unary main_v61 main_v62 (broadcastInDim S16384x1 ![0] bcast_S16384_S16384x1_0 : (⟨S16384, .f32⟩ : BufTy).Contents (Elt Ideal) → (⟨S16384x1, .f32⟩ : BufTy).Contents (Elt Ideal)),
    unary main_v62 main_v63 (broadcastInDim S16384x16 ![0, 1] bcast_S16384x1_S16384x16_0_1 : (⟨S16384x1, .f32⟩ : BufTy).Contents (Elt Ideal) → (⟨S16384x16, .f32⟩ : BufTy).Contents (Elt Ideal)),
    binary main_v60 main_v63 main_v64 (Host.divf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)) ]

/-- The pooled features and the pooled adjacency: three products that nothing returned reads. -/
abbrev w8 : List (HloOp τ sig (Elt Ideal)) :=
  [ unary main_v64 main_v65 ((transpose S16x16384 [1, 0] · transposes_S16384x16_S16x16384_1_0) : (⟨S16384x16, .f32⟩ : BufTy).Contents (Elt Ideal) → (⟨S16x16384, .f32⟩ : BufTy).Contents (Elt Ideal)),
    binary main_v65 main_v33 main_v66 ((fun l r => Host.dotGeneral (F := Ideal) (φ₁ := .f32) (φ₂ := .f32) dot_S16x16384_S16384x256_S16x256_1_0_0_1_n_n none l r) : (⟨S16x16384, .f32⟩ : BufTy).Contents (Elt Ideal) → (⟨S16384x256, .f32⟩ : BufTy).Contents (Elt Ideal) → (⟨S16x256, .f32⟩ : BufTy).Contents (Elt Ideal)),
    unary main_v64 main_v67 ((transpose S16x16384 [1, 0] · transposes_S16384x16_S16x16384_1_0) : (⟨S16384x16, .f32⟩ : BufTy).Contents (Elt Ideal) → (⟨S16x16384, .f32⟩ : BufTy).Contents (Elt Ideal)),
    binary main_v67 main_v53 main_v68 ((fun l r => Host.dotGeneral (F := Ideal) (φ₁ := .f32) (φ₂ := .f32) dot_S16x16384_S16384x16384_S16x16384_1_0_0_1_n_n none l r) : (⟨S16x16384, .f32⟩ : BufTy).Contents (Elt Ideal) → (⟨S16384x16384, .f32⟩ : BufTy).Contents (Elt Ideal) → (⟨S16x16384, .f32⟩ : BufTy).Contents (Elt Ideal)),
    binary main_v68 main_v64 main_v69 ((fun l r => Host.dotGeneral (F := Ideal) (φ₁ := .f32) (φ₂ := .f32) dot_S16x16384_S16384x16_S16x16_1_0_0_1_n_n none l r) : (⟨S16x16384, .f32⟩ : BufTy).Contents (Elt Ideal) → (⟨S16384x16, .f32⟩ : BufTy).Contents (Elt Ideal) → (⟨S16x16, .f32⟩ : BufTy).Contents (Elt Ideal)) ]

/-- The loss: the Gram matrix, its shifted entrywise square root, the trace (a masked sum), the sign, the scale. -/
abbrev w9 : List (HloOp τ sig (Elt Ideal)) :=
  [ unary main_v64 main_v70 ((transpose S16x16384 [1, 0] · transposes_S16384x16_S16x16384_1_0) : (⟨S16384x16, .f32⟩ : BufTy).Contents (Elt Ideal) → (⟨S16x16384, .f32⟩ : BufTy).Contents (Elt Ideal)),
    binary main_v70 main_v64 main_v71 ((fun l r => Host.dotGeneral (F := Ideal) (φ₁ := .f32) (φ₂ := .f32) dot_S16x16384_S16384x16_S16x16_1_0_0_1_n_n none l r) : (⟨S16x16384, .f32⟩ : BufTy).Contents (Elt Ideal) → (⟨S16384x16, .f32⟩ : BufTy).Contents (Elt Ideal) → (⟨S16x16, .f32⟩ : BufTy).Contents (Elt Ideal)),
    nullary main_cst_13 (constant (F := Ideal) S_ .f32 0x26901D7D#32),
    unary main_cst_13 main_v72 (broadcastInDim S16x16 ![] bcast_S_S16x16 : (⟨S_, .f32⟩ : BufTy).Contents (Elt Ideal) → (⟨S16x16, .f32⟩ : BufTy).Contents (Elt Ideal)),
    binary main_v71 main_v72 main_v73 (addf (F := Ideal) (φ := .f32) : (⟨S16x16, .f32⟩ : BufTy).Contents (Elt Ideal) → (⟨S16x16, .f32⟩ : BufTy).Contents (Elt Ideal) → (⟨S16x16, .f32⟩ : BufTy).Contents (Elt Ideal)),
    unary main_v73 main_v74 (Host.sqrt (F := Ideal) (φ := .f32) : (⟨S16x16, .f32⟩ : BufTy).Contents (Elt Ideal) → (⟨S16x16, .f32⟩ : BufTy).Contents (Elt Ideal)),
    TRef.nullary main_call2.v0 (iotaInDim S16x16 32 0),
    TRef.nullary main_call2.v1 (iotaInDim S16x16 32 1),
    TRef.nullary main_call2.c (constantI S_ 32 0#32),
    TRef.unary main_call2.c main_call2.v2 (broadcastInDim S16x16 ![] bcast_S_S16x16),
    TRef.binary main_call2.v0 main_call2.v2 main_call2.v3 addi,
    TRef.binary main_call2.v3 main_call2.v1 main_call2.v4 (cmpi .eq),
    TRef.nullary main_call2.cst (constant (F := Ideal) S_ .f32 0x00000000#32),
    TRef.unary main_call2.cst main_call2.v5 (broadcastInDim S16x16 ![] bcast_S_S16x16),
    TRef.ternary main_call2.v4 (.of main_v74 : StableHlo.TRef sig ⟨S16x16, .f32⟩) main_call2.v5 main_call2.call0.v0 select,
    TRef.nullary main_call2.cst_0 (constant (F := Ideal) S_ .f32 0x00000000#32),
    TRef.binary main_call2.call0.v0 main_call2.cst_0 main_call2.v7 (fun x v => Host.reduceAdd (F := Ideal) (φ := .f32) x v reducesTo_S16x16_S_d0_1 h_S_),
    unary main_v75 main_v76 (Host.negf (F := Ideal) (φ := .f32) : (⟨S_, .f32⟩ : BufTy).Contents (Elt Ideal) → (⟨S_, .f32⟩ : BufTy).Contents (Elt Ideal)),
    nullary main_cst_14 (constant (F := Ideal) S_ .f32 0x48800000#32),
    unary main_cst_14 main_v77 (Host.sqrt (F := Ideal) (φ := .f32) : (⟨S_, .f32⟩ : BufTy).Contents (Elt Ideal) → (⟨S_, .f32⟩ : BufTy).Contents (Elt Ideal)),
    binary main_v76 main_v77 main_v78 (Host.divf (F := Ideal) (φ := .f32) : (⟨S_, .f32⟩ : BufTy).Contents (Elt Ideal) → (⟨S_, .f32⟩ : BufTy).Contents (Elt Ideal) → (⟨S_, .f32⟩ : BufTy).Contents (Elt Ideal)) ]

/-- The normalised pooled adjacency: computed after the loss, returned nowhere. -/
abbrev w10 : List (HloOp τ sig (Elt Ideal)) :=
  [ nullary main_v79 (iotaInDim S16x16 32 0),
    nullary main_v80 (iotaInDim S16x16 32 1),
    nullary main_c_15 (constantI S_ 32 0#32),
    unary main_c_15 main_v81 (broadcastInDim S16x16 ![] bcast_S_S16x16 : (⟨S_, .i32⟩ : BufTy).Contents (Elt Ideal) → (⟨S16x16, .i32⟩ : BufTy).Contents (Elt Ideal)),
    binary main_v79 main_v81 main_v82 (addi : (⟨S16x16, .i32⟩ : BufTy).Contents (Elt Ideal) → (⟨S16x16, .i32⟩ : BufTy).Contents (Elt Ideal) → (⟨S16x16, .i32⟩ : BufTy).Contents (Elt Ideal)),
    binary main_v82 main_v80 main_v83 (cmpi .eq : (⟨S16x16, .i32⟩ : BufTy).Contents (Elt Ideal) → (⟨S16x16, .i32⟩ : BufTy).Contents (Elt Ideal) → (⟨S16x16, .i1⟩ : BufTy).Contents (Elt Ideal)),
    unary main_v83 main_v84 (uitofp (F := Ideal) .f32 : (⟨S16x16, .i1⟩ : BufTy).Contents (Elt Ideal) → (⟨S16x16, .f32⟩ : BufTy).Contents (Elt Ideal)),
    nullary main_cst_16 (constant (F := Ideal) S_ .f32 0x3F800000#32),
    unary main_cst_16 main_v85 (broadcastInDim S16x16 ![] bcast_S_S16x16 : (⟨S_, .f32⟩ : BufTy).Contents (Elt Ideal) → (⟨S16x16, .f32⟩ : BufTy).Contents (Elt Ideal)),
    binary main_v85 main_v84 main_v86 (subf (F := Ideal) (φ := .f32) : (⟨S16x16, .f32⟩ : BufTy).Contents (Elt Ideal) → (⟨S16x16, .f32⟩ : BufTy).Contents (Elt Ideal) → (⟨S16x16, .f32⟩ : BufTy).Contents (Elt Ideal)),
    binary main_v69 main_v86 main_v87 (mulf (F := Ideal) (φ := .f32) : (⟨S16x16, .f32⟩ : BufTy).Contents (Elt Ideal) → (⟨S16x16, .f32⟩ : BufTy).Contents (Elt Ideal) → (⟨S16x16, .f32⟩ : BufTy).Contents (Elt Ideal)),
    nullary main_cst_17 (constant (F := Ideal) S_ .f32 0x00000000#32),
    binary main_v87 main_cst_17 main_v88 ((fun x v => Host.reduceAdd (F := Ideal) (φ := .f32) x v reducesTo_S16x16_S16_d1 h_S_) : (⟨S16x16, .f32⟩ : BufTy).Contents (Elt Ideal) → (⟨S_, .f32⟩ : BufTy).Contents (Elt Ideal) → (⟨S16, .f32⟩ : BufTy).Contents (Elt Ideal)),
    unary main_v88 main_v89 (Host.sqrt (F := Ideal) (φ := .f32) : (⟨S16, .f32⟩ : BufTy).Contents (Elt Ideal) → (⟨S16, .f32⟩ : BufTy).Contents (Elt Ideal)),
    unary main_v89 main_v90 (broadcastInDim S1x16 ![1] bcast_S16_S1x16_1 : (⟨S16, .f32⟩ : BufTy).Contents (Elt Ideal) → (⟨S1x16, .f32⟩ : BufTy).Contents (Elt Ideal)),
    nullary main_cst_18 (constant (F := Ideal) S_ .f32 0x26901D7D#32),
    unary main_cst_18 main_v91 (broadcastInDim S1x16 ![] bcast_S_S1x16 : (⟨S_, .f32⟩ : BufTy).Contents (Elt Ideal) → (⟨S1x16, .f32⟩ : BufTy).Contents (Elt Ideal)),
    binary main_v90 main_v91 main_v92 (addf (F := Ideal) (φ := .f32) : (⟨S1x16, .f32⟩ : BufTy).Contents (Elt Ideal) → (⟨S1x16, .f32⟩ : BufTy).Contents (Elt Ideal) → (⟨S1x16, .f32⟩ : BufTy).Contents (Elt Ideal)),
    unary main_v92 main_v93 (broadcastInDim S16x16 ![0, 1] bcast_S1x16_S16x16_0_1 : (⟨S1x16, .f32⟩ : BufTy).Contents (Elt Ideal) → (⟨S16x16, .f32⟩ : BufTy).Contents (Elt Ideal)),
    binary main_v87 main_v93 main_v94 (Host.divf (F := Ideal) (φ := .f32) : (⟨S16x16, .f32⟩ : BufTy).Contents (Elt Ideal) → (⟨S16x16, .f32⟩ : BufTy).Contents (Elt Ideal) → (⟨S16x16, .f32⟩ : BufTy).Contents (Elt Ideal)),
    unary main_v92 main_v95 ((transpose S16x1 [1, 0] · transposes_S1x16_S16x1_1_0) : (⟨S1x16, .f32⟩ : BufTy).Contents (Elt Ideal) → (⟨S16x1, .f32⟩ : BufTy).Contents (Elt Ideal)),
    unary main_v95 main_v96 (broadcastInDim S16x16 ![0, 1] bcast_S16x1_S16x16_0_1 : (⟨S16x1, .f32⟩ : BufTy).Contents (Elt Ideal) → (⟨S16x16, .f32⟩ : BufTy).Contents (Elt Ideal)),
    binary main_v94 main_v96 main_v97 (Host.divf (F := Ideal) (φ := .f32) : (⟨S16x16, .f32⟩ : BufTy).Contents (Elt Ideal) → (⟨S16x16, .f32⟩ : BufTy).Contents (Elt Ideal) → (⟨S16x16, .f32⟩ : BufTy).Contents (Elt Ideal)) ]

/-- The first half of the program: stretches 1 to 5. -/
abbrev P0 : List (HloOp τ sig (Elt Ideal)) := w1 ++ (w2 ++ (w3 ++ (w4 ++ w5)))
/-- The second half of the program: stretches 6 to 10. -/
abbrev P1 : List (HloOp τ sig (Elt Ideal)) := w6 ++ (w7 ++ (w8 ++ (w9 ++ w10)))
/-- The whole program: the ten stretches in order. -/
abbrev ops : List (HloOp τ sig (Elt Ideal)) := w1 ++ (w2 ++ (w3 ++ (w4 ++ (w5 ++ (w6 ++ (w7 ++ (w8 ++ (w9 ++ w10))))))))

/-! ## The program is that line -/

set_option maxRecDepth 8192 in
set_option maxHeartbeats 4000000 in
/-- The first half is its five stretches in a row: each line of the half is one operation, and a call is the helper's
    lines; sequencing is associative, so both sides are the same chain. -/
theorem main_part0_eq (c : Dev nD) : main_part0 (F := Ideal) c = seq P0 := rfl

set_option maxRecDepth 8192 in
set_option maxHeartbeats 4000000 in
/-- The second half likewise. -/
theorem main_part1_eq (c : Dev nD) : main_part1 (F := Ideal) c = seq P1 := rfl

theorem ops_split : (ops : List (HloOp τ sig (Elt Ideal))) = P0 ++ P1 := by
  simp only [ops, P0, P1, List.append_assoc]

/-- The program is its 133 operations in a row. -/
theorem main_eq (c : Dev nD) : main (F := Ideal) c = seq ops := by
  rw [ops_split, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches the device's own arrays only -/

theorem w1_sub : (w1 : List (HloOp τ sig (Elt Ideal))).Forall fun op => op.bufs ⊆ tcRefs τ sig :=
  ⟨unary_bufs_sub .., reshape_bufs_sub .., unary_bufs_sub .., reshape_bufs_sub ..⟩
theorem w2_sub : (w2 : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem w3_sub : (w3 : List (HloOp τ sig (Elt Ideal))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem w4_sub : (w4 : List (HloOp τ sig (Elt Ideal))).Forall fun op => op.bufs ⊆ tcRefs τ sig :=
  ⟨binary_bufs_sub .., unary_bufs_sub .., unary_bufs_sub .., binary_bufs_sub ..⟩
theorem w5_sub : (w5 : List (HloOp τ sig (Elt Ideal))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem w6_sub : (w6 : List (HloOp τ sig (Elt Ideal))).Forall fun op => op.bufs ⊆ tcRefs τ sig :=
  ⟨unary_bufs_sub .., unary_bufs_sub .., binary_bufs_sub .., nullary_bufs_sub .., unary_bufs_sub .., ternary_bufs_sub ..⟩
theorem w7_sub : (w7 : List (HloOp τ sig (Elt Ideal))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem w8_sub : (w8 : List (HloOp τ sig (Elt Ideal))).Forall fun op => op.bufs ⊆ tcRefs τ sig :=
  ⟨unary_bufs_sub .., binary_bufs_sub .., unary_bufs_sub .., binary_bufs_sub .., binary_bufs_sub ..⟩
theorem w9_sub : (w9 : List (HloOp τ sig (Elt Ideal))).Forall fun op => op.bufs ⊆ tcRefs τ sig :=
  ⟨unary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., unary_bufs_sub .., nullary_bufs_sub .., unary_bufs_sub .., binary_bufs_sub ..⟩
theorem w10_sub : (w10 : List (HloOp τ sig (Elt Ideal))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt Ideal))).Forall fun op => op.bufs ⊆ tcRefs τ sig :=
  List.forall_iff_forall_mem.mpr fun op h => by
    simp only [ops, List.mem_append] at h
    rcases h with h | h | h | h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h]

/-! ## What each stretch writes -/

/-- An operation's one written array is in the list: the builders' write sets are singletons, and membership of a
    literal reference in a literal list is decided. -/
local macro "one_write" : term =>
  `((by simp only [nullary_writes, unary_writes, binary_writes, ternary_writes, reshape_writes, Finset.singleton_subset_iff, List.mem_toFinset]; exact List.mem_map_of_mem (by decide)))

/-- The arrays stretch 1 writes. -/
abbrev w1_W : List (Ref sig .tc) := [main_v0, main_v1, main_v2, main_v3]
theorem w1_writes : (w1 : List (HloOp τ sig (Elt Ideal))).Forall fun op => op.writes ⊆ (w1_W.map (Proc.devRef (τ := τ) .tc)).toFinset := by
  simp only [List.Forall]
  exact ⟨one_write, one_write, one_write, one_write⟩

/-- The arrays stretch 2 writes. -/
abbrev w2_W : List (Ref sig .tc) := [main_v4, main_c, main_v5, main_v6, main_c_0, main_v7, main_v8, main_v9, main_v10, main_v11, main_cst, main_v12, main_v13, main_v14, main_v15, main_v16, main_v17, main_call0_cst, main_call0_v0, main_v18]
theorem w2_writes : (w2 : List (HloOp τ sig (Elt Ideal))).Forall fun op => op.writes ⊆ (w2_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write⟩

/-- The arrays stretch 3 writes. -/
abbrev w3_W : List (Ref sig .tc) := [main_v19, main_c_1, main_v20, main_v21, main_c_2, main_v22, main_v23, main_v24, main_v25, main_v26, main_cst_3, main_v27, main_v28, main_v29, main_v30, main_v31, main_v32, main_call1_cst, main_call1_v0, main_v33]
theorem w3_writes : (w3 : List (HloOp τ sig (Elt Ideal))).Forall fun op => op.writes ⊆ (w3_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write⟩

/-- The arrays stretch 4 writes. -/
abbrev w4_W : List (Ref sig .tc) := [main_v34, main_v35, main_v36, main_v37]
theorem w4_writes : (w4 : List (HloOp τ sig (Elt Ideal))).Forall fun op => op.writes ⊆ (w4_W.map (Proc.devRef (τ := τ) .tc)).toFinset := by
  simp only [List.Forall]
  exact ⟨one_write, one_write, one_write, one_write⟩

/-- The arrays stretch 5 writes. -/
abbrev w5_W : List (Ref sig .tc) := [main_cst_4, main_v38, main_c_5, main_v39, main_v40, main_c_6, main_v41, main_v42, main_v43, main_c_7, main_v44, main_v45, main_c_8, main_v46, main_v47, main_v48]
theorem w5_writes : (w5 : List (HloOp τ sig (Elt Ideal))).Forall fun op => op.writes ⊆ (w5_W.map (Proc.devRef (τ := τ) .tc)).toFinset := by
  simp only [List.Forall]
  exact ⟨one_write, one_write, one_write, one_write, one_write, one_write, one_write, one_write, one_write, one_write, one_write, one_write, one_write, one_write, one_write, one_write⟩

/-- The arrays stretch 6 writes. -/
abbrev w6_W : List (Ref sig .tc) := [main_v49, main_v50, main_v51, main_cst_9, main_v52, main_v53]
theorem w6_writes : (w6 : List (HloOp τ sig (Elt Ideal))).Forall fun op => op.writes ⊆ (w6_W.map (Proc.devRef (τ := τ) .tc)).toFinset := by
  simp only [List.Forall]
  exact ⟨one_write, one_write, one_write, one_write, one_write, one_write⟩

/-- The arrays stretch 7 writes. -/
abbrev w7_W : List (Ref sig .tc) := [main_cst_10, main_v54, main_cst_11, main_v55, main_v56, main_v57, main_v58, main_v59, main_v60, main_cst_12, main_v61, main_v62, main_v63, main_v64]
theorem w7_writes : (w7 : List (HloOp τ sig (Elt Ideal))).Forall fun op => op.writes ⊆ (w7_W.map (Proc.devRef (τ := τ) .tc)).toFinset := by
  simp only [List.Forall]
  exact ⟨one_write, one_write, one_write, one_write, one_write, one_write, one_write, one_write, one_write, one_write, one_write, one_write, one_write, one_write⟩

/-- The arrays stretch 8 writes. -/
abbrev w8_W : List (Ref sig .tc) := [main_v65, main_v66, main_v67, main_v68, main_v69]
theorem w8_writes : (w8 : List (HloOp τ sig (Elt Ideal))).Forall fun op => op.writes ⊆ (w8_W.map (Proc.devRef (τ := τ) .tc)).toFinset := by
  simp only [List.Forall]
  exact ⟨one_write, one_write, one_write, one_write, one_write⟩

/-- The arrays stretch 9 writes. -/
abbrev w9_W : List (Ref sig .tc) := [main_v70, main_v71, main_cst_13, main_v72, main_v73, main_v74, main_call2_v0, main_call2_v1, main_call2_c, main_call2_v2, main_call2_v3, main_call2_v4, main_call2_cst, main_call2_v5, main_call2_v6, main_call2_cst_0, main_v75, main_v76, main_cst_14, main_v77, main_v78]
theorem w9_writes : (w9 : List (HloOp τ sig (Elt Ideal))).Forall fun op => op.writes ⊆ (w9_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write⟩

/-- The arrays stretch 10 writes. -/
abbrev w10_W : List (Ref sig .tc) := [main_v79, main_v80, main_c_15, main_v81, main_v82, main_v83, main_v84, main_cst_16, main_v85, main_v86, main_v87, main_cst_17, main_v88, main_v89, main_v90, main_cst_18, main_v91, main_v92, main_v93, main_v94, main_v95, main_v96, main_v97]
theorem w10_writes : (w10 : List (HloOp τ sig (Elt Ideal))).Forall fun op => op.writes ⊆ (w10_W.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write, one_write⟩

end Cert.ReferenceIdeal.RefRun

end
-- ==== Proof.RefTerm.lean ====
/-
  The reference program's two results as pure functions of its eight argument arrays, over the extended reals.

  Each stage below is the reference's own chain of array operations, written once as a function of the arrays it
  reads: the edge list split into sources and targets, a negative source moved up by the node count, one
  neighbourhood aggregation (gather the source rows, add them up at the target rows of a zero array) as a function
  of the array it aggregates, the two rectified layers, the cluster logits, the row softmax, and the scalar tail
  (the Gram matrix of the assignment, its entrywise square root after a small shift, minus its trace over the
  square root of the edge count).  The operations the program computes and never returns are not part of these
  functions.
-/
import proofs.«109023_j22943715295834_2_alg».proof.ReferenceIdeal
import Idealize.ShloMosaic.PureOps.Ideal

noncomputable section

namespace Cert.ReferenceIdeal.Term

open Idealize.ShloMosaic Cert.ReferenceIdeal

variable [Cert.ReferenceIdeal.Facts]
open Facts₀ Facts

/-! ## The edge list -/

/-- Row 0 of the edge list: the source node of every edge. -/
def src (ei : IVec S2x262144 32) : IVec S262144 32 :=
  shapeCast S262144 (extractStridedSlice S1x262144 ![0, 0] ei slices_S2x262144_S1x262144_0_0) shapeCasts_S1x262144_S262144

/-- Row 1 of the edge list: the target node of every edge. -/
def dst (ei : IVec S2x262144 32) : IVec S262144 32 :=
  shapeCast S262144 (extractStridedSlice S1x262144 ![1, 0] ei slices_S2x262144_S1x262144_1_0) shapeCasts_S1x262144_S262144

/-- The sources with a negative one moved up by the node count 16384. -/
def srcN (ei : IVec S2x262144 32) : IVec S262144 32 :=
  select (cmpi .slt (src ei) (broadcastInDim S262144 ![] bcast_S_S262144 (constantI S_ 32 0#32)))
    (addi (src ei) (broadcastInDim S262144 ![] bcast_S_S262144 (constantI S_ 32 16384#32)))
    (src ei)

/-- The normalised sources as a one-column index table. -/
def idxS (ei : IVec S2x262144 32) : IVec S262144x1 32 :=
  broadcastInDim S262144x1 ![0] bcast_S262144_S262144x1_0 (srcN ei)

/-- The targets as a one-column index table. -/
def idxD (ei : IVec S2x262144 32) : IVec S262144x1 32 :=
  broadcastInDim S262144x1 ![0] bcast_S262144_S262144x1_0 (dst ei)

/-! ## One aggregation, the bias row, the rectifier -/

/-- Aggregation over the edges of a 256-lane array `p`: row `src e` of `p` for every edge `e`, added up at row
    `dst e` of a zero array. -/
def agg256 (ei : IVec S2x262144 32) (p : FVec Ideal S16384x256 .f32) : FVec Ideal S16384x256 .f32 :=
  Host.scatterAdd (F := Ideal) scatter_S16384x256_S262144x1_S262144x256_1_0_0_1
    (broadcastInDim S16384x256 ![] bcast_S_S16384x256 (constant (F := Ideal) S_ .f32 0x00000000#32))
    (idxD ei)
    (Host.gather gather_S16384x256_S262144x1_S262144x256_1_0_n_n_0_1_1256 p (idxS ei))

/-- A 256-lane bias as a full array: every row the bias. -/
def bias256 (b : FVec Ideal S256 .f32) : FVec Ideal S16384x256 .f32 :=
  broadcastInDim S16384x256 ![0, 1] bcast_S1x256_S16384x256_0_1 (broadcastInDim S1x256 ![1] bcast_S256_S1x256_1 b)

/-- The rectifier on a 256-lane array: the maximum with the zero array. -/
def relu256 (a : FVec Ideal S16384x256 .f32) : FVec Ideal S16384x256 .f32 :=
  maximumf a (broadcastInDim S16384x256 ![] bcast_S_S16384x256 (constant (F := Ideal) S_ .f32 0x00000000#32))

/-! ## The layers -/

/-- Layer 0: `relu (aggregate (x · W0) + b0)`. -/
def h0 (x : FVec Ideal S16384x128 .f32) (ei : IVec S2x262144 32) (W0 : FVec Ideal S128x256 .f32) (b0 : FVec Ideal S256 .f32) :
    FVec Ideal S16384x256 .f32 :=
  relu256 (addf (agg256 ei (Host.dotGeneral (F := Ideal) dot_S16384x128_S128x256_S16384x256_1_0_0_1_n_n none x W0)) (bias256 b0))

/-- Layer 1 before its aggregation: `h0 · W1`. -/
def l1 (x : FVec Ideal S16384x128 .f32) (ei : IVec S2x262144 32) (W0 : FVec Ideal S128x256 .f32) (b0 : FVec Ideal S256 .f32)
    (W1 : FVec Ideal S256x256 .f32) : FVec Ideal S16384x256 .f32 :=
  Host.dotGeneral (F := Ideal) dot_S16384x256_S256x256_S16384x256_1_0_0_1_n_n none (h0 x ei W0 b0) W1

/-- Layer 1: `relu (aggregate (h0 · W1) + b1)`. -/
def h1 (x : FVec Ideal S16384x128 .f32) (ei : IVec S2x262144 32) (W0 : FVec Ideal S128x256 .f32) (b0 : FVec Ideal S256 .f32)
    (W1 : FVec Ideal S256x256 .f32) (b1 : FVec Ideal S256 .f32) : FVec Ideal S16384x256 .f32 :=
  relu256 (addf (agg256 ei (l1 x ei W0 b0 W1)) (bias256 b1))

/-- The cluster logits: `h1 · Wc + bc`. -/
def logits (x : FVec Ideal S16384x128 .f32) (ei : IVec S2x262144 32) (W0 : FVec Ideal S128x256 .f32) (b0 : FVec Ideal S256 .f32)
    (W1 : FVec Ideal S256x256 .f32) (b1 : FVec Ideal S256 .f32) (Wc : FVec Ideal S256x16 .f32) (bc : FVec Ideal S16 .f32) :
    FVec Ideal S16384x16 .f32 :=
  addf (Host.dotGeneral (F := Ideal) dot_S16384x256_S256x16_S16384x16_1_0_0_1_n_n none (h1 x ei W0 b0 W1 b1) Wc)
    (broadcastInDim S16384x16 ![0, 1] bcast_S1x16_S16384x16_0_1 (broadcastInDim S1x16 ![1] bcast_S16_S1x16_1 bc))

/-! ## The row softmax -/

/-- Every row's maximum: the fold of `max` from −∞ along the row, taken once more against −∞. -/
def rowMax (lg : FVec Ideal S16384x16 .f32) : FVec Ideal S16384 .f32 :=
  maximumf (broadcastInDim S16384 ![] bcast_S_S16384 (constant (F := Ideal) S_ .f32 0xFF800000#32))
    (Host.reduce FloatOps.maximumf lg (constant (F := Ideal) S_ .f32 0xFF800000#32) reducesTo_S16384x16_S16384_d1 h_S_)

/-- `exp (logit − row maximum)`. -/
def expRow (lg : FVec Ideal S16384x16 .f32) : FVec Ideal S16384x16 .f32 :=
  Host.exp (F := Ideal) (subf lg (broadcastInDim S16384x16 ![0, 1] bcast_S16384x1_S16384x16_0_1
    (broadcastInDim S16384x1 ![0] bcast_S16384_S16384x1_0 (rowMax lg))))

/-- The row softmax: the exponentials over their row sum. -/
def softmax (lg : FVec Ideal S16384x16 .f32) : FVec Ideal S16384x16 .f32 :=
  Host.divf (F := Ideal) (expRow lg) (broadcastInDim S16384x16 ![0, 1] bcast_S16384x1_S16384x16_0_1
    (broadcastInDim S16384x1 ![0] bcast_S16384_S16384x1_0
      (Host.reduceAdd (F := Ideal) (expRow lg) (constant (F := Ideal) S_ .f32 0x00000000#32) reducesTo_S16384x16_S16384_d1 h_S_)))

/-- The cluster assignment: the row softmax of the logits. -/
def s (x : FVec Ideal S16384x128 .f32) (ei : IVec S2x262144 32) (W0 : FVec Ideal S128x256 .f32) (b0 : FVec Ideal S256 .f32)
    (W1 : FVec Ideal S256x256 .f32) (b1 : FVec Ideal S256 .f32) (Wc : FVec Ideal S256x16 .f32) (bc : FVec Ideal S16 .f32) :
    FVec Ideal S16384x16 .f32 :=
  softmax (logits x ei W0 b0 W1 b1 Wc bc)

/-! ## The scalar tail -/

/-- The Gram matrix `svᵀ · sv` of an assignment. -/
def gram (sv : FVec Ideal S16384x16 .f32) : FVec Ideal S16x16 .f32 :=
  Host.dotGeneral (F := Ideal) dot_S16x16384_S16384x16_S16x16_1_0_0_1_n_n none
    (transpose S16x16384 [1, 0] sv transposes_S16384x16_S16x16384_1_0) sv

/-- The trace of a 16 × 16 array: the sum of its entries with everything off the diagonal replaced by zero. -/
def trace16 (a : FVec Ideal S16x16 .f32) : FVec Ideal S_ .f32 :=
  Host.reduceAdd (F := Ideal)
    (select
      (cmpi .eq (addi (iotaInDim S16x16 32 0) (broadcastInDim S16x16 ![] bcast_S_S16x16 (constantI S_ 32 0#32))) (iotaInDim S16x16 32 1))
      a
      (broadcastInDim S16x16 ![] bcast_S_S16x16 (constant (F := Ideal) S_ .f32 0x00000000#32)))
    (constant (F := Ideal) S_ .f32 0x00000000#32) reducesTo_S16x16_S_d0_1 h_S_

/-- The loss of an assignment: minus the trace of the entrywise square root of its shifted Gram matrix, over the
    square root of the edge count. -/
def tail (sv : FVec Ideal S16384x16 .f32) : FVec Ideal S_ .f32 :=
  Host.divf (F := Ideal)
    (Host.negf (F := Ideal) (trace16 (Host.sqrt (F := Ideal)
      (addf (gram sv) (broadcastInDim S16x16 ![] bcast_S_S16x16 (constant (F := Ideal) S_ .f32 0x26901D7D#32))))))
    (Host.sqrt (F := Ideal) (constant (F := Ideal) S_ .f32 0x48800000#32))

/-! ## The two results -/

/-- The first result: the cluster assignment. -/
def out_s (x : FVec Ideal S16384x128 .f32) (ei : IVec S2x262144 32) (W0 : FVec Ideal S128x256 .f32) (b0 : FVec Ideal S256 .f32)
    (W1 : FVec Ideal S256x256 .f32) (b1 : FVec Ideal S256 .f32) (Wc : FVec Ideal S256x16 .f32) (bc : FVec Ideal S16 .f32) :
    FVec Ideal S16384x16 .f32 :=
  s x ei W0 b0 W1 b1 Wc bc

/-- The second result: the loss. -/
def out_loss (x : FVec Ideal S16384x128 .f32) (ei : IVec S2x262144 32) (W0 : FVec Ideal S128x256 .f32) (b0 : FVec Ideal S256 .f32)
    (W1 : FVec Ideal S256x256 .f32) (b1 : FVec Ideal S256 .f32) (Wc : FVec Ideal S256x16 .f32) (bc : FVec Ideal S16 .f32) :
    FVec Ideal S_ .f32 :=
  tail (s x ei W0 b0 W1 b1 Wc bc)

end Cert.ReferenceIdeal.Term

end
-- ==== Proof.RefRun.lean ====
/-
  The reference program's run, read back.

  The program is a straight line of array operations (the module this one imports proves so), hence every weakly
  fair execution of it ends, and each array then holds what the operations, folded in order over the launch
  contents, leave in it.  The fold is read here stretch by stretch: after each stretch the arrays that later
  stretches still read are named as the staged functions of the argument arrays, and an array a stretch does not
  write keeps what it held.  The stretches that compute the dense adjacency and what is pooled from it write only
  arrays of their own, so the two results and the eight arguments pass through them unchanged.
-/
import proofs.«109023_j22943715295834_2_alg».proof.Proof.RefOps
import proofs.«109023_j22943715295834_2_alg».proof.Proof.RefTerm
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]
open Facts₀ Facts

/-! ## The contents after each stretch -/

/-- The device's array contents after stretch 1, from contents `V0`. -/
def val1 (V0 : Valuation τ sig (Elt Ideal)) : Valuation τ sig (Elt Ideal) := after w1 V0
/-- The device's array contents after the first 2 stretches. -/
def val2 (V0 : Valuation τ sig (Elt Ideal)) : Valuation τ sig (Elt Ideal) := after w2 (val1 V0)
/-- The device's array contents after the first 3 stretches. -/
def val3 (V0 : Valuation τ sig (Elt Ideal)) : Valuation τ sig (Elt Ideal) := after w3 (val2 V0)
/-- The device's array contents after the first 4 stretches. -/
def val4 (V0 : Valuation τ sig (Elt Ideal)) : Valuation τ sig (Elt Ideal) := after w4 (val3 V0)
/-- The device's array contents after the first 5 stretches. -/
def val5 (V0 : Valuation τ sig (Elt Ideal)) : Valuation τ sig (Elt Ideal) := after w5 (val4 V0)
/-- The device's array contents after the first 6 stretches. -/
def val6 (V0 : Valuation τ sig (Elt Ideal)) : Valuation τ sig (Elt Ideal) := after w6 (val5 V0)
/-- The device's array contents after the first 7 stretches. -/
def val7 (V0 : Valuation τ sig (Elt Ideal)) : Valuation τ sig (Elt Ideal) := after w7 (val6 V0)
/-- The device's array contents after the first 8 stretches. -/
def val8 (V0 : Valuation τ sig (Elt Ideal)) : Valuation τ sig (Elt Ideal) := after w8 (val7 V0)
/-- The device's array contents after the first 9 stretches. -/
def val9 (V0 : Valuation τ sig (Elt Ideal)) : Valuation τ sig (Elt Ideal) := after w9 (val8 V0)
/-- The device's array contents after the first 10 stretches. -/
def val10 (V0 : Valuation τ sig (Elt Ideal)) : Valuation τ sig (Elt Ideal) := after w10 (val9 V0)

/-- The whole line's fold is the tenth of these. -/
theorem after_ops (V0 : Valuation τ sig (Elt Ideal)) : after ops V0 = val10 V0 := by
  simp only [ops, after_append]
  rfl

/-! ## An array a stretch does not write keeps its contents -/

theorem keep1 (V0 : Valuation τ sig (Elt Ideal)) (r : Ref sig .tc) (h : r ∉ w1_W) :
    val1 V0 (no_index (Proc.devRef .tc r)) = V0 (Proc.devRef .tc r) :=
  after_of_writes_sub w1 _ w1_writes h
theorem keep2 (V0 : Valuation τ sig (Elt Ideal)) (r : Ref sig .tc) (h : r ∉ w2_W) :
    val2 V0 (no_index (Proc.devRef .tc r)) = val1 V0 (Proc.devRef .tc r) :=
  after_of_writes_sub w2 _ w2_writes h
theorem keep3 (V0 : Valuation τ sig (Elt Ideal)) (r : Ref sig .tc) (h : r ∉ w3_W) :
    val3 V0 (no_index (Proc.devRef .tc r)) = val2 V0 (Proc.devRef .tc r) :=
  after_of_writes_sub w3 _ w3_writes h
theorem keep4 (V0 : Valuation τ sig (Elt Ideal)) (r : Ref sig .tc) (h : r ∉ w4_W) :
    val4 V0 (no_index (Proc.devRef .tc r)) = val3 V0 (Proc.devRef .tc r) :=
  after_of_writes_sub w4 _ w4_writes h
theorem keep5 (V0 : Valuation τ sig (Elt Ideal)) (r : Ref sig .tc) (h : r ∉ w5_W) :
    val5 V0 (no_index (Proc.devRef .tc r)) = val4 V0 (Proc.devRef .tc r) :=
  after_of_writes_sub w5 _ w5_writes h
theorem keep6 (V0 : Valuation τ sig (Elt Ideal)) (r : Ref sig .tc) (h : r ∉ w6_W) :
    val6 V0 (no_index (Proc.devRef .tc r)) = val5 V0 (Proc.devRef .tc r) :=
  after_of_writes_sub w6 _ w6_writes h
theorem keep7 (V0 : Valuation τ sig (Elt Ideal)) (r : Ref sig .tc) (h : r ∉ w7_W) :
    val7 V0 (no_index (Proc.devRef .tc r)) = val6 V0 (Proc.devRef .tc r) :=
  after_of_writes_sub w7 _ w7_writes h
theorem keep8 (V0 : Valuation τ sig (Elt Ideal)) (r : Ref sig .tc) (h : r ∉ w8_W) :
    val8 V0 (no_index (Proc.devRef .tc r)) = val7 V0 (Proc.devRef .tc r) :=
  after_of_writes_sub w8 _ w8_writes h
theorem keep9 (V0 : Valuation τ sig (Elt Ideal)) (r : Ref sig .tc) (h : r ∉ w9_W) :
    val9 V0 (no_index (Proc.devRef .tc r)) = val8 V0 (Proc.devRef .tc r) :=
  after_of_writes_sub w9 _ w9_writes h
theorem keep10 (V0 : Valuation τ sig (Elt Ideal)) (r : Ref sig .tc) (h : r ∉ w10_W) :
    val10 V0 (no_index (Proc.devRef .tc r)) = val9 V0 (Proc.devRef .tc r) :=
  after_of_writes_sub w10 _ w10_writes h

/-! ## The staged values -/

/-- After stretch 1 the first flattened row is the sources. -/
theorem val1_v1 (V0 : Valuation τ sig (Elt Ideal)) :
    val1 V0 (no_index (Proc.devRef .tc main_v1)) = Term.src (V0 (Proc.devRef .tc main_arg1)) := by
  unfold val1
  simp only [w1]
  after_results_simp
  rfl

/-- After stretch 1 the second flattened row is the targets. -/
theorem val1_v3 (V0 : Valuation τ sig (Elt Ideal)) :
    val1 V0 (no_index (Proc.devRef .tc main_v3)) = Term.dst (V0 (Proc.devRef .tc main_arg1)) := by
  unfold val1
  simp only [w1]
  after_results_simp
  rfl

set_option maxRecDepth 8192 in
set_option maxHeartbeats 2000000 in
/-- After stretch 2 the rectifier's result is layer 0. -/
theorem val2_v18 (V0 : Valuation τ sig (Elt Ideal)) :
    val2 V0 (no_index (Proc.devRef .tc main_v18)) = Term.h0 (V0 (Proc.devRef .tc main_arg0)) (V0 (Proc.devRef .tc main_arg1)) (V0 (Proc.devRef .tc main_arg2)) (V0 (Proc.devRef .tc main_arg3)) := by
  unfold val2
  simp only [w2]
  after_results_simp
  simp (disch := decide) only [keep1, val1_v1, val1_v3]
  rfl

set_option maxRecDepth 8192 in
set_option maxHeartbeats 2000000 in
/-- After stretch 3 the rectifier's result is layer 1. -/
theorem val3_v33 (V0 : Valuation τ sig (Elt Ideal)) :
    val3 V0 (no_index (Proc.devRef .tc main_v33)) = Term.h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val3
  simp only [w3]
  after_results_simp
  simp (disch := decide) only [keep2, keep1, val1_v1, val1_v3, val2_v18]
  rfl

set_option maxRecDepth 8192 in
set_option maxHeartbeats 2000000 in
/-- After stretch 4 the biased product is the logits. -/
theorem val4_v37 (V0 : Valuation τ sig (Elt Ideal)) :
    val4 V0 (no_index (Proc.devRef .tc main_v37)) = Term.logits (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [w4]
  after_results_simp
  simp (disch := decide) only [keep3, keep2, keep1, val3_v33]
  rfl

set_option maxRecDepth 8192 in
set_option maxHeartbeats 2000000 in
/-- After stretch 7 the quotient is the cluster assignment. -/
theorem val7_v64 (V0 : Valuation τ sig (Elt Ideal)) :
    val7 V0 (no_index (Proc.devRef .tc main_v64)) = Term.s (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val7
  simp only [w7]
  after_results_simp
  simp (disch := decide) only [keep6, keep5, val4_v37]
  rfl

set_option maxRecDepth 8192 in
set_option maxHeartbeats 2000000 in
/-- After stretch 9 the scaled negated trace is the loss of the assignment. -/
theorem val9_v78 (V0 : Valuation τ sig (Elt Ideal)) :
    val9 V0 (no_index (Proc.devRef .tc main_v78)) = Term.tail (Term.s (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val9
  simp only [w9]
  after_results_simp
  simp (disch := decide) only [keep8, val7_v64]
  rfl

/-! ## The results and the arguments at the end -/

theorem fin_v64 (V0 : Valuation τ sig (Elt Ideal)) :
    val10 V0 (no_index (Proc.devRef .tc main_v64)) = Term.out_s (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  simp (disch := decide) only [keep10, keep9, keep8, val7_v64]
  rfl

theorem fin_v78 (V0 : Valuation τ sig (Elt Ideal)) :
    val10 V0 (no_index (Proc.devRef .tc main_v78)) = Term.out_loss (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  simp (disch := decide) only [keep10, val9_v78]
  rfl

theorem fin_arg0 (V0 : Valuation τ sig (Elt Ideal)) :
    val10 V0 (no_index (Proc.devRef .tc main_arg0)) = V0 (Proc.devRef .tc main_arg0) := by
  simp (disch := decide) only [keep10, keep9, keep8, keep7, keep6, keep5, keep4, keep3, keep2, keep1]

theorem fin_arg1 (V0 : Valuation τ sig (Elt Ideal)) :
    val10 V0 (no_index (Proc.devRef .tc main_arg1)) = V0 (Proc.devRef .tc main_arg1) := by
  simp (disch := decide) only [keep10, keep9, keep8, keep7, keep6, keep5, keep4, keep3, keep2, keep1]

theorem fin_arg2 (V0 : Valuation τ sig (Elt Ideal)) :
    val10 V0 (no_index (Proc.devRef .tc main_arg2)) = V0 (Proc.devRef .tc main_arg2) := by
  simp (disch := decide) only [keep10, keep9, keep8, keep7, keep6, keep5, keep4, keep3, keep2, keep1]

theorem fin_arg3 (V0 : Valuation τ sig (Elt Ideal)) :
    val10 V0 (no_index (Proc.devRef .tc main_arg3)) = V0 (Proc.devRef .tc main_arg3) := by
  simp (disch := decide) only [keep10, keep9, keep8, keep7, keep6, keep5, keep4, keep3, keep2, keep1]

theorem fin_arg4 (V0 : Valuation τ sig (Elt Ideal)) :
    val10 V0 (no_index (Proc.devRef .tc main_arg4)) = V0 (Proc.devRef .tc main_arg4) := by
  simp (disch := decide) only [keep10, keep9, keep8, keep7, keep6, keep5, keep4, keep3, keep2, keep1]

theorem fin_arg5 (V0 : Valuation τ sig (Elt Ideal)) :
    val10 V0 (no_index (Proc.devRef .tc main_arg5)) = V0 (Proc.devRef .tc main_arg5) := by
  simp (disch := decide) only [keep10, keep9, keep8, keep7, keep6, keep5, keep4, keep3, keep2, keep1]

theorem fin_arg6 (V0 : Valuation τ sig (Elt Ideal)) :
    val10 V0 (no_index (Proc.devRef .tc main_arg6)) = V0 (Proc.devRef .tc main_arg6) := by
  simp (disch := decide) only [keep10, keep9, keep8, keep7, keep6, keep5, keep4, keep3, keep2, keep1]

theorem fin_arg7 (V0 : Valuation τ sig (Elt Ideal)) :
    val10 V0 (no_index (Proc.devRef .tc main_arg7)) = V0 (Proc.devRef .tc main_arg7) := by
  simp (disch := decide) only [keep10, keep9, keep8, keep7, keep6, keep5, keep4, keep3, keep2, keep1]

/-! ## The run -/

/-- On every device, from any memory with zero counters: every weakly fair execution of the reference program
    terminates, with its first result the staged assignment of the eight argument arrays, its second the staged loss,
    and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v64) = Term.out_s (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v78) = Term.out_loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.ReferenceIdeal.defs (F := Ideal)) _ _).mono (fun _ h c => ⟨(h c main_v64).trans (by simp only [after_ops]; exact fin_v64 (launchContents m c)),
      (h c main_v78).trans (by simp only [after_ops]; exact fin_v78 (launchContents m c)),
      (h c main_arg0).trans (by simp only [after_ops]; exact fin_arg0 (launchContents m c)),
      (h c main_arg1).trans (by simp only [after_ops]; exact fin_arg1 (launchContents m c)),
      (h c main_arg2).trans (by simp only [after_ops]; exact fin_arg2 (launchContents m c)),
      (h c main_arg3).trans (by simp only [after_ops]; exact fin_arg3 (launchContents m c)),
      (h c main_arg4).trans (by simp only [after_ops]; exact fin_arg4 (launchContents m c)),
      (h c main_arg5).trans (by simp only [after_ops]; exact fin_arg5 (launchContents m c)),
      (h c main_arg6).trans (by simp only [after_ops]; exact fin_arg6 (launchContents m c)),
      (h c main_arg7).trans (by simp only [after_ops]; exact fin_arg7 (launchContents m c))⟩)
    (run_seq scopedRefs_eq scopedSems_eq (Cert.ReferenceIdeal.defs (F := Ideal)) (main (F := Ideal)) (fun _ => ops) main_eq (fun _ => ops_sub) m ρ)

end Cert.ReferenceIdeal.RefRun

end
-- ==== Proof.Finite.lean ====
/-
  What the precondition says of the two arrays the layer-0 law needs: every entry of the node features and of the first
  weight matrix is a real number.

The precondition is a conjunction of seven "all entries have absolute value below +∞" tests, one per float argument,
nested to the left; the two innermost conjuncts are the tests of the node features and of the first weight matrix.
An extended real whose absolute value max x (−x) is below +∞ is neither +∞ nor −∞.
-/
import proofs.«109023_j22943715295834_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

variable [Cert.Pre_finite_inputs.Facts]

instance : Subsingleton S_.Idx := ⟨fun a b => funext fun d => d.elim0⟩

/-- An extended real with `|x| < +∞` (the float word 0x7F800000 is +∞) is finite. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_contra hn
    simp [Ideal.cmp, hn] at h
  constructor
  · rintro rfl; simp at hlt
  · rintro rfl; simp at hlt

/-- Under the precondition the node features and the first weight matrix hold real numbers only. -/
theorem finite_of_pre (a0 : FVec Ideal S16384x128 .f32) (a1 : IVec S2x262144 32) (a2 : FVec Ideal S128x256 .f32)
    (a3 : FVec Ideal S256 .f32) (a4 : FVec Ideal S256x256 .f32) (a5 : FVec Ideal S256 .f32)
    (a6 : FVec Ideal S256x16 .f32) (a7 : FVec Ideal S16 .f32)
    (h : fn (F := Ideal) a0 a1 a2 a3 a4 a5 a6 a7 = fun _ => 1#1) :
    (∀ i, a0 i ≠ ⊤ ∧ a0 i ≠ ⊥) ∧ (∀ i, a2 i ≠ ⊤ ∧ a2 i ≠ ⊥) := by
  have h0 := congrFun h ix0
  dsimp only [fn, fn_part1] at h0
  obtain ⟨h1, -⟩ := IntOp.andi_eq_one.mp (show IntOp.andi _ _ = 1#1 from h0)
  obtain ⟨h2, -⟩ := IntOp.andi_eq_one.mp (show IntOp.andi _ _ = 1#1 from h1)
  obtain ⟨h3, -⟩ := IntOp.andi_eq_one.mp (show IntOp.andi _ _ = 1#1 from h2)
  obtain ⟨h4, -⟩ := IntOp.andi_eq_one.mp (show IntOp.andi _ _ = 1#1 from h3)
  obtain ⟨h5, -⟩ := IntOp.andi_eq_one.mp (show IntOp.andi _ _ = 1#1 from h4)
  obtain ⟨hx, hW⟩ := IntOp.andi_eq_one.mp (show IntOp.andi _ _ = 1#1 from h5)
  constructor
  · intro i
    have e := Host.reduce_andi_all _ _ _ _ ix0 hx i
    exact finite_of_abs_lt (a0 i) e
  · intro i
    have e := Host.reduce_andi_all _ _ _ _ ix0 hW i
    exact finite_of_abs_lt (a2 i) e

end Cert.Finite

end
-- ==== Proof.LibRows.lean ====
/-
  Row gather and row scatter-add of a matrix, read at an index.

`x[idx]` of a matrix `x : [N, W]` at a column of row numbers `idx : [E, 1]` is StableHLO's gather with offset axis 1,
collapsed axis 0, start index map [0], index vector axis 1 and slices `[1, W]`: result element `(e, k)` is `x` at row
`idx[e, 0]` (read signed and clamped into `[0, N − 1]`), lane `k`.  The accumulating scatter with update window axis 1,
inserted window axis 0, scatter-to-operand map [0] and index vector axis 1 sends update element `(e, k)` to operand
element `(idx[e, 0], k)` when that row number, read signed and NOT clamped, lies in `[0, N)`, and drops it otherwise;
over the extended reals the scattered array at `(i, j)` is therefore the operand's element plus the sum, over the
update rows `e` whose row number is `i`, of the update's element `(e, j)`.
-/
import Idealize.ShloMosaic.PureOps.Ideal
import Idealize.ShloMosaic.Lib.ValueIdx

noncomputable section

open scoped BigOperators

namespace Cert.LibRows

open Idealize.ShloMosaic Idealize.ShloMosaic.ValueIdx

/-! ## The gather of rows -/

section Gather
variable {α : Type}

/-- The dimension numbers of a row gather: operand `[N, W]`, row numbers `[E, 1]`, result `[E, W]`. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the gather reads for result row `e`: the row number `idx[e, 0]`, signed, clamped into `[0, N − 1]`. -/
def gatherRow {N E w : Nat} (hN : 0 < N) (idx : IVec ⟨2, ![E, 1]⟩ w) (e : Fin E) : Fin N :=
  ⟨min (idx (ix2 e 0)).toInt.toNat (N - 1), by omega⟩

/-- THE ROW GATHER READ AT `(e, k)`: the operand at the clamped row, lane `k`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N W E wf) x idx (ix2 e k) = x (ix2 (gatherRow hN idx e) k) := by
  unfold Host.gather
  congr 1
  funext a
  refine Fin.ext ?_
  match a with
  | ⟨0, _⟩ =>
    show (rowGatherDims N W E wf).start (ix2 e k) idx 0 + (rowGatherDims N W E wf).batchCoord (ix2 e k) 0
        + (rowGatherDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e k) ⟨List.idxOf (0 : Fin 2) (rowGatherDims N W E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N W E wf).start (ix2 e k) idx 1 + (rowGatherDims N W E wf).batchCoord (ix2 e k) 1
        + (rowGatherDims N W E wf).offCoord (ix2 e k) 1 = k.val
    rw [GatherDims.batchCoord_eq_zero _ _ _ List.not_mem_nil]
    have hst : (rowGatherDims N W E wf).start (ix2 e k) idx 1 = 0 := by
      unfold GatherDims.start
      rw [dif_neg (show (1 : Fin 2) ∉ (rowGatherDims N W E wf).startIndexMap from fun h => absurd (List.mem_singleton.mp h) (show (1 : Fin 2) ≠ 0 by decide))]
    rw [hst]
    simp only [Nat.add_zero, Nat.zero_add]
    rfl

end Gather

/-! ## The accumulating scatter of rows -/

section Scatter

/-- The dimension numbers of a row scatter: operand `[N, W]`, row numbers `[E, 1]`, updates `[E, W]`. -/
abbrev rowScatterDims (N W E : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- An operand axis is a window axis exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

variable {N W E w : Nat} (wf : ScatterDims.WF ⟨2, ![N, W]⟩ ⟨2, ![E, 1]⟩ ⟨2, ![E, W]⟩ [1] [0] [0] 1)

theorem start0 (idx : IVec ⟨2, ![E, 1]⟩ w) (e : Fin E) (k : Fin W) :
    (rowScatterDims N W E wf).start (ix2 e k) idx 0 = (idx (ix2 e 0)).toInt := by
  unfold ScatterDims.start
  rw [dif_pos (show (0 : Fin 2) ∈ (rowScatterDims N W E wf).scatterDimsToOperandDims from List.mem_singleton.mpr rfl)]
  have hsi : (rowScatterDims N W E wf).siIdx (ix2 e k) ⟨List.idxOf (0 : Fin 2) (rowScatterDims N W E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start1 (idx : IVec ⟨2, ![E, 1]⟩ w) (e : Fin E) (k : Fin W) :
    (rowScatterDims N W E wf).start (ix2 e k) idx 1 = 0 := by
  unfold ScatterDims.start
  rw [dif_neg (show (1 : Fin 2) ∉ (rowScatterDims N W E wf).scatterDimsToOperandDims from fun h => absurd (List.mem_singleton.mp h) (show (1 : Fin 2) ≠ 0 by decide))]

theorem window0 (e : Fin E) (k : Fin W) : (rowScatterDims N W E wf).window (ix2 e k) 0 = 0 := by
  unfold ScatterDims.window
  rw [dif_neg (show (0 : Fin 2) ∉ (rowScatterDims N W E wf).sKept from fun h => ((mem_sKept _ _).mp h) (List.mem_singleton.mpr rfl))]

theorem window1 (e : Fin E) (k : Fin W) : (rowScatterDims N W E wf).window (ix2 e k) 1 = k.val := by
  unfold ScatterDims.window
  rw [dif_pos (show (1 : Fin 2) ∈ (rowScatterDims N W E wf).sKept from (mem_sKept _ _).mpr fun h => absurd (List.mem_singleton.mp h) (show (1 : Fin 2) ≠ 0 by decide))]
  rfl

/-- Update element `(e, k)` lands on operand element `(i, j)` exactly when row `e`'s row number, read signed,
    is `i`, and the lanes agree. -/
theorem resultIdx?_rows_iff (idx : IVec ⟨2, ![E, 1]⟩ w) (e : Fin E) (k : Fin W) (i : Fin N) (j : Fin W) :
    (rowScatterDims N W E wf).resultIdx? (ix2 e k) idx = some (ix2 i j)
      ↔ (idx (ix2 e 0)).toInt = (i.val : Int) ∧ k = j := by
  have hs0 := start0 wf idx e k
  have hs1 := start1 wf idx e k
  have hw0 := window0 wf e k
  have hw1 := window1 wf e k
  unfold ScatterDims.resultIdx?
  split
  · rename_i h
    rw [Option.some.injEq]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · have : ((idx (ix2 e 0)).toInt + ((0 : Nat) : Int)).toNat = i.val := h0
        omega
      · have : ((0 : Int) + ((k.val : Nat) : Int)).toNat = j.val := h1
        omega
    · rintro ⟨hi, rfl⟩
      funext a
      refine Fin.ext ?_
      match a with
      | ⟨0, _⟩ =>
        show ((rowScatterDims N W E wf).start (ix2 e k) idx 0 + ((rowScatterDims N W E wf).window (ix2 e k) 0 : Nat)).toNat = i.val
        rw [hs0, hw0, hi]; simp
      | ⟨1, _⟩ =>
        show ((rowScatterDims N W E wf).start (ix2 e k) idx 1 + ((rowScatterDims N W E wf).window (ix2 e k) 1 : Nat)).toNat = k.val
        rw [hs1, hw1]; simp
  · rename_i h
    constructor
    · intro hf; exact absurd hf (by simp)
    · rintro ⟨hi, rfl⟩
      exfalso
      apply h
      intro a
      match a with
      | ⟨0, _⟩ =>
        show 0 ≤ (rowScatterDims N W E wf).start (ix2 e k) idx 0 + ((rowScatterDims N W E wf).window (ix2 e k) 0 : Nat)
          ∧ (rowScatterDims N W E wf).start (ix2 e k) idx 0 + ((rowScatterDims N W E wf).window (ix2 e k) 0 : Nat) < (N : Int)
        rw [hs0, hw0, hi]
        have := i.isLt
        constructor <;> omega
      | ⟨1, _⟩ =>
        show 0 ≤ (rowScatterDims N W E wf).start (ix2 e k) idx 1 + ((rowScatterDims N W E wf).window (ix2 e k) 1 : Nat)
          ∧ (rowScatterDims N W E wf).start (ix2 e k) idx 1 + ((rowScatterDims N W E wf).window (ix2 e k) 1 : Nat) < (W : Int)
        rw [hs1, hw1]
        have := k.isLt
        constructor <;> omega

/-- THE ROW SCATTER-ADD READ AT `(i, j)` over the extended reals: the operand's element plus the sum of the update's
    lane `j` over the update rows whose row number is `i`. -/
theorem scatterAdd_rows_apply (x : (⟨2, ![N, W]⟩ : Shape).Idx → EReal) (idx : IVec ⟨2, ![E, 1]⟩ w)
    (U : (⟨2, ![E, W]⟩ : Shape).Idx → EReal) (i : Fin N) (j : Fin W) :
    Host.scatterAdd (F := Ideal) (φ := .f32) (rowScatterDims N W E wf) x idx U (ix2 i j)
      = x (ix2 i j) + ∑ e ∈ Finset.univ.filter (fun e : Fin E => (idx (ix2 e 0)).toInt = (i.val : Int)), U (ix2 e j) := by
  show Ideal.hostScatterAdd (rowScatterDims N W E wf) x idx U (ix2 i j) = _
  unfold Ideal.hostScatterAdd
  congr 1
  refine Finset.sum_bij (fun u _ => (u 0 : Fin E)) ?_ ?_ ?_ ?_
  · intro u hu
    rw [Finset.mem_filter] at hu
    rw [eq_ix2 u] at hu
    exact Finset.mem_filter.mpr ⟨Finset.mem_univ _, ((resultIdx?_rows_iff wf idx _ _ i j).mp hu.2).1⟩
  · intro u hu u' hu' h
    rw [Finset.mem_filter] at hu hu'
    have e1 := hu.2; have e2 := hu'.2
    rw [eq_ix2 u] at e1; rw [eq_ix2 u'] at e2
    have k1 := ((resultIdx?_rows_iff wf idx _ _ i j).mp e1).2
    have k2 := ((resultIdx?_rows_iff wf idx _ _ i j).mp e2).2
    rw [eq_ix2 u, eq_ix2 u']
    have h' : (u 0 : Fin E) = (u' 0 : Fin E) := h
    rw [h', show (u 1 : Fin W) = (u' 1 : Fin W) from k1.trans k2.symm]
  · intro e he
    rw [Finset.mem_filter] at he
    refine ⟨ix2 e j, ?_, rfl⟩
    rw [Finset.mem_filter]
    exact ⟨Finset.mem_univ _, (resultIdx?_rows_iff wf idx e j i j).mpr ⟨he.2, rfl⟩⟩
  · intro u hu
    rw [Finset.mem_filter] at hu
    have e1 := hu.2
    rw [eq_ix2 u] at e1
    have k1 := ((resultIdx?_rows_iff wf idx _ _ i j).mp e1).2
    conv_lhs => rw [eq_ix2 u]
    rw [show (u 1 : Fin W) = j from k1]
    rfl

end Scatter

end Cert.LibRows

end
-- ==== Proof.SumLaw.lean ====
/-
  The one algebraic law that joins the two layer-0 arrangements.

Aggregating the rows that an index set selects and then multiplying by a matrix gives the same numbers as multiplying
every row by the matrix first and aggregating the products: for FINITE entries both sides are real double sums, and
(∑ₑ aₑₖ) · bₖ summed over k is ∑ₑ ∑ₖ aₑₖ · bₖ by distributivity and exchanging the two finite sums.  Over the extended
reals distributivity fails at the infinities, so the law is stated for entries that are neither +∞ nor −∞ and proved by
passing to the real numbers.
-/
import Idealize.ShloMosaic.PureOps.Ideal

open scoped BigOperators

namespace Cert.SumLaw

/-- The embedding of the reals into the extended reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- Aggregate-then-multiply equals multiply-then-aggregate on finite entries (the leading zeros are the initial
    values the two aggregations start from). -/
theorem sum_rows_mul {ι κ : Type} [Fintype κ] (S : Finset ι) (a : ι → κ → EReal) (b : κ → EReal)
    (ha : ∀ e k, a e k ≠ ⊤ ∧ a e k ≠ ⊥) (hb : ∀ k, b k ≠ ⊤ ∧ b k ≠ ⊥) :
    ∑ k, ((0 : EReal) + ∑ e ∈ S, a e k) * b k = (0 : EReal) + ∑ e ∈ S, ∑ k, a e k * b k := by
  obtain ⟨ar, rfl⟩ : ∃ ar : ι → κ → ℝ, a = fun e k => (ar e k : EReal) :=
    ⟨fun e k => (a e k).toReal, funext fun e => funext fun k => (EReal.coe_toReal (ha e k).1 (ha e k).2).symm⟩
  obtain ⟨br, rfl⟩ : ∃ br : κ → ℝ, b = fun k => (br k : EReal) :=
    ⟨fun k => (b k).toReal, funext fun k => (EReal.coe_toReal (hb k).1 (hb k).2).symm⟩
  simp only [zero_add, ← coe_sum, ← EReal.coe_mul]
  rw [EReal.coe_eq_coe_iff]
  simp only [Finset.sum_mul]
  exact Finset.sum_comm

end Cert.SumLaw
-- ==== Proof.Bridge0.lean ====
/-
  Layer 0 of the two programs computes one array.

One program aggregates the gathered feature rows first and multiplies the aggregate by the weight matrix inside its
first dense stage; the other multiplies every node's features by the weight matrix first and aggregates the products.
Entry (r, j) of the first is  max (∑ₖ (0 + ∑_{e → r} x(row e, k)) · W(k, j) + b(j)) 0  and of the second
max ((0 + ∑_{e → r} ∑ₖ x(row e, k) · W(k, j)) + b(j)) 0,  where e → r ranges over the edges whose target is r and
row e is the (clamped) source of edge e.  For finite x and W the two inner numbers agree by distributivity and an
exchange of the two finite sums; the bias and the rectifier are the same on both sides.
-/
import proofs.«109023_j22943715295834_2_alg».proof.Proof.KerTerm
import proofs.«109023_j22943715295834_2_alg».proof.Proof.RefTerm
import proofs.«109023_j22943715295834_2_alg».proof.Proof.LibRows
import proofs.«109023_j22943715295834_2_alg».proof.Proof.SumLaw
import Idealize.ShloMosaic.Lib.StackMember
import Idealize.ShloMosaic.Lib.Pipeline.Value

noncomputable section

open scoped BigOperators

namespace Cert.Bridge0

open Idealize.ShloMosaic Idealize.ShloMosaic.ValueIdx

variable [Cert.KernelIdeal.Facts] [Cert.ReferenceIdeal.Facts]

/-- The edges whose target row, read signed off the target column `idx`, is `r`. -/
abbrev into (idx : IVec (⟨2, ![262144, 1]⟩ : Shape) 32) (r : Fin 16384) : Finset (Fin 262144) :=
  Finset.univ.filter (fun e : Fin 262144 => (idx (ix2 e 0)).toInt = (r.val : Int))

/-- The source row of edge `e`, clamped into the node range. -/
abbrev rowOf (idx : IVec (⟨2, ![262144, 1]⟩ : Shape) 32) (e : Fin 262144) : Fin 16384 :=
  LibRows.gatherRow (N := 16384) (by decide) idx e

/-- The two programs read the same source and target columns off the edge list. -/
theorem idxS_eq (ei : IVec (⟨2, ![2, 262144]⟩ : Shape) 32) :
    Cert.KernelIdeal.Term.idxS ei = Cert.ReferenceIdeal.Term.idxS ei := rfl
theorem idxD_eq (ei : IVec (⟨2, ![2, 262144]⟩ : Shape) 32) :
    Cert.KernelIdeal.Term.idxD ei = Cert.ReferenceIdeal.Term.idxD ei := rfl

/-- The printed dimension numbers of the two aggregations are the row gather's and the row scatter's. -/
theorem scatter128_eq : Cert.KernelIdeal.scatter_S16384x128_S262144x1_S262144x128_1_0_0_1
    = LibRows.rowScatterDims 16384 128 262144 Cert.KernelIdeal.Facts₀.scatter_S16384x128_S262144x1_S262144x128_1_0_0_1_wf := rfl
theorem gather128_eq : Cert.KernelIdeal.gather_S16384x128_S262144x1_S262144x128_1_0_n_n_0_1_1128
    = LibRows.rowGatherDims 16384 128 262144 Cert.KernelIdeal.Facts₀.gather_S16384x128_S262144x1_S262144x128_1_0_n_n_0_1_1128_wf := rfl
theorem scatter256_eq : Cert.ReferenceIdeal.scatter_S16384x256_S262144x1_S262144x256_1_0_0_1
    = LibRows.rowScatterDims 16384 256 262144 Cert.ReferenceIdeal.Facts₀.scatter_S16384x256_S262144x1_S262144x256_1_0_0_1_wf := rfl
theorem gather256_eq : Cert.ReferenceIdeal.gather_S16384x256_S262144x1_S262144x256_1_0_n_n_0_1_1256
    = LibRows.rowGatherDims 16384 256 262144 Cert.ReferenceIdeal.Facts₀.gather_S16384x256_S262144x1_S262144x256_1_0_n_n_0_1_1256_wf := rfl

/-- The aggregated features at (r, k): zero plus the sum over the edges into r of the source row's lane k. -/
theorem agg128_apply (ei : IVec (⟨2, ![2, 262144]⟩ : Shape) 32) (x : Stages.Arr2 16384 128) (r : Fin 16384) (k : Fin 128) :
    Cert.KernelIdeal.Term.agg128 ei x (ix2 r k)
      = Stages.zero + ∑ e ∈ into (Cert.KernelIdeal.Term.idxD ei) r, x (ix2 (rowOf (Cert.KernelIdeal.Term.idxS ei) e) k) := by
  unfold Cert.KernelIdeal.Term.agg128
  rw [scatter128_eq, gather128_eq]
  refine (LibRows.scatterAdd_rows_apply _ _ _ _ r k).trans ?_
  refine congrArg₂ (· + ·) rfl ?_
  exact Finset.sum_congr rfl fun e _ => LibRows.gather_rows_apply (by decide) _ x _ e k

/-- The reference's aggregation of a 256-lane array at (r, j). -/
theorem agg256_apply (ei : IVec (⟨2, ![2, 262144]⟩ : Shape) 32) (p : Stages.Arr2 16384 256) (r : Fin 16384) (j : Fin 256) :
    Cert.ReferenceIdeal.Term.agg256 ei p (ix2 r j)
      = Stages.zero + ∑ e ∈ into (Cert.ReferenceIdeal.Term.idxD ei) r, p (ix2 (rowOf (Cert.ReferenceIdeal.Term.idxS ei) e) j) := by
  unfold Cert.ReferenceIdeal.Term.agg256
  rw [scatter256_eq, gather256_eq]
  refine (LibRows.scatterAdd_rows_apply _ _ _ _ r j).trans ?_
  refine congrArg₂ (· + ·) rfl ?_
  exact Finset.sum_congr rfl fun e _ => LibRows.gather_rows_apply (by decide) _ p _ e j

/-- The reference's first product at (r, j). -/
theorem xW0_apply (x : Stages.Arr2 16384 128) (W0 : Stages.Arr2 128 256) (r : Fin 16384) (j : Fin 256) :
    Host.dotGeneral (F := Ideal) (φ₁ := .f32) (φ₂ := .f32) Cert.ReferenceIdeal.dot_S16384x128_S128x256_S16384x256_1_0_0_1_n_n none x W0 (ix2 r j)
      = ∑ k : Fin 128, x (ix2 r k) * W0 (ix2 k j) :=
  StackMember.dotGeneral_plain_apply (m := 16384) (k := 128) (n := 256) (φ₁ := .f32) (φ₂ := .f32) none x W0 r j

/-- The bias row, spread over the nodes, at (r, j). -/
theorem bias256_apply (b : FVec Ideal (⟨1, ![256]⟩ : Shape) .f32) (r : Fin 16384) (j : Fin 256) :
    Cert.ReferenceIdeal.Term.bias256 b (ix2 r j) = b (ix1 j) := by
  unfold Cert.ReferenceIdeal.Term.bias256
  refine (broadcastInDim_apply _ _ _ (ix2 r j) (ix2 0 j) ?_).trans ?_
  · intro a
    match a with
    | ⟨0, _⟩ => rfl
    | ⟨1, _⟩ => rfl
  · refine broadcastInDim_apply _ _ _ (ix2 0 j) (ix1 j) ?_
    intro a
    match a with
    | ⟨0, _⟩ => rfl

/-- The bias recast as a one-row matrix, at (0, j). -/
theorem biasRow_apply (b : FVec Ideal (⟨1, ![256]⟩ : Shape) .f32) (j : Fin 256) :
    shapeCast Cert.KernelIdeal.S1x256 b Cert.KernelIdeal.Facts₀.shapeCasts_S256_S1x256 (ix2 0 j) = b (ix1 j) := by
  refine (shapeCast_addUnit_apply (n := 1) (![256]) b _ (ix2 0 j)).trans ?_
  refine congrArg b (funext fun a => ?_)
  match a with
  | ⟨0, _⟩ => rfl

/-- LAYER 0: the two programs' first hidden arrays are equal when the features and the first weight matrix are finite. -/
theorem h0_eq (x : Stages.Arr2 16384 128) (ei : IVec (⟨2, ![2, 262144]⟩ : Shape) 32) (W0 : Stages.Arr2 128 256)
    (b0 : FVec Ideal (⟨1, ![256]⟩ : Shape) .f32)
    (hx : ∀ i, x i ≠ ⊤ ∧ x i ≠ ⊥) (hW : ∀ i, W0 i ≠ ⊤ ∧ W0 i ≠ ⊥) :
    Cert.KernelIdeal.Term.h0 x ei W0 b0 = Cert.ReferenceIdeal.Term.h0 x ei W0 b0 := by
  funext i
  obtain ⟨r, j, rfl⟩ : ∃ (r : Fin 16384) (j : Fin 256), i = ix2 r j := ⟨i 0, i 1, eq_ix2 i⟩
  show Stages.denseReluAt (Cert.KernelIdeal.Term.agg128 ei x) W0 _ r j
    = max (Cert.ReferenceIdeal.Term.agg256 ei _ (ix2 r j) + Cert.ReferenceIdeal.Term.bias256 b0 (ix2 r j)) Stages.zero
  unfold Stages.denseReluAt
  rw [biasRow_apply, bias256_apply, agg256_apply]
  simp only [agg128_apply, xW0_apply, ← idxS_eq, ← idxD_eq]
  have hz : Stages.zero = 0 := Ideal.ofBits_zero_f32
  rw [hz]
  rw [SumLaw.sum_rows_mul (into (Cert.KernelIdeal.Term.idxD ei) r)
    (fun e k => x (ix2 (rowOf (Cert.KernelIdeal.Term.idxS ei) e) k)) (fun k => W0 (ix2 k j))
    (fun e k => hx _) (fun k => hW _)]

end Cert.Bridge0

end
-- ==== Proof.Bridge2.lean ====
/-
  The cluster head of the two programs computes one array.

Both programs form, for every node r, the 16 logits  L(r, j) = ∑ₖ max (A(r, k) + b(k)) 0 · Wc(k, j) + bc(j),  the row
maximum M(r) (a fold of max from −∞ over the 16 clusters, taken once more against −∞), the exponentials
exp (L(r, j) − M(r)), and divide each by the row's sum of them.  One program does this inside its last dense stage,
block of rows by block of rows; the other with whole-array operations.  Entry by entry the two spell the same
expression, the whole-array sum starting from an initial zero that adds nothing.
-/
import proofs.«109023_j22943715295834_2_alg».proof.Proof.Bridge0
import Idealize.ShloMosaic.PureOps.Ideal.Laws
import Idealize.ShloMosaic.PureOps.Reduce

noncomputable section

open scoped BigOperators

namespace Cert.Bridge2

open Idealize.ShloMosaic Idealize.ShloMosaic.ValueIdx

variable [Cert.KernelIdeal.Facts] [Cert.ReferenceIdeal.Facts]

/-- A row index with cluster `k` put back on the reduced axis is (r, k). -/
theorem lift_row (h : (⟨2, ![16384, 16]⟩ : Shape).Reduces [1] (⟨1, ![16384]⟩ : Shape)) (r : Fin 16384)
    (k : Fin ((⟨2, ![16384, 16]⟩ : Shape).size 1)) : h.lift (ix1 r) k = ix2 r (⟨k.val, k.isLt⟩ : Fin 16) := by
  funext c; apply Fin.ext
  fin_cases c <;> rfl

/-- A per-row vector spread over the 16 clusters, at (r, j). -/
theorem colSpread_apply (v : FVec Ideal (⟨1, ![16384]⟩ : Shape) .f32) (r : Fin 16384) (j : Fin 16) :
    (broadcastInDim Cert.ReferenceIdeal.S16384x16 ![0, 1] Cert.ReferenceIdeal.Facts₀.bcast_S16384x1_S16384x16_0_1
      (broadcastInDim Cert.ReferenceIdeal.S16384x1 ![0] Cert.ReferenceIdeal.Facts₀.bcast_S16384_S16384x1_0 v)) (ix2 r j) = v (ix1 r) := by
  refine (broadcastInDim_apply _ _ _ (ix2 r j) (ix2 r 0) ?_).trans ?_
  · intro a
    match a with
    | ⟨0, _⟩ => rfl
    | ⟨1, _⟩ => rfl
  · refine broadcastInDim_apply _ _ _ (ix2 r 0) (ix1 r) ?_
    intro a
    match a with
    | ⟨0, _⟩ => rfl

/-- The row maximum of an array of logits: the fold of max from −∞ over the row, once more against −∞. -/
def rowMaxOf (lg : FVec Ideal (⟨2, ![16384, 16]⟩ : Shape) .f32) (r : Fin 16384) : EReal :=
  max Stages.ninf ((Finset.univ : Finset (Fin 16)).fold max Stages.ninf (fun j => lg (ix2 r j)))

/-- The reduced shape keeps axis 0: the printed fact, with the rank's positivity added. -/
theorem rowReduces : (⟨2, ![16384, 16]⟩ : Shape).Reduces [1] (⟨1, ![16384]⟩ : Shape) :=
  ⟨Cert.ReferenceIdeal.Facts₀.reducesTo_S16384x16_S16384_d1.1, Nat.one_pos, Cert.ReferenceIdeal.Facts₀.reducesTo_S16384x16_S16384_d1.2⟩

theorem rowMax_unfold (lg : FVec Ideal (⟨2, ![16384, 16]⟩ : Shape) .f32) (r : Fin 16384) :
    Cert.ReferenceIdeal.Term.rowMax lg (ix1 r)
      = max Stages.ninf (Host.reduce (FloatOps.maximumf (F := Ideal) (φ := .f32)) lg
          (constant (F := Ideal) Cert.ReferenceIdeal.S_ .f32 0xFF800000#32)
          Cert.ReferenceIdeal.Facts₀.reducesTo_S16384x16_S16384_d1 Cert.ReferenceIdeal.Facts₀.h_S_ (ix1 r)) := rfl

theorem rowMax_apply (lg : FVec Ideal (⟨2, ![16384, 16]⟩ : Shape) .f32) (r : Fin 16384) :
    Cert.ReferenceIdeal.Term.rowMax lg (ix1 r) = rowMaxOf lg r := by
  have h := rowReduces
  rw [rowMax_unfold, Host.reduce_eq_fold_single (FloatOps.maximumf (F := Ideal) (φ := .f32)) lg _ _ h _ (ix1 r)]
  unfold rowMaxOf
  refine congrArg (max Stages.ninf) ?_
  have hf : (lg ∘ h.lift (ix1 r)) = fun k : Fin 16 => lg (ix2 r k) := funext fun k => congrArg lg (lift_row h r k)
  exact congrArg (fun f => Finset.fold max Stages.ninf f (Finset.univ : Finset (Fin 16))) hf

theorem expRow_unfold (lg : FVec Ideal (⟨2, ![16384, 16]⟩ : Shape) .f32) (r : Fin 16384) (j : Fin 16) :
    Cert.ReferenceIdeal.Term.expRow lg (ix2 r j)
      = Ideal.exp (lg (ix2 r j)
          - (broadcastInDim Cert.ReferenceIdeal.S16384x16 ![0, 1] Cert.ReferenceIdeal.Facts₀.bcast_S16384x1_S16384x16_0_1
              (broadcastInDim Cert.ReferenceIdeal.S16384x1 ![0] Cert.ReferenceIdeal.Facts₀.bcast_S16384_S16384x1_0
                (Cert.ReferenceIdeal.Term.rowMax lg))) (ix2 r j)) := rfl

theorem expRow_apply (lg : FVec Ideal (⟨2, ![16384, 16]⟩ : Shape) .f32) (r : Fin 16384) (j : Fin 16) :
    Cert.ReferenceIdeal.Term.expRow lg (ix2 r j) = Ideal.exp (lg (ix2 r j) - rowMaxOf lg r) := by
  rw [expRow_unfold, colSpread_apply, rowMax_apply]

/-- The host quotient of two arrays at an index. -/
theorem hostDivf_at {s : Shape} (a b : FVec Ideal s .f32) (i : s.Idx) : Host.divf (F := Ideal) a b i = Ideal.div (a i) (b i) := rfl

theorem rowSum_unfold (x : FVec Ideal (⟨2, ![16384, 16]⟩ : Shape) .f32) (r : Fin 16384) :
    Host.reduceAdd (F := Ideal) x (constant (F := Ideal) Cert.ReferenceIdeal.S_ .f32 0x00000000#32)
        Cert.ReferenceIdeal.Facts₀.reducesTo_S16384x16_S16384_d1 Cert.ReferenceIdeal.Facts₀.h_S_ (ix1 r)
      = Ideal.hostReduceAdd Cert.ReferenceIdeal.Facts₀.reducesTo_S16384x16_S16384_d1 x Stages.zero (ix1 r) := rfl

/-- The whole-array softmax at (r, j). -/
theorem softmax_apply (lg : FVec Ideal (⟨2, ![16384, 16]⟩ : Shape) .f32) (r : Fin 16384) (j : Fin 16) :
    Cert.ReferenceIdeal.Term.softmax lg (ix2 r j)
      = Ideal.div (Ideal.exp (lg (ix2 r j) - rowMaxOf lg r)) (∑ j' : Fin 16, Ideal.exp (lg (ix2 r j') - rowMaxOf lg r)) := by
  have h := rowReduces
  unfold Cert.ReferenceIdeal.Term.softmax
  rw [hostDivf_at, colSpread_apply, expRow_apply, rowSum_unfold]
  refine congrArg (Ideal.div _) ?_
  rw [Ideal.hostReduceAdd_single _ h, show Stages.zero = 0 from Ideal.ofBits_zero_f32, zero_add]
  refine Finset.sum_congr rfl fun k _ => ?_
  rw [lift_row h r k]
  exact expRow_apply lg r _

/-- The cluster bias recast as a one-row matrix, at (0, j). -/
theorem biasRow16_apply (b : FVec Ideal (⟨1, ![16]⟩ : Shape) .f32) (j : Fin 16) :
    shapeCast Cert.KernelIdeal.S1x16 b Cert.KernelIdeal.Facts₀.shapeCasts_S16_S1x16 (ix2 0 j) = b (ix1 j) := by
  refine (shapeCast_addUnit_apply (n := 1) (![16]) b _ (ix2 0 j)).trans ?_
  refine congrArg b (funext fun a => ?_)
  match a with
  | ⟨0, _⟩ => rfl

/-- The cluster bias spread over the nodes, at (r, j). -/
theorem bias16_apply (b : FVec Ideal (⟨1, ![16]⟩ : Shape) .f32) (r : Fin 16384) (j : Fin 16) :
    (broadcastInDim Cert.ReferenceIdeal.S16384x16 ![0, 1] Cert.ReferenceIdeal.Facts₀.bcast_S1x16_S16384x16_0_1
      (broadcastInDim Cert.ReferenceIdeal.S1x16 ![1] Cert.ReferenceIdeal.Facts₀.bcast_S16_S1x16_1 b)) (ix2 r j) = b (ix1 j) := by
  refine (broadcastInDim_apply _ _ _ (ix2 r j) (ix2 0 j) ?_).trans ?_
  · intro a
    match a with
    | ⟨0, _⟩ => rfl
    | ⟨1, _⟩ => rfl
  · refine broadcastInDim_apply _ _ _ (ix2 0 j) (ix1 j) ?_
    intro a
    match a with
    | ⟨0, _⟩ => rfl

/-- The product with the cluster weights at (r, j). -/
theorem hWc_apply (H : Stages.Arr2 16384 256) (Wc : Stages.Arr2 256 16) (r : Fin 16384) (j : Fin 16) :
    Host.dotGeneral (F := Ideal) (φ₁ := .f32) (φ₂ := .f32) Cert.ReferenceIdeal.dot_S16384x256_S256x16_S16384x16_1_0_0_1_n_n none H Wc (ix2 r j)
      = ∑ k : Fin 256, H (ix2 r k) * Wc (ix2 k j) :=
  StackMember.dotGeneral_plain_apply (m := 16384) (k := 256) (n := 16) (φ₁ := .f32) (φ₂ := .f32) none H Wc r j

/-- The rectified, biased aggregate at (r, k). -/
theorem relu_bias_apply (A : Stages.Arr2 16384 256) (b1 : FVec Ideal (⟨1, ![256]⟩ : Shape) .f32) (r : Fin 16384) (k : Fin 256) :
    Cert.ReferenceIdeal.Term.relu256 (addf A (Cert.ReferenceIdeal.Term.bias256 b1)) (ix2 r k)
      = max (A (ix2 r k) + b1 (ix1 k)) Stages.zero := by
  show max (A (ix2 r k) + Cert.ReferenceIdeal.Term.bias256 b1 (ix2 r k)) Stages.zero = _
  rw [Bridge0.bias256_apply]

/-- The whole-array logits at (r, j) are the dense stage's. -/
theorem logits_apply (A : Stages.Arr2 16384 256) (b1 : FVec Ideal (⟨1, ![256]⟩ : Shape) .f32) (Wc : Stages.Arr2 256 16)
    (bc : FVec Ideal (⟨1, ![16]⟩ : Shape) .f32) (r : Fin 16384) (j : Fin 16) :
    (addf (Host.dotGeneral (F := Ideal) (φ₁ := .f32) (φ₂ := .f32) Cert.ReferenceIdeal.dot_S16384x256_S256x16_S16384x16_1_0_0_1_n_n none
        (Cert.ReferenceIdeal.Term.relu256 (addf A (Cert.ReferenceIdeal.Term.bias256 b1))) Wc)
      (broadcastInDim Cert.ReferenceIdeal.S16384x16 ![0, 1] Cert.ReferenceIdeal.Facts₀.bcast_S1x16_S16384x16_0_1
        (broadcastInDim Cert.ReferenceIdeal.S1x16 ![1] Cert.ReferenceIdeal.Facts₀.bcast_S16_S1x16_1 bc))) (ix2 r j)
      = Stages.logitAt A (shapeCast Cert.KernelIdeal.S1x256 b1 Cert.KernelIdeal.Facts₀.shapeCasts_S256_S1x256) Wc
          (shapeCast Cert.KernelIdeal.S1x16 bc Cert.KernelIdeal.Facts₀.shapeCasts_S16_S1x16) r j := by
  refine (congrArg₂ (· + ·) (hWc_apply _ Wc r j) (bias16_apply bc r j)).trans ?_
  unfold Stages.logitAt
  rw [biasRow16_apply]
  refine congrArg (· + bc (ix1 j)) (Finset.sum_congr rfl fun k _ => ?_)
  rw [Bridge0.biasRow_apply, relu_bias_apply]

/-- An array whose entries are the dense stage's logits has the dense stage's softmax. -/
theorem pool_of_logits (A : Stages.Arr2 16384 256) (b : Stages.Arr2 1 256) (Wc : Stages.Arr2 256 16) (bc : Stages.Arr2 1 16)
    (lg : FVec Ideal (⟨2, ![16384, 16]⟩ : Shape) .f32) (hl : ∀ r j, lg (ix2 r j) = Stages.logitAt A b Wc bc r j) :
    Stages.pool A b Wc bc = Cert.ReferenceIdeal.Term.softmax lg := by
  funext i
  obtain ⟨r, j, rfl⟩ : ∃ (r : Fin 16384) (j : Fin 16), i = ix2 r j := ⟨i 0, i 1, eq_ix2 i⟩
  rw [softmax_apply]
  unfold rowMaxOf
  simp only [hl]
  rfl

/-- THE CLUSTER HEAD: the dense stage's array is the whole-array softmax of the whole-array logits. -/
theorem pool_eq (A : Stages.Arr2 16384 256) (b1 : FVec Ideal (⟨1, ![256]⟩ : Shape) .f32) (Wc : Stages.Arr2 256 16)
    (bc : FVec Ideal (⟨1, ![16]⟩ : Shape) .f32) :
    Stages.pool A (shapeCast Cert.KernelIdeal.S1x256 b1 Cert.KernelIdeal.Facts₀.shapeCasts_S256_S1x256) Wc
        (shapeCast Cert.KernelIdeal.S1x16 bc Cert.KernelIdeal.Facts₀.shapeCasts_S16_S1x16)
      = Cert.ReferenceIdeal.Term.softmax
          (addf (Host.dotGeneral (F := Ideal) (φ₁ := .f32) (φ₂ := .f32) Cert.ReferenceIdeal.dot_S16384x256_S256x16_S16384x16_1_0_0_1_n_n none
              (Cert.ReferenceIdeal.Term.relu256 (addf A (Cert.ReferenceIdeal.Term.bias256 b1))) Wc)
            (broadcastInDim Cert.ReferenceIdeal.S16384x16 ![0, 1] Cert.ReferenceIdeal.Facts₀.bcast_S1x16_S16384x16_0_1
              (broadcastInDim Cert.ReferenceIdeal.S1x16 ![1] Cert.ReferenceIdeal.Facts₀.bcast_S16_S1x16_1 bc))) :=
  pool_of_logits _ _ _ _ _ (logits_apply A b1 Wc bc)

end Cert.Bridge2

end
-- ==== Proof.Bridge.lean ====
/-
  The two programs' results are one pair of functions of the arguments.

Layer 0 is joined by the aggregation law (finite features and weights); layer 1 is the same matrix product, blocked in
one program and whole in the other; the second aggregation is the same gather and scatter-add; the cluster head is the
same softmax; and the loss is the same chain of whole-array operations on the cluster assignment (the requested
precision of the Gram product only chooses roundings, which the extended reals do not have).
-/
import proofs.«109023_j22943715295834_2_alg».proof.Proof.Bridge0
import proofs.«109023_j22943715295834_2_alg».proof.Proof.Bridge2

noncomputable section

open scoped BigOperators

namespace Cert.Bridge

open Idealize.ShloMosaic Idealize.ShloMosaic.ValueIdx

variable [Cert.KernelIdeal.Facts] [Cert.ReferenceIdeal.Facts]

/-- Layer 1: the blocked product is the whole product. -/
theorem dense_eq (H : Stages.Arr2 16384 256) (W1 : Stages.Arr2 256 256) :
    Stages.dense H W1
      = Host.dotGeneral (F := Ideal) (φ₁ := .f32) (φ₂ := .f32) Cert.ReferenceIdeal.dot_S16384x256_S256x256_S16384x256_1_0_0_1_n_n none H W1 := by
  funext i
  obtain ⟨r, j, rfl⟩ : ∃ (r : Fin 16384) (j : Fin 256), i = ix2 r j := ⟨i 0, i 1, eq_ix2 i⟩
  show Stages.denseAt H W1 r j = Host.dotGeneral (F := Ideal) (φ₁ := .f32) (φ₂ := .f32) (DotDims.plain 16384 256 256) none H W1 (ix2 r j)
  rw [StackMember.dotGeneral_plain_apply]
  rfl

/-- The second aggregation is the same gather and scatter-add in both programs. -/
theorem agg256_eq (ei : IVec (⟨2, ![2, 262144]⟩ : Shape) 32) (p : Stages.Arr2 16384 256) :
    Cert.KernelIdeal.Term.agg256 ei p = Cert.ReferenceIdeal.Term.agg256 ei p := rfl

/-- The Gram product of the cluster assignment: the requested precision does not change an exact product. -/
theorem gram_eq (sv : Stages.Arr2 16384 16) :
    Host.dotGeneral (F := Ideal) (φ₁ := .f32) (φ₂ := .f32) Cert.KernelIdeal.dot_S16x16384_S16384x16_S16x16_1_0_0_1_n_n (some .fp32)
        (transpose Cert.KernelIdeal.S16x16384 [1, 0] sv Cert.KernelIdeal.Facts₀.transposes_S16384x16_S16x16384_1_0) sv
      = Cert.ReferenceIdeal.Term.gram sv := rfl

/-- The loss is the same function of the cluster assignment. -/
theorem tail_eq (sv : Stages.Arr2 16384 16) : Cert.KernelIdeal.Term.tail sv = Cert.ReferenceIdeal.Term.tail sv := by
  unfold Cert.KernelIdeal.Term.tail Cert.ReferenceIdeal.Term.tail Cert.ReferenceIdeal.Term.trace16
  rw [gram_eq]

variable (x : Stages.Arr2 16384 128) (ei : IVec (⟨2, ![2, 262144]⟩ : Shape) 32) (W0 : Stages.Arr2 128 256)
  (b0 : FVec Ideal (⟨1, ![256]⟩ : Shape) .f32) (W1 : Stages.Arr2 256 256) (b1 : FVec Ideal (⟨1, ![256]⟩ : Shape) .f32)
  (Wc : Stages.Arr2 256 16) (bc : FVec Ideal (⟨1, ![16]⟩ : Shape) .f32)

/-- The cluster assignments agree when the features and the first weight matrix are finite. -/
theorem s_eq (hx : ∀ i, x i ≠ ⊤ ∧ x i ≠ ⊥) (hW : ∀ i, W0 i ≠ ⊤ ∧ W0 i ≠ ⊥) :
    Cert.KernelIdeal.Term.s x ei W0 b0 W1 b1 Wc bc = Cert.ReferenceIdeal.Term.s x ei W0 b0 W1 b1 Wc bc := by
  unfold Cert.KernelIdeal.Term.s Cert.ReferenceIdeal.Term.s Cert.ReferenceIdeal.Term.logits Cert.ReferenceIdeal.Term.h1
    Cert.KernelIdeal.Term.l1 Cert.ReferenceIdeal.Term.l1
  rw [Bridge0.h0_eq x ei W0 b0 hx hW, dense_eq, agg256_eq]
  exact Bridge2.pool_eq _ b1 Wc bc

theorem out_s_eq (hx : ∀ i, x i ≠ ⊤ ∧ x i ≠ ⊥) (hW : ∀ i, W0 i ≠ ⊤ ∧ W0 i ≠ ⊥) :
    Cert.KernelIdeal.Term.out_s x ei W0 b0 W1 b1 Wc bc = Cert.ReferenceIdeal.Term.out_s x ei W0 b0 W1 b1 Wc bc :=
  s_eq x ei W0 b0 W1 b1 Wc bc hx hW

theorem out_loss_eq (hx : ∀ i, x i ≠ ⊤ ∧ x i ≠ ⊥) (hW : ∀ i, W0 i ≠ ⊤ ∧ W0 i ≠ ⊥) :
    Cert.KernelIdeal.Term.out_loss x ei W0 b0 W1 b1 Wc bc = Cert.ReferenceIdeal.Term.out_loss x ei W0 b0 W1 b1 Wc bc := by
  show Cert.KernelIdeal.Term.tail (Cert.KernelIdeal.Term.s x ei W0 b0 W1 b1 Wc bc)
    = Cert.ReferenceIdeal.Term.tail (Cert.ReferenceIdeal.Term.s x ei W0 b0 W1 b1 Wc bc)
  rw [s_eq x ei W0 b0 W1 b1 Wc bc hx hW, tail_eq]

end Cert.Bridge

end
-- ==== Proof.lean ====
/-
  The certificate of the graph-network kernel against its plain reference.

The three frames: the two kernel programs' are the generated whole-program frames (three dense stages among host
stretches); the reference's is its run with the results dropped.  Nothing was rewritten by the idealization, so
`preserves` is trivial.  The algebraic claim: the kernel program's run ends with the cluster assignment and the loss
at two named functions of the eight argument arrays (each dense stage read back as one whole-array function: a
rectified affine map, a matrix product, a row softmax), the reference's run ends at its own two functions, and under the
precondition — which makes the node features and the first weight matrix finite — the two pairs of functions agree:
aggregating the gathered rows before or after the first matrix product gives the same finite double sum, and every
later stage is the same expression on both sides.
-/
import proofs.«109023_j22943715295834_2_alg».proof.Defs
import proofs.«109023_j22943715295834_2_alg».proof.Proof.Gen.Kernel
import proofs.«109023_j22943715295834_2_alg».proof.Proof.Gen.Kernel.Frame
import proofs.«109023_j22943715295834_2_alg».proof.Proof.Gen.KernelIdeal
import proofs.«109023_j22943715295834_2_alg».proof.Proof.Gen.KernelIdeal.Frame
import proofs.«109023_j22943715295834_2_alg».proof.Proof.Gen.ReferenceIdeal
import proofs.«109023_j22943715295834_2_alg».proof.Proof.Gen.Pre_finite_inputs
import proofs.«109023_j22943715295834_2_alg».proof.Proof.Reg01
import proofs.«109023_j22943715295834_2_alg».proof.Proof.Reg2
import proofs.«109023_j22943715295834_2_alg».proof.Proof.KerRun
import proofs.«109023_j22943715295834_2_alg».proof.Proof.RefRun
import proofs.«109023_j22943715295834_2_alg».proof.Proof.Finite
import proofs.«109023_j22943715295834_2_alg».proof.Proof.Bridge
import Idealize.ShloMosaic.Adequacy
import Idealize.ShloMosaic.Init

noncomputable section

namespace Cert.Proof

open Idealize.ShloMosaic Idealize.SL.Sem

section
variable [Cert.KernelIdeal.Facts] [Cert.ReferenceIdeal.Facts] [Cert.Pre_finite_inputs.Facts]

/-- The reference runs, and its arguments end unchanged: its run with the two results dropped. -/
theorem frame_ri : Cert.frame_ReferenceIdeal := fun m ρ _ =>
  (θ_run Cert.ReferenceIdeal.defs _ _).mono (fun _ h c => (h c).2.2) (Cert.ReferenceIdeal.RefRun.run m ρ)

/-- Both idealized programs run, and end with equal cluster assignments and equal losses. -/
theorem algebraic : Cert.algebraic_KernelIdeal_ReferenceIdeal := by
  intro m ρ m' ρ' hpre hagree
  refine ⟨_, _, Cert.KernelIdeal.KerRun.run m ρ Cert.KernelIdeal.Reg.final0 Cert.KernelIdeal.Reg.final1
    Cert.KernelIdeal.Reg.final2, ?_⟩
  refine (θ_run Cert.ReferenceIdeal.defs _ _).mono (fun _ h c => ⟨(h c).1.trans ?_, (h c).2.1.trans ?_, (h c).2.2⟩)
    (Cert.ReferenceIdeal.RefRun.run m' ρ')
  · obtain ⟨e0, e1, e2, e3, e4, e5, e6, e7⟩ := hagree c
    obtain ⟨hx, hW⟩ := Cert.Finite.finite_of_pre _ _ _ _ _ _ _ _ (hpre c)
    rw [e0, e1, e2, e3, e4, e5, e6, e7]
    exact (Cert.Bridge.out_s_eq _ _ _ _ _ _ _ _ hx hW).symm
  · obtain ⟨e0, e1, e2, e3, e4, e5, e6, e7⟩ := hagree c
    obtain ⟨hx, hW⟩ := Cert.Finite.finite_of_pre _ _ _ _ _ _ _ _ (hpre c)
    rw [e0, e1, e2, e3, e4, e5, e6, e7]
    exact (Cert.Bridge.out_loss_eq _ _ _ _ _ _ _ _ hx hW).symm

end

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
